-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x14x14 : Shape := ⟨4, ![128, 2048, 14, 14]⟩
abbrev S112x2048 : Shape := ⟨2, ![112, 2048]⟩
abbrev S1x2048 : Shape := ⟨2, ![1, 2048]⟩
abbrev S1 : Shape := ⟨1, ![1]⟩
abbrev S200x229376 : Shape := ⟨2, ![200, 229376]⟩
abbrev S200 : Shape := ⟨1, ![200]⟩
abbrev S_ : Shape := ⟨0, ![]⟩

class Facts : Prop where
  bcast_S_S128x2048x14x14 : S_.BroadcastsInDim S128x2048x14x14 (![] : Fin 0 → Fin S128x2048x14x14.rank)
  reducesTo_S128x2048x14x14_S_d0_1_2_3 : S128x2048x14x14.ReducesTo [0, 1, 2, 3] S_
  h_S_ : 0 < S_.numel
  bcast_S_S112x2048 : S_.BroadcastsInDim S112x2048 (![] : Fin 0 → Fin S112x2048.rank)
  reducesTo_S112x2048_S_d0_1 : S112x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S200x229376 : S_.BroadcastsInDim S200x229376 (![] : Fin 0 → Fin S200x229376.rank)
  reducesTo_S200x229376_S_d0_1 : S200x229376.ReducesTo [0, 1] S_
  bcast_S_S200 : S_.BroadcastsInDim S200 (![] : Fin 0 → Fin S200.rank)
  reducesTo_S200_S_d0 : S200.ReducesTo [0] S_

variable [Facts]

def fn_part2 {F : FTy → Type} [FloatOps F] (main_arg7 : FVec F S200 .f32) (main_v33 : IVec S_ 1) : IVec S_ 1 :=
  let main_v34 : FVec F S200 .f32 := Host.absf main_arg7
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  main_v38

def fn_part1 {F : FTy → Type} [FloatOps F] (main_arg4 : FVec F S1x2048 .f32) (main_arg5 : FVec F S1 .f32) (main_arg6 : FVec F S200x229376 .f32) (main_arg7 : FVec F S200 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S200x229376 .f32 := Host.absf main_arg6
  let main_cst_10 : FVec F S_ .f32 := constant S_ .f32 0x7F800000#32
  let main_v30 : FVec F S200x229376 .f32 := broadcastInDim S200x229376 ![] bcast_S_S200x229376 main_cst_10
  let main_v31 : IVec S200x229376 1 := cmpf .olt main_v29 main_v30
  let main_c_11 : IVec S_ 1 := constantI S_ 1 1#1
  let main_v32 : IVec S_ 1 := (fun x v => Host.reduce IntOp.andi x v reducesTo_S200x229376_S_d0_1 h_S_) main_v31 main_c_11
  let main_v33 : IVec S_ 1 := andi main_v28 main_v32
  fn_part2 (F := F) main_arg7 main_v33

def fn {F : FTy → Type} [FloatOps F] (main_arg0 : FVec F S128x2048x14x14 .f32) (main_arg1 : FVec F S112x2048 .f32) (main_arg2 : FVec F S1x2048 .f32) (main_arg3 : FVec F S1x2048 .f32) (main_arg4 : FVec F S1x2048 .f32) (main_arg5 : FVec F S1 .f32) (main_arg6 : FVec F S200x229376 .f32) (main_arg7 : FVec F S200 .f32) : IVec S_ 1 :=
  let main_v0 : FVec F S128x2048x14x14 .f32 := Host.absf main_arg0
  let main_cst : FVec F S_ .f32 := constant S_ .f32 0x7F800000#32
  let main_v1 : FVec F S128x2048x14x14 .f32 := broadcastInDim S128x2048x14x14 ![] bcast_S_S128x2048x14x14 main_cst
  let main_v2 : IVec S128x2048x14x14 1 := cmpf .olt main_v0 main_v1
  let main_c : IVec S_ 1 := constantI S_ 1 1#1
  let main_v3 : IVec S_ 1 := (fun x v => Host.reduce IntOp.andi x v reducesTo_S128x2048x14x14_S_d0_1_2_3 h_S_) main_v2 main_c
  let main_v4 : FVec F S112x2048 .f32 := Host.absf main_arg1
  let main_cst_0 : FVec F S_ .f32 := constant S_ .f32 0x7F800000#32
  let main_v5 : FVec F S112x2048 .f32 := broadcastInDim S112x2048 ![] bcast_S_S112x2048 main_cst_0
  let main_v6 : IVec S112x2048 1 := cmpf .olt main_v4 main_v5
  let main_c_1 : IVec S_ 1 := constantI S_ 1 1#1
  let main_v7 : IVec S_ 1 := (fun x v => Host.reduce IntOp.andi x v reducesTo_S112x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_v13 main_v16
-- ==== Kernel.lean ====
abbrev S128x2048x14x14 : Shape := ⟨4, ![128, 2048, 14, 14]⟩
abbrev S112x2048 : Shape := ⟨2, ![112, 2048]⟩
abbrev S1x2048 : Shape := ⟨2, ![1, 2048]⟩
abbrev S1 : Shape := ⟨1, ![1]⟩
abbrev S200x229376 : Shape := ⟨2, ![200, 229376]⟩
abbrev S200 : Shape := ⟨1, ![200]⟩
abbrev S128x2048x196 : Shape := ⟨3, ![128, 2048, 196]⟩
abbrev S114x2048 : Shape := ⟨2, ![114, 2048]⟩
abbrev S128x113x196 : Shape := ⟨3, ![128, 113, 196]⟩
abbrev S128x112 : Shape := ⟨2, ![128, 112]⟩
abbrev S8x2048x196 : Shape := ⟨3, ![8, 2048, 196]⟩
abbrev S8x113x196 : Shape := ⟨3, ![8, 113, 196]⟩
abbrev S8x112 : Shape := ⟨2, ![8, 112]⟩
abbrev S113x2048 : Shape := ⟨2, ![113, 2048]⟩
abbrev S113 : Shape := ⟨1, ![113]⟩
abbrev S113x1 : Shape := ⟨2, ![113, 1]⟩
abbrev S1x2048x196 : Shape := ⟨3, ![1, 2048, 196]⟩
abbrev S2048x196 : Shape := ⟨2, ![2048, 196]⟩
abbrev S114x196 : Shape := ⟨2, ![114, 196]⟩
abbrev S113x196 : Shape := ⟨2, ![113, 196]⟩
abbrev S1x196 : Shape := ⟨2, ![1, 196]⟩
abbrev S196 : Shape := ⟨1, ![196]⟩
abbrev S1x113x196 : Shape := ⟨3, ![1, 113, 196]⟩
abbrev S112x196 : Shape := ⟨2, ![112, 196]⟩
abbrev S112 : Shape := ⟨1, ![112]⟩
abbrev S1x112 : Shape := ⟨2, ![1, 112]⟩
abbrev S128x113x14x14 : Shape := ⟨4, ![128, 113, 14, 14]⟩
abbrev S200x112x2048 : Shape := ⟨3, ![200, 112, 2048]⟩
abbrev S200x112 : Shape := ⟨2, ![200, 112]⟩
abbrev S8x112x2048 : Shape := ⟨3, ![8, 112, 2048]⟩
abbrev S8x112x512 : Shape := ⟨3, ![8, 112, 512]⟩
abbrev S112x512 : Shape := ⟨2, ![112, 512]⟩
abbrev S1x512 : Shape := ⟨2, ![1, 512]⟩
abbrev S1x112x512 : Shape := ⟨3, ![1, 112, 512]⟩
abbrev S1x1x512 : Shape := ⟨3, ![1, 1, 512]⟩
abbrev S_ : Shape := ⟨0, ![]⟩
abbrev S112x200 : Shape := ⟨2, ![112, 200]⟩
abbrev S128x200 : Shape := ⟨2, ![128, 200]⟩
abbrev S1x200 : Shape := ⟨2, ![1, 200]⟩

abbrev nBuf : Space → Nat
  | .hbm => 27
  | .vmem => 16
  | .smem => 0
  | _ => 0

abbrev bufTy : (tb : Table) → Fin (tcTables nBuf tb) → BufTy
  | .hbm, ⟨0, _⟩ => ⟨S128x2048x14x14, .f32⟩
  | .hbm, ⟨1, _⟩ => ⟨S112x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1, .f32⟩
  | .hbm, ⟨6, _⟩ => ⟨S200x229376, .f32⟩
  | .hbm, ⟨7, _⟩ => ⟨S200, .f32⟩
  | .hbm, ⟨8, _⟩ => ⟨S128x2048x196, .f32⟩
  | .hbm, ⟨9, _⟩ => ⟨S114x2048, .f32⟩
  | .hbm, ⟨10, _⟩ => ⟨S128x113x196, .f32⟩
  | .hbm, ⟨11, _⟩ => ⟨S128x112, .f32⟩
  | .hbm, ⟨12, _⟩ => ⟨S128x113x14x14, .f32⟩
  | .hbm, ⟨13, _⟩ => ⟨S200x112x2048, .f32⟩
  | .hbm, ⟨14, _⟩ => ⟨S200x112, .f32⟩
  | .hbm, ⟨15, _⟩ => ⟨S200x112, .f32⟩
  | .hbm, ⟨16, _⟩ => ⟨S200x112, .f32⟩
  | .hbm, ⟨17, _⟩ => ⟨S_, .f32⟩
  | .hbm, ⟨18, _⟩ => ⟨S200, .f32⟩
  | .hbm, ⟨19, _⟩ => ⟨S112x200, .f32⟩
  | .hbm, ⟨20, _⟩ => ⟨S128x200, .f32⟩
  | .hbm, ⟨21, _⟩ => ⟨S1x200, .f32⟩
  | .hbm, ⟨22, _⟩ => ⟨S128x200, .f32⟩
  | .hbm, ⟨23, _⟩ => ⟨S128x200, .f32⟩
  | .hbm, ⟨24, _⟩ => ⟨S1x200, .f32⟩
  | .hbm, ⟨25, _⟩ => ⟨S128x200, .f32⟩
  | .hbm, ⟨26, _⟩ => ⟨S128x200, .f32⟩
  | .local _ .vmem, ⟨0, _⟩ => ⟨S8x2048x196, .f32⟩
  | .local _ .vmem, ⟨1, _⟩ => ⟨S8x2048x196, .f32⟩
  | .local _ .vmem, ⟨2, _⟩ => ⟨S114x2048, .f32⟩
  | .local _ .vmem, ⟨3, _⟩ => ⟨S1, .f32⟩
  | .local _ .vmem, ⟨4, _⟩ => ⟨S8x113x196, .f32⟩
  | .local _ .vmem, ⟨5, _⟩ => ⟨S8x113x196, .f32⟩
  | .local _ .vmem, ⟨6, _⟩ => ⟨S8x112, .f32⟩
  | .local _ .vmem, ⟨7, _⟩ => ⟨S8x112, .f32⟩
  | .local _ .vmem, ⟨8, _⟩ => ⟨S8x112x2048, .f32⟩
  | .local _ .vmem, ⟨9, _⟩ => ⟨S8x112x2048, .f32⟩
  | .local _ .vmem, ⟨10, _⟩ => ⟨S112x2048, .f32⟩
  | .local _ .vmem, ⟨11, _⟩ => ⟨S1x2048, .f32⟩
  | .local _ .vmem, ⟨12, _⟩ => ⟨S8x112, .f32⟩
  | .local _ .vmem, ⟨13, _⟩ => ⟨S8x112, .f32⟩
  | .local _ .vmem, ⟨14, _⟩ => ⟨S8x112, .f32⟩
  | .local _ .vmem, ⟨15, _⟩ => ⟨S8x112, .f32⟩
  | _, _ => ⟨S128x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v9 : Index := Scalar.indexCast arg6
  let c0_3 : Index := 0#32
  let c0_4 : Index := 0#32
  ![v9.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v39 : Index := Scalar.indexCast arg6
  let c0_12 : Index := 0#32
  let c0_13 : Index := 0#32
  ![v39.toNat, 0, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let v50 : Index := Scalar.indexCast arg6
  let c0_15 : Index := 0#32
  ![v50.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S114x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x113x196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

@[reducible] def k1_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c512_i32 : BitVec 32 := 512#32
  let v6 : BitVec 32 := Scalar.muli arg6 c512_i32
  v6
def k1_off1 (k1_t1 : Fin k1_t1_loop.trips) : Fin 3 → Nat :=
  let c0_5 : Index := 0#32
  let c0_6 : Index := 0#32
  let c0_i32 : BitVec 32 := 0#32
  let c1_i32 : BitVec 32 := 1#32
  let arg6 : BitVec 32 := Scf.iv c0_i32 c1_i32 k1_t1
  let c512_i32 : BitVec 32 := 512#32
  let v6 : BitVec 32 := Scalar.muli arg6 c512_i32
  let v7 : BitVec 32 := v6
  let v8 : Index := Scalar.indexCast v7
  ![0, 0, v8.toNat]
def k1_off2 (k1_t1 : Fin k1_t1_loop.trips) : Fin 2 → Nat :=
  let c0_7 : Index := 0#32
  let c0_i32 : BitVec 32 := 0#32
  let c1_i32 : BitVec 32 := 1#32
  let arg6 : BitVec 32 := Scf.iv c0_i32 c1_i32 k1_t1
  let c512_i32 : BitVec 32 := 512#32
  let v6 : BitVec 32 := Scalar.muli arg6 c512_i32
  let v7 : BitVec 32 := v6
  let v11 : Index := Scalar.indexCast v7
  ![0, v11.toNat]
def k1_off3 (k1_t1 : Fin k1_t1_loop.trips) : Fin 2 → Nat :=
  let c0_8 : Index := 0#32
  let c0_i32 : BitVec 32 := 0#32
  let c1_i32 : BitVec 32 := 1#32
  let arg6 : BitVec 32 := Scf.iv c0_i32 c1_i32 k1_t1
  let c512_i32 : BitVec 32 := 512#32
  let v6 : BitVec 32 := Scalar.muli arg6 c512_i32
  let v7 : BitVec 32 := v6
  let v13 : Index := Scalar.indexCast v7
  ![0, v13.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x112x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S112x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x112 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x112 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128x2048x14x14_S128x2048x196 : S128x2048x14x14.ShapeCasts S128x2048x196
  concatenates_S112x2048_S1x2048_S1x2048_S114x2048_d0 : Shape.Concatenates [S112x2048, S1x2048, S1x2048] S114x2048 0
  inb_S114x2048_S114x2048_0_0 : ∀ a, (![0, 0] : Fin 2 → Nat) a + S114x2048.size a ≤ S114x2048.size a
  h_S114x2048 : 0 < S114x2048.numel
  shapeCasts_S114x2048_S114x2048 : S114x2048.ShapeCasts S114x2048
  bitsLt_bf16_f32 : FTy.bits .bf16 < FTy.bits .f32
  slices_S114x2048_o0_0_S113x2048 : S114x2048.Slices ![0, 0] S113x2048
  reduces_S113x2048_S113 : S113x2048.Reduces [1] S113
  shapeCasts_S113_S113x1 : S113.ShapeCasts S113x1
  inb_S1_S1_0 : ∀ a, (![0] : Fin 1 → Nat) a + S1.size a ≤ S1.size a
  h_S1 : 0 < S1.numel
  h_S1x2048x196 : 0 < S1x2048x196.numel
  shapeCasts_S1x2048x196_S2048x196 : S1x2048x196.ShapeCasts S2048x196
  slices_S114x196_o0_0_S113x196 : S114x196.Slices ![0, 0] S113x196
  slices_S114x196_o113_0_S1x196 : S114x196.Slices ![113, 0] S1x196
  reduces_S2048x196_S196 : S2048x196.Reduces [0] S196
  shapeCasts_S196_S1x196 : S196.ShapeCasts S1x196
  broadcasts_S113x1_S113x196 : S113x1.Broadcasts S113x196
  broadcasts_S1x196_S113x196 : S1x196.Broadcasts S113x196
  reduces_S113x196_S196 : S113x196.Reduces [0] S196
  h_S1x113x196 : 0 < S1x113x196.numel
  shapeCasts_S1x113x196_S113x196 : S1x113x196.ShapeCasts S113x196
  shapeCasts_S113x196_S1x113x196 : S113x196.ShapeCasts S1x113x196
  slices_S113x196_o0_0_S112x196 : S113x196.Slices ![0, 0] S112x196
  broadcasts_S1x196_S112x196 : S1x196.Broadcasts S112x196
  reduces_S112x196_S112 : S112x196.Reduces [1] S112
  broadcasts_S1_S112 : S1.Broadcasts S112
  h_S1x112 : 0 < S1x112.numel
  shapeCasts_S1x112_S112 : S1x112.ShapeCasts S112
  shapeCasts_S112_S1x112 : S112.ShapeCasts S1x112
  shapeCasts_S128x113x196_S128x113x14x14 : S128x113x196.ShapeCasts S128x113x14x14
  shapeCasts_S200x229376_S200x112x2048 : S200x229376.ShapeCasts S200x112x2048
  h_S8x112x512 : 0 < S8x112x512.numel
  shapeCasts_S8x112x512_S8x112x512 : S8x112x512.ShapeCasts S8x112x512
  h_S112x512 : 0 < S112x512.numel
  h_S1x512 : 0 < S1x512.numel
  shapeCasts_S112x512_S1x112x512 : S112x512.ShapeCasts S1x112x512
  broadcasts_S1x112x512_S8x112x512 : S1x112x512.Broadcasts S8x112x512
  reduces_S8x112x512_S8x112 : S8x112x512.Reduces [2] S8x112
  shapeCasts_S1x512_S1x1x512 : S1x512.ShapeCasts S1x1x512
  broadcasts_S1x1x512_S8x112x512 : S1x1x512.Broadcasts S8x112x512
  inb_S8x112_S8x112_0_0 : ∀ a, (![0, 0] : Fin 2 → Nat) a + S8x112.size a ≤ S8x112.size a
  h_S8x112 : 0 < S8x112.numel
  reducesTo_S200x112_S200_d1 : S200x112.ReducesTo [1] S200
  h_S_ : 0 < S_.numel
  transposes_S200x112_S112x200_1_0 : S200x112.Transposes [1, 0] S112x200
  bcast_S200_S1x200_1 : S200.BroadcastsInDim S1x200 (![1] : Fin 1 → Fin S1x200.rank)
  bcast_S1x200_S128x200_0_1 : S1x200.BroadcastsInDim S128x200 (![0, 1] : Fin 2 → Fin S128x200.rank)
  dot_S114x2048_S2048x196_S114x196_1_0_0_1_n_n_wf : DotDims.WF S114x2048 S2048x196 S114x196 [1] [0] [0] [1] [] []
  dot_S128x112_S112x200_S128x200_1_0_0_1_n_n_wf : DotDims.WF S128x112 S112x200 S128x200 [1] [0] [0] [1] [] []
  hrank0 : 0 < grid0.rank
  k0_t1_ok : k0_t1_loop.OK
  k0_off1_inb : ∀ k0_t1 : Fin k0_t1_loop.trips, ∀ a, (k0_off1 k0_t1) a + S1x2048x196.size a ≤ S8x2048x196.size a
  k0_off2_inb : ∀ k0_t1 : Fin k0_t1_loop.trips, ∀ a, (k0_off2 k0_t1) a + S1x113x196.size a ≤ S8x113x196.size a
  k0_off3_inb : ∀ k0_t1 : Fin k0_t1_loop.trips, ∀ a, (k0_off3 k0_t1) a + S1x112.size a ≤ S8x112.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x196.size a ≤ S128x2048x196.size a
  hwx0_0 : ∀ i : grid0.Coords, EltTy.bits .f32 = 32 ∨ (Rect.block (s := S128x2048x196) S8x2048x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S114x2048.size a ≤ S114x2048.size a
  hwx0_1 : ∀ i : grid0.Coords, EltTy.bits .f32 = 32 ∨ (Rect.block (s := S114x2048) S114x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x113x196.size a ≤ S128x113x196.size a
  hwx0_3 : ∀ i : grid0.Coords, EltTy.bits .f32 = 32 ∨ (Rect.block (s := S128x113x196) S8x113x196.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x112.size a ≤ S128x112.size a
  hwx0_4 : ∀ i : grid0.Coords, EltTy.bits .f32 = 32 ∨ (Rect.block (s := S128x112) S8x112.size (cc0_transform_4 i) (hinb0_4 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S8x112x512.size a ≤ S8x112x2048.size a
  k1_off2_inb : ∀ k1_t1 : Fin k1_t1_loop.trips, ∀ a, (k1_off2 k1_t1) a + S112x512.size a ≤ S112x2048.size a
  k1_off3_inb : ∀ k1_t1 : Fin k1_t1_loop.trips, ∀ a, (k1_off3 k1_t1) a + S1x512.size a ≤ S1x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x112x2048.size a ≤ S200x112x2048.size a
  hwx1_0 : ∀ i : grid1.Coords, EltTy.bits .f32 = 32 ∨ (Rect.block (s := S200x112x2048) S8x112x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S112x2048.size a ≤ S112x2048.size a
  hwx1_1 : ∀ i : grid1.Coords, EltTy.bits .f32 = 32 ∨ (Rect.block (s := S112x2048) S112x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x112.size a ≤ S200x112.size a
  hwx1_3 : ∀ i : grid1.Coords, EltTy.bits .f32 = 32 ∨ (Rect.block (s := S200x112) S8x112.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x112.size a ≤ S200x112.size a
  hwx1_4 : ∀ i : grid1.Coords, EltTy.bits .f32 = 32 ∨ (Rect.block (s := S200x112) S8x112.size (cc1_transform_4 i) (hinb1_4 i)).WholeWords (EltTy.packing .f32)

variable [Facts₀]

def dot_S114x2048_S2048x196_S114x196_1_0_0_1_n_n : DotDims S114x2048 S2048x196 S114x196 where
  lhsContracting := [1]
  rhsContracting := [0]
  lhsNonContracting := [0]
  rhsNonContracting := [1]
  lhsBatch := []
  rhsBatch := []
  wf := dot_S114x2048_S2048x196_S114x196_1_0_0_1_n_n_wf
def dot_S128x112_S112x200_S128x200_1_0_0_1_n_n : DotDims S128x112 S112x200 S128x200 where
  lhsContracting := [1]
  rhsContracting := [0]
  lhsNonContracting := [0]
  rhsNonContracting := [1]
  lhsBatch := []
  rhsBatch := []
  wf := dot_S128x112_S112x200_S128x200_1_0_0_1_n_n_wf

abbrev win0_0 : Pipeline.Window sig grid0 :=
  Pipeline.Window.ofSpec (Memref.whole main_v0) S8x2048x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S114x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S8x113x196.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S8x112.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S8x112x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S112x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S8x112.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S8x112.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x2048x14x14 : Shape := ⟨4, ![128, 2048, 14, 14]⟩
abbrev S112x2048 : Shape := ⟨2, ![112, 2048]⟩
abbrev S1x2048 : Shape := ⟨2, ![1, 2048]⟩
abbrev S1 : Shape := ⟨1, ![1]⟩
abbrev S200x229376 : Shape := ⟨2, ![200, 229376]⟩
abbrev S200 : Shape := ⟨1, ![200]⟩
abbrev S128x2048x196 : Shape := ⟨3, ![128, 2048, 196]⟩
abbrev S128x196x2048 : Shape := ⟨3, ![128, 196, 2048]⟩
abbrev S113x2048 : Shape := ⟨2, ![113, 2048]⟩
abbrev S_ : Shape := ⟨0, ![]⟩
abbrev S113 : Shape := ⟨1, ![113]⟩
abbrev S128x196 : Shape := ⟨2, ![128, 196]⟩
abbrev S128x196x113 : Shape := ⟨3, ![128, 196, 113]⟩
abbrev S128x113x196 : Shape := ⟨3, ![128, 113, 196]⟩
abbrev S1x113x1 : Shape := ⟨3, ![1, 113, 1]⟩
abbrev S128x1x196 : Shape := ⟨3, ![128, 1, 196]⟩
abbrev S128x113x14x14 : Shape := ⟨4, ![128, 113, 14, 14]⟩
abbrev S128x112x196 : Shape := ⟨3, ![128, 112, 196]⟩
abbrev S128x112x2048 : Shape := ⟨3, ![128, 112, 2048]⟩
abbrev S128x112x1 : Shape := ⟨3, ![128, 112, 1]⟩
abbrev S1x1x1 : Shape := ⟨3, ![1, 1, 1]⟩
abbrev S128x112 : Shape := ⟨2, ![128, 112]⟩
abbrev S1x112x2048 : Shape := ⟨3, ![1, 112, 2048]⟩
abbrev S1x1x2048 : Shape := ⟨3, ![1, 1, 2048]⟩
abbrev S128x229376 : Shape := ⟨2, ![128, 229376]⟩
abbrev S229376x200 : Shape := ⟨2, ![229376, 200]⟩
abbrev S128x200 : Shape := ⟨2, ![128, 200]⟩
abbrev S1x200 : Shape := ⟨2, ![1, 200]⟩

abbrev nBuf : Space → Nat
  | .hbm => 82
  | .vmem => 0
  | .smem => 0
  | _ => 0

abbrev bufTy : (tb : Table) → Fin (tcTables nBuf tb) → BufTy
  | .hbm, ⟨0, _⟩ => ⟨S128x2048x14x14, .f32⟩
  | .hbm, ⟨1, _⟩ => ⟨S112x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1, .f32⟩
  | .hbm, ⟨6, _⟩ => ⟨S200x229376, .f32⟩
  | .hbm, ⟨7, _⟩ => ⟨S200, .f32⟩
  | .hbm, ⟨8, _⟩ => ⟨S128x2048x196, .f32⟩
  | .hbm, ⟨9, _⟩ => ⟨S128x196x2048, .f32⟩
  | .hbm, ⟨10, _⟩ => ⟨S113x2048, .f32⟩
  | .hbm, ⟨11, _⟩ => ⟨S113x2048, .f32⟩
  | .hbm, ⟨12, _⟩ => ⟨S_, .f32⟩
  | .hbm, ⟨13, _⟩ => ⟨S113, .f32⟩
  | .hbm, ⟨14, _⟩ => ⟨S128x196x2048, .f32⟩
  | .hbm, ⟨15, _⟩ => ⟨S_, .f32⟩
  | .hbm, ⟨16, _⟩ => ⟨S128x196, .f32⟩
  | .hbm, ⟨17, _⟩ => ⟨S128x196x113, .f32⟩
  | .hbm, ⟨18, _⟩ => ⟨S128x113x196, .f32⟩
  | .hbm, ⟨19, _⟩ => ⟨S1x113x1, .f32⟩
  | .hbm, ⟨20, _⟩ => ⟨S128x1x196, .f32⟩
  | .hbm, ⟨21, _⟩ => ⟨S128x113x196, .f32⟩
  | .hbm, ⟨22, _⟩ => ⟨S128x113x196, .f32⟩
  | .hbm, ⟨23, _⟩ => ⟨S128x113x196, .f32⟩
  | .hbm, ⟨24, _⟩ => ⟨S_, .f32⟩
  | .hbm, ⟨25, _⟩ => ⟨S128x113x196, .f32⟩
  | .hbm, ⟨26, _⟩ => ⟨S128x113x196, .f32⟩
  | .hbm, ⟨27, _⟩ => ⟨S128x113x196, .f32⟩
  | .hbm, ⟨28, _⟩ => ⟨S_, .f32⟩
  | .hbm, ⟨29, _⟩ => ⟨S128x113x196, .f32⟩
  | .hbm, ⟨30, _⟩ => ⟨S128x113x196, .f32⟩
  | .hbm, ⟨31, _⟩ => ⟨S128x113x196, .f32⟩
  | .hbm, ⟨32, _⟩ => ⟨S128x113x196, .f32⟩
  | .hbm, ⟨33, _⟩ => ⟨S_, .f32⟩
  | .hbm, ⟨34, _⟩ => ⟨S128x196, .f32⟩
  | .hbm, ⟨35, _⟩ => ⟨S_, .f32⟩
  | .hbm, ⟨36, _⟩ => ⟨S128x196, .f32⟩
  | .hbm, ⟨37, _⟩ => ⟨S128x196, .f32⟩
  | .hbm, ⟨38, _⟩ => ⟨S128x1x196, .f32⟩
  | .hbm, ⟨39, _⟩ => ⟨S128x113x196, .f32⟩
  | .hbm, ⟨40, _⟩ => ⟨S128x113x196, .f32⟩
  | .hbm, ⟨41, _⟩ => ⟨S128x113x196, .f32⟩
  | .hbm, ⟨42, _⟩ => ⟨S_, .f32⟩
  | .hbm, ⟨43, _⟩ => ⟨S128x196, .f32⟩
  | .hbm, ⟨44, _⟩ => ⟨S128x1x196, .f32⟩
  | .hbm, ⟨45, _⟩ => ⟨S128x113x196, .f32⟩
  | .hbm, ⟨46, _⟩ => ⟨S128x113x196, .f32⟩
  | .hbm, ⟨47, _⟩ => ⟨S128x113x14x14, .f32⟩
  | .hbm, ⟨48, _⟩ => ⟨S128x112x196, .f32⟩
  | .hbm, ⟨49, _⟩ => ⟨S128x112x2048, .f32⟩
  | .hbm, ⟨50, _⟩ => ⟨S128x112x1, .f32⟩
  | .hbm, ⟨51, _⟩ => ⟨S1x1x1, .f32⟩
  | .hbm, ⟨52, _⟩ => ⟨S128x112x1, .f32⟩
  | .hbm, ⟨53, _⟩ => ⟨S128x112x1, .f32⟩
  | .hbm, ⟨54, _⟩ => ⟨S128x112x1, .f32⟩
  | .hbm, ⟨55, _⟩ => ⟨S128x112x1, .f32⟩
  | .hbm, ⟨56, _⟩ => ⟨S_, .f32⟩
  | .hbm, ⟨57, _⟩ => ⟨S128x112x1, .f32⟩
  | .hbm, ⟨58, _⟩ => ⟨S128x112x1, .f32⟩
  | .hbm, ⟨59, _⟩ => ⟨S_, .f32⟩
  | .hbm, ⟨60, _⟩ => ⟨S128x112x1, .f32⟩
  | .hbm, ⟨61, _⟩ => ⟨S128x112x1, .f32⟩
  | .hbm, ⟨62, _⟩ => ⟨S128x112, .f32⟩
  | .hbm, ⟨63, _⟩ => ⟨S128x112x1, .f32⟩
  | .hbm, ⟨64, _⟩ => ⟨S1x112x2048, .f32⟩
  | .hbm, ⟨65, _⟩ => ⟨S128x112x2048, .f32⟩
  | .hbm, ⟨66, _⟩ => ⟨S128x112x2048, .f32⟩
  | .hbm, ⟨67, _⟩ => ⟨S128x112x2048, .f32⟩
  | .hbm, ⟨68, _⟩ => ⟨S_, .f32⟩
  | .hbm, ⟨69, _⟩ => ⟨S128x112x1, .f32⟩
  | .hbm, ⟨70, _⟩ => ⟨S128x112x1, .f32⟩
  | .hbm, ⟨71, _⟩ => ⟨S1x1x2048, .f32⟩
  | .hbm, ⟨72, _⟩ => ⟨S128x112x2048, .f32⟩
  | .hbm, ⟨73, _⟩ => ⟨S128x112x2048, .f32⟩
  | .hbm, ⟨74, _⟩ => ⟨S128x112x2048, .f32⟩
  | .hbm, ⟨75, _⟩ => ⟨S128x112x2048, .f32⟩
  | .hbm, ⟨76, _⟩ => ⟨S128x229376, .f32⟩
  | .hbm, ⟨77, _⟩ => ⟨S229376x200, .f32⟩
  | .hbm, ⟨78, _⟩ => ⟨S128x200, .f32⟩
  | .hbm, ⟨79, _⟩ => ⟨S1x200, .f32⟩
  | .hbm, ⟨80, _⟩ => ⟨S128x200, .f32⟩
  | .hbm, ⟨81, _⟩ => ⟨S128x200, .f32⟩
  | _, _ => ⟨S128x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]

class Facts₀ : Prop where
  shapeCasts_S128x2048x14x14_S128x2048x196 : S128x2048x14x14.ShapeCasts S128x2048x196
  transposes_S128x2048x196_S128x196x2048_0_2_1 : S128x2048x196.Transposes [0, 2, 1] S128x196x2048
  concatenates_S112x2048_S1x2048_S113x2048_d0 : Shape.Concatenates [S112x2048, S1x2048] S113x2048 0
  reducesTo_S113x2048_S113_d1 : S113x2048.ReducesTo [1] S113
  h_S_ : 0 < S_.numel
  reducesTo_S128x196x2048_S128x196_d2 : S128x196x2048.ReducesTo [2] S128x196
  transposes_S128x196x113_S128x113x196_0_2_1 : S128x196x113.Transposes [0, 2, 1] S128x113x196
  bcast_S113_S1x113x1_1 : S113.BroadcastsInDim S1x113x1 (![1] : Fin 1 → Fin S1x113x1.rank)
  bcast_S128x196_S128x1x196_0_2 : S128x196.BroadcastsInDim S128x1x196 (![0, 2] : Fin 2 → Fin S128x1x196.rank)
  bcast_S1x113x1_S128x113x196_0_1_2 : S1x113x1.BroadcastsInDim S128x113x196 (![0, 1, 2] : Fin 3 → Fin S128x113x196.rank)
  bcast_S128x1x196_S128x113x196_0_1_2 : S128x1x196.BroadcastsInDim S128x113x196 (![0, 1, 2] : Fin 3 → Fin S128x113x196.rank)
  bcast_S_S128x113x196 : S_.BroadcastsInDim S128x113x196 (![] : Fin 0 → Fin S128x113x196.rank)
  reducesTo_S128x113x196_S128x196_d1 : S128x113x196.ReducesTo [1] S128x196
  bcast_S_S128x196 : S_.BroadcastsInDim S128x196 (![] : Fin 0 → Fin S128x196.rank)
  shapeCasts_S128x113x196_S128x113x14x14 : S128x113x196.ShapeCasts S128x113x14x14
  slices_S128x113x196_S128x112x196_0_0_0 : S128x113x196.Slices ![0, 0, 0] S128x112x196
  bcast_S1_S1x1x1_2 : S1.BroadcastsInDim S1x1x1 (![2] : Fin 1 → Fin S1x1x1.rank)
  bcast_S1x1x1_S128x112x1_0_1_2 : S1x1x1.BroadcastsInDim S128x112x1 (![0, 1, 2] : Fin 3 → Fin S128x112x1.rank)
  bcast_S_S128x112x1 : S_.BroadcastsInDim S128x112x1 (![] : Fin 0 → Fin S128x112x1.rank)
  shapeCasts_S128x112x1_S128x112 : S128x112x1.ShapeCasts S128x112
  bcast_S128x112_S128x112x1_0_1 : S128x112.BroadcastsInDim S128x112x1 (![0, 1] : Fin 2 → Fin S128x112x1.rank)
  bcast_S112x2048_S1x112x2048_1_2 : S112x2048.BroadcastsInDim S1x112x2048 (![1, 2] : Fin 2 → Fin S1x112x2048.rank)
  bcast_S128x112x1_S128x112x2048_0_1_2 : S128x112x1.BroadcastsInDim S128x112x2048 (![0, 1, 2] : Fin 3 → Fin S128x112x2048.rank)
  bcast_S1x112x2048_S128x112x2048_0_1_2 : S1x112x2048.BroadcastsInDim S128x112x2048 (![0, 1, 2] : Fin 3 → Fin S128x112x2048.rank)
  bcast_S1x2048_S1x1x2048_1_2 : S1x2048.BroadcastsInDim S1x1x2048 (![1, 2] : Fin 2 → Fin S1x1x2048.rank)
  bcast_S1x1x2048_S128x112x2048_0_1_2 : S1x1x2048.BroadcastsInDim S128x112x2048 (![0, 1, 2] : Fin 3 → Fin S128x112x2048.rank)
  shapeCasts_S128x112x2048_S128x229376 : S128x112x2048.ShapeCasts S128x229376
  transposes_S200x229376_S229376x200_1_0 : S200x229376.Transposes [1, 0] S229376x200
  bcast_S200_S1x200_1 : S200.BroadcastsInDim S1x200 (![1] : Fin 1 → Fin S1x200.rank)
  bcast_S1x200_S128x200_0_1 : S1x200.BroadcastsInDim S128x200 (![0, 1] : Fin 2 → Fin S128x200.rank)
  dot_S128x196x2048_S113x2048_S128x196x113_2_1_01_0_n_n_wf : DotDims.WF S128x196x2048 S113x2048 S128x196x113 [2] [1] [0, 1] [0] [] []
  dot_S128x112x196_S128x196x2048_S128x112x2048_2_1_1_2_0_0_wf : DotDims.WF S128x112x196 S128x196x2048 S128x112x2048 [2] [1] [1] [2] [0] [0]
  dot_S128x112x2048_S1x2048_S128x112x1_2_1_01_0_n_n_wf : DotDims.WF S128x112x2048 S1x2048 S128x112x1 [2] [1] [0, 1] [0] [] []
  dot_S128x229376_S229376x200_S128x200_1_0_0_1_n_n_wf : DotDims.WF S128x229376 S229376x200 S128x200 [1] [0] [0] [1] [] []

variable [Facts₀]

def dot_S128x196x2048_S113x2048_S128x196x113_2_1_01_0_n_n : DotDims S128x196x2048 S113x2048 S128x196x113 where
  lhsContracting := [2]
  rhsContracting := [1]
  lhsNonContracting := [0, 1]
  rhsNonContracting := [0]
  lhsBatch := []
  rhsBatch := []
  wf := dot_S128x196x2048_S113x2048_S128x196x113_2_1_01_0_n_n_wf
def dot_S128x112x196_S128x196x2048_S128x112x2048_2_1_1_2_0_0 : DotDims S128x112x196 S128x196x2048 S128x112x2048 where
  lhsContracting := [2]
  rhsContracting := [1]
  lhsNonContracting := [1]
  rhsNonContracting := [2]
  lhsBatch := [0]
  rhsBatch := [0]
  wf := dot_S128x112x196_S128x196x2048_S128x112x2048_2_1_1_2_0_0_wf
def dot_S128x112x2048_S1x2048_S128x112x1_2_1_01_0_n_n : DotDims S128x112x2048 S1x2048 S128x112x1 where
  lhsContracting := [2]
  rhsContracting := [1]
  lhsNonContracting := [0, 1]
  rhsNonContracting := [0]
  lhsBatch := []
  rhsBatch := []
  wf := dot_S128x112x2048_S1x2048_S128x112x1_2_1_01_0_n_n_wf
def dot_S128x229376_S229376x200_S128x200_1_0_0_1_n_n : DotDims S128x229376 S229376x200 S128x200 where
  lhsContracting := [1]
  rhsContracting := [0]
  lhsNonContracting := [0]
  rhsNonContracting := [1]
  lhsBatch := []
  rhsBatch := []
  wf := dot_S128x229376_S229376x200_S128x200_1_0_0_1_n_n_wf

class Facts : Prop extends Facts₀ where

variable [Facts]
-- ==== Proof.Region0.lean ====
/-
  The first kernel's body (the attention kernel) as a Hoare triple on whole staging buffers, and what it leaves in its
  two output blocks as functions of its three input blocks.

  One grid point handles eight batch rows. The body loads the stacked 114 rows and the bias once, then runs a counted
  loop of eight trips; trip `k` loads batch row `k` of the input block, computes that row's attention map and gate,
  and stores them into slab `k` of the two output blocks. The eight slabs tile each output block, so what the block
  holds afterwards is determined by the stores alone, whatever it held before.
-/
import proofs.«175620_j7894149890693_2_alg».proof.Proof.Gen.KernelIdeal.Launch
import proofs.«175620_j7894149890693_2_alg».proof.Proof.Gen.KernelIdeal.Skeleton
import proofs.«175620_j7894149890693_2_alg».proof.Proof.Gen.KernelIdeal.Points
import proofs.«175620_j7894149890693_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Trip `k`'s rectangles: batch row `k` of the input block, slab `k` of each output block. -/
abbrev rIn (k : Fin k0_t1_loop.trips) : Rect S8x2048x196 := Rect.unit (s := S8x2048x196) (k0_off1 k) S1x2048x196.size (k0_off1_inb k)
abbrev rMap (k : Fin k0_t1_loop.trips) : Rect S8x113x196 := Rect.unit (s := S8x113x196) (k0_off2 k) S1x113x196.size (k0_off2_inb k)
abbrev rGate (k : Fin k0_t1_loop.trips) : Rect S8x112 := Rect.unit (s := S8x112) (k0_off3 k) S1x112.size (k0_off3_inb k)
/-- The whole stacked-rows block and the whole bias block. -/
abbrev rRows : Rect S114x2048 := Rect.unit (s := S114x2048) ![0, 0] S114x2048.size inb_S114x2048_S114x2048_0_0
abbrev rBias : Rect S1 := Rect.unit (s := S1) ![0] S1.size inb_S1_S1_0

/-- Trip number `n`. -/
abbrev tr (n : ℕ) (h : n < k0_t1_loop.trips) : Fin k0_t1_loop.trips := ⟨n, h⟩

/-! ## What one trip stores -/

/-- Trip `k`'s store into the attention-map block: slab `k`, the attention map of batch row `k`. -/
def pcMap (x0 : Vec F S8x2048x196 .f32) (x1 : Vec F S114x2048 .f32) (k : Fin k0_t1_loop.trips) : View.Piece (Elt F) S8x113x196 .f32 :=
  ⟨rMap k, k0_pay7 (k0_pay2 (View.ld x1 rRows)) (k0_pay3 (View.ld x1 rRows)) (View.ld x0 (rIn k))⟩
/-- Trip `k`'s store into the gate block: row `k`, the gate of batch row `k`. -/
def pcGate (x0 : Vec F S8x2048x196 .f32) (x1 : Vec F S114x2048 .f32) (x2 : Vec F S1 .f32) (k : Fin k0_t1_loop.trips) : View.Piece (Elt F) S8x112 .f32 :=
  ⟨rGate k, k0_pay8 (k0_pay2 (View.ld x1 rRows)) (k0_pay3 (View.ld x1 rRows)) (View.ld x2 rBias) (View.ld x0 (rIn k))⟩

/-- The eight trips' stores, last first. -/
def storesMap (x0 : Vec F S8x2048x196 .f32) (x1 : Vec F S114x2048 .f32) : List (View.Piece (Elt F) S8x113x196 .f32) :=
  [pcMap x0 x1 (tr 7 (by decide)), pcMap x0 x1 (tr 6 (by decide)), pcMap x0 x1 (tr 5 (by decide)), pcMap x0 x1 (tr 4 (by decide)),
   pcMap x0 x1 (tr 3 (by decide)), pcMap x0 x1 (tr 2 (by decide)), pcMap x0 x1 (tr 1 (by decide)), pcMap x0 x1 (tr 0 (by decide))]
def storesGate (x0 : Vec F S8x2048x196 .f32) (x1 : Vec F S114x2048 .f32) (x2 : Vec F S1 .f32) : List (View.Piece (Elt F) S8x112 .f32) :=
  [pcGate x0 x1 x2 (tr 7 (by decide)), pcGate x0 x1 x2 (tr 6 (by decide)), pcGate x0 x1 x2 (tr 5 (by decide)), pcGate x0 x1 x2 (tr 4 (by decide)),
   pcGate x0 x1 x2 (tr 3 (by decide)), pcGate x0 x1 x2 (tr 2 (by decide)), pcGate x0 x1 x2 (tr 1 (by decide)), pcGate x0 x1 x2 (tr 0 (by decide))]

/-- What the body leaves in the attention-map block and in the gate block. -/
def outMap (x0 : Vec F S8x2048x196 .f32) (x1 : Vec F S114x2048 .f32) : Vec F S8x113x196 .f32 := View.canon (storesMap x0 x1)
def outGate (x0 : Vec F S8x2048x196 .f32) (x1 : Vec F S114x2048 .f32) (x2 : Vec F S1 .f32) : Vec F S8x112 .f32 := View.canon (storesGate x0 x1 x2)

/-- The eight slabs tile each output block. -/
theorem coverMap (x0 : Vec F S8x2048x196 .f32) (x1 : Vec F S114x2048 .f32) (y : S8x113x196.Idx) : ∃ pc ∈ storesMap x0 x1, y ∈ pc.1.set :=
  View.cover_of_tiled (storesMap x0 x1) S1x113x196.size (by rfl) y
theorem coverGate (x0 : Vec F S8x2048x196 .f32) (x1 : Vec F S114x2048 .f32) (x2 : Vec F S1 .f32) (y : S8x112.Idx) : ∃ pc ∈ storesGate x0 x1 x2, y ∈ pc.1.set :=
  View.cover_of_tiled (storesGate x0 x1 x2) S1x112.size (by rfl) y

/-! ## The loop's stores, read off the run -/

section Trips
variable (𝒱 : Variants) (c : Dev nD) (bd : Option 𝒱.V) (i : grid0.Coords) (arg1 : Memref sig .tc .vmem S8x2048x196 .f32) (harg1 : arg1.IsWhole) (arg2 : Memref sig .tc .vmem S114x2048 .f32) (harg2 : arg2.IsWhole) (arg3 : Memref sig .tc .vmem S1 .f32) (harg3 : arg3.IsWhole) (arg4 : Memref sig .tc .vmem S8x113x196 .f32) (harg4 : arg4.IsWhole) (arg5 : Memref sig .tc .vmem S8x112 .f32) (harg5 : arg5.IsWhole)
  (f0 : BufTy.Contents (Elt F) arg1.view.ty) (f1 : BufTy.Contents (Elt F) arg2.view.ty) (f2 : BufTy.Contents (Elt F) arg3.view.ty)

/-- One trip's two stores, whatever the output blocks hold when it starts. -/
theorem trip_stores (k : Fin k0_t1_loop.trips) (g4 : BufTy.Contents (Elt F) arg4.view.ty) (g5 : BufTy.Contents (Elt F) arg5.view.ty) :
    tripL_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 k g4 g5
      = ([pcMap (View.read (Elt F) arg1.view f0) (View.read (Elt F) arg2.view f1) k],
         [pcGate (View.read (Elt F) arg1.view f0) (View.read (Elt F) arg2.view f1) (View.read (Elt F) arg3.view f2) k]) := by
  unfold tripL_k0_t1 trip_k0_t1
  dsimp only
  sl_unfold_run_names
  rfl

/-- The stores of the trips before `k + 1` are trip `k`'s in front of those before `k`. -/
theorem stores_succ (k : Fin k0_t1_loop.trips) (g4 : BufTy.Contents (Elt F) arg4.view.ty) (g5 : BufTy.Contents (Elt F) arg5.view.ty)
    (P : List (View.Piece (Elt F) S8x113x196 .f32)) (Q : List (View.Piece (Elt F) S8x112 .f32))
    (h : pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5 k.val = (P, Q)) :
    pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5 (k.val + 1)
      = (pcMap (View.read (Elt F) arg1.view f0) (View.read (Elt F) arg2.view f1) k :: P,
         pcGate (View.read (Elt F) arg1.view f0) (View.read (Elt F) arg2.view f1) (View.read (Elt F) arg3.view f2) k :: Q) := by
  rw [pb_k0_t1_succ, trip_stores, h]
  rfl

/-- After the eight trips: the eight stores. -/
theorem stores_all (g4 : BufTy.Contents (Elt F) arg4.view.ty) (g5 : BufTy.Contents (Elt F) arg5.view.ty) :
    pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5
        (Scf.trips k0_t1_loop.lb k0_t1_loop.ub k0_t1_loop.st)
      = (storesMap (View.read (Elt F) arg1.view f0) (View.read (Elt F) arg2.view f1),
         storesGate (View.read (Elt F) arg1.view f0) (View.read (Elt F) arg2.view f1) (View.read (Elt F) arg3.view f2)) :=
  stores_succ 𝒱 c bd i arg1 harg1 arg2 harg2 arg3 harg3 arg4 harg4 arg5 harg5 f0 f1 f2 (tr 7 (by decide)) g4 g5 _ _ <|
  stores_succ 𝒱 c bd i arg1 harg1 arg2 harg2 arg3 harg3 arg4 harg4 arg5 harg5 f0 f1 f2 (tr 6 (by decide)) g4 g5 _ _ <|
  stores_succ 𝒱 c bd i arg1 harg1 arg2 harg2 arg3 harg3 arg4 harg4 arg5 harg5 f0 f1 f2 (tr 5 (by decide)) g4 g5 _ _ <|
  stores_succ 𝒱 c bd i arg1 harg1 arg2 harg2 arg3 harg3 arg4 harg4 arg5 harg5 f0 f1 f2 (tr 4 (by decide)) g4 g5 _ _ <|
  stores_succ 𝒱 c bd i arg1 harg1 arg2 harg2 arg3 harg3 arg4 harg4 arg5 harg5 f0 f1 f2 (tr 3 (by decide)) g4 g5 _ _ <|
  stores_succ 𝒱 c bd i arg1 harg1 arg2 harg2 arg3 harg3 arg4 harg4 arg5 harg5 f0 f1 f2 (tr 2 (by decide)) g4 g5 _ _ <|
  stores_succ 𝒱 c bd i arg1 harg1 arg2 harg2 arg3 harg3 arg4 harg4 arg5 harg5 f0 f1 f2 (tr 1 (by decide)) g4 g5 _ _ <|
  stores_succ 𝒱 c bd i arg1 harg1 arg2 harg2 arg3 harg3 arg4 harg4 arg5 harg5 f0 f1 f2 (tr 0 (by decide)) g4 g5 _ _ rfl

end Trips

/-! ## The body's triple -/

set_option maxHeartbeats 1000000 in
/-- The body on whole staging buffers — the three inputs' at read contents, the two outputs' at anything — runs to the
    continuation holding the inputs' as they were and the outputs' at `outMap`, `outGate` of the inputs. -/
theorem sound_kernel0 (c : Dev nD) (E : Set ℕ) (i : grid0.Coords) (arg1 : Memref sig .tc .vmem S8x2048x196 .f32) (harg1 : arg1.IsWhole) (arg2 : Memref sig .tc .vmem S114x2048 .f32) (harg2 : arg2.IsWhole) (arg3 : Memref sig .tc .vmem S1 .f32) (harg3 : arg3.IsWhole) (arg4 : Memref sig .tc .vmem S8x113x196 .f32) (harg4 : arg4.IsWhole) (arg5 : Memref sig .tc .vmem S8x112 .f32) (harg5 : arg5.IsWhole)
    (x0 : Vec F S8x2048x196 .f32) (x1 : Vec F S114x2048 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outMap x0 x1) ∗ owns (c : Thread nD τ) arg5 fullShare (outGate x0 x1 x2)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [stores_all]
    exact View.read_writes_eq_canon _ _ _ (coverMap _ _)
  iexists _; isplitr
  swap; · iexact H4
  ipureintro
  rw [stores_all]
  exact View.read_writes_eq_canon _ _ _ (coverGate _ _ _)

end Cert.KernelIdeal.R0

end
-- ==== Proof.Region0Dat.lean ====
/-
  The first kernel's launch data: each window's block at a grid point read off the arrays as the region finds them,
  what the body leaves in each staging buffer at a point (the inputs' blocks in place, the outputs at the body's
  stores), and the body's obligation at every point.
-/
import proofs.«175620_j7894149890693_2_alg».proof.Proof.Region0
import proofs.«175620_j7894149890693_2_alg».proof.Proof.Gen.KernelIdeal.Launch
import proofs.«175620_j7894149890693_2_alg».proof.Proof.Gen.KernelIdeal.Skeleton
import proofs.«175620_j7894149890693_2_alg».proof.Proof.Gen.KernelIdeal.Points
import proofs.«175620_j7894149890693_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any launch data over these arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The launch data of the first kernel on core `c`: the arrays as the region finds them; after the body at point
    `t` each input's buffer at its block and each output's at what the body's stores leave; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outMap (iblk0 V c 0 t) (iblk0 V c 1 t)
    | ⟨4, _⟩ => outGate (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outMap (iblk0 V c 0 t) (iblk0 V c 1 t) := by dsimp only [dat0]
theorem after0_4 (c : Dev nD) (t : Fin cfg0.N) : (dat0 V c).after 4 t = outGate (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.R0

end
-- ==== Proof.Region1.lean ====
import proofs.«175620_j7894149890693_2_alg».proof.Proof.Gen.KernelIdeal.Launch
import proofs.«175620_j7894149890693_2_alg».proof.Proof.Gen.KernelIdeal.Skeleton
import proofs.«175620_j7894149890693_2_alg».proof.Proof.Gen.KernelIdeal.Loops
import proofs.«175620_j7894149890693_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-!
# The second kernel: what its body leaves, its triple, and the pipeline's body obligation

The body carries two [8,112] accumulators through four trips. Trip `k` reads lanes `512·k … 512·k+511` of the
weight block, of the concepts and of the modulation row, and adds to each accumulator the lane sums of the two
products. After the trips the accumulators are stored whole into the two output blocks. Everything here is stated
for any float model `F`: the trip is the two printed payloads applied to the three lane slices.
-/

/-! ## The body's accesses -/

/-- The whole-block rectangle both stores write through. -/
abbrev rOut : Rect S8x112 := Rect.unit (s := S8x112) ![0, 0] S8x112.size inb_S8x112_S8x112_0_0

/-- Trip `k`'s lane slice of the weight block, of the concepts, of the modulation row. -/
abbrev rW (k : Fin k1_t1_loop.trips) : Rect S8x112x2048 := Rect.unit (s := S8x112x2048) (k1_off1 k) S8x112x512.size (k1_off1_inb k)
abbrev rC (k : Fin k1_t1_loop.trips) : Rect S112x2048 := Rect.unit (s := S112x2048) (k1_off2 k) S112x512.size (k1_off2_inb k)
abbrev rM (k : Fin k1_t1_loop.trips) : Rect S1x2048 := Rect.unit (s := S1x2048) (k1_off3 k) S1x512.size (k1_off3_inb k)

/-! ## One trip and the four trips, as functions of the three input blocks -/

/-- One trip on the carried pair: each accumulator plus the lane sum of its product over the trip's slice. -/
def tripF (x0 : Vec F S8x112x2048 .f32) (x1 : Vec F S112x2048 .f32) (x2 : Vec F S1x2048 .f32) (k : Fin k1_t1_loop.trips)
    (acc : FVec F S8x112 .f32 × FVec F S8x112 .f32) : FVec F S8x112 .f32 × FVec F S8x112 .f32 :=
  (k1_pay4 acc.1 (View.ld x0 (rW k)) (View.ld x1 (rC k)), k1_pay5 acc.2 (View.ld x0 (rW k)) (View.ld x2 (rM k)))

/-- The carried pair before trip `n`, from the two zero blocks. -/
def stF (x0 : Vec F S8x112x2048 .f32) (x1 : Vec F S112x2048 .f32) (x2 : Vec F S1x2048 .f32) : ℕ → FVec F S8x112 .f32 × FVec F S8x112 .f32
  | 0 => (k1_pay1 (F := F), k1_pay2 (F := F))
  | n + 1 => if h : n < k1_t1_loop.trips then tripF x0 x1 x2 ⟨n, h⟩ (stF x0 x1 x2 n) else stF x0 x1 x2 n

theorem stF_zero (x0 : Vec F S8x112x2048 .f32) (x1 : Vec F S112x2048 .f32) (x2 : Vec F S1x2048 .f32) :
    stF x0 x1 x2 0 = (k1_pay1 (F := F), k1_pay2 (F := F)) := rfl

theorem stF_succ (x0 : Vec F S8x112x2048 .f32) (x1 : Vec F S112x2048 .f32) (x2 : Vec F S1x2048 .f32) (k : Fin k1_t1_loop.trips) :
    stF x0 x1 x2 (k.val + 1) = tripF x0 x1 x2 k (stF x0 x1 x2 k.val) := by
  rw [stF.eq_2]; exact dif_pos k.isLt

/-- The trip's yield, as the generated module states it, is `tripF` of what the three memrefs read. -/
theorem tripR_eq (𝒱 : Variants) (c : Dev nD) (bd : Option 𝒱.V) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (X_arg1 : BufTy.Contents (Elt F) arg1.view.ty) (X_arg2 : BufTy.Contents (Elt F) arg2.view.ty) (X_arg3 : BufTy.Contents (Elt F) arg3.view.ty)
    (k : Fin k1_t1_loop.trips) (acc : FVec F S8x112 .f32 × FVec F S8x112 .f32) :
    tripR_k1_t1 (F := F) 𝒱 c bd i arg1 harg1 arg2 harg2 arg3 harg3 arg4 harg4 arg5 harg5 X_arg1 X_arg2 X_arg3 k acc
      = tripF (arg1.view.read (Elt F) X_arg1) (arg2.view.read (Elt F) X_arg2) (arg3.view.read (Elt F) X_arg3) k acc := by
  unfold tripR_k1_t1
  unfold trip_k1_t1
  rfl

/-- So the recursion over the trips (the generated module's) is `stF` of what the three memrefs read. -/
theorem st_eq (𝒱 : Variants) (c : Dev nD) (bd : Option 𝒱.V) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (X_arg1 : BufTy.Contents (Elt F) arg1.view.ty) (X_arg2 : BufTy.Contents (Elt F) arg2.view.ty) (X_arg3 : BufTy.Contents (Elt F) arg3.view.ty) :
    ∀ n : ℕ, st_k1_t1 (F := F) 𝒱 c bd i arg1 harg1 arg2 harg2 arg3 harg3 arg4 harg4 arg5 harg5 X_arg1 X_arg2 X_arg3 (k1_pay1 (F := F), k1_pay2 (F := F)) n
      = stF (arg1.view.read (Elt F) X_arg1) (arg2.view.read (Elt F) X_arg2) (arg3.view.read (Elt F) X_arg3) n
  | 0 => rfl
  | n + 1 => by
    rw [st_k1_t1.eq_2, stF.eq_2, st_eq 𝒱 c bd i arg1 harg1 arg2 harg2 arg3 harg3 arg4 harg4 arg5 harg5 X_arg1 X_arg2 X_arg3 n]
    unfold st_k1_t1Step
    by_cases h : n < k1_t1_loop.trips
    · rw [dif_pos h, dif_pos h, tripR_eq]
    · rw [dif_neg h, dif_neg h]

/-! ## What the body leaves in each output window's buffer -/

/-- Window 3's staging buffer after the body, from the input windows' blocks: its one whole-block store of the first
    accumulator after the trips. -/
def out1_3 (x0 : Vec F S8x112x2048 .f32) (x1 : Vec F S112x2048 .f32) (x2 : Vec F S1x2048 .f32) : Vec F S8x112 .f32 :=
  View.canon [⟨rOut, (stF x0 x1 x2 k1_t1_loop.trips).1⟩]

/-- Window 4's: the second accumulator. -/
def out1_4 (x0 : Vec F S8x112x2048 .f32) (x1 : Vec F S112x2048 .f32) (x2 : Vec F S1x2048 .f32) : Vec F S8x112 .f32 :=
  View.canon [⟨rOut, (stF x0 x1 x2 k1_t1_loop.trips).2⟩]

/-- The one store tiles the buffer, so it covers it. -/
theorem cover1 (p0 : Vec F S8x112 .f32) (y : S8x112.Idx) :
    ∃ pc ∈ ([⟨rOut, p0⟩] : List (View.Piece (Elt F) S8x112 .f32)), y ∈ pc.1.set :=
  View.cover_of_tiled [⟨rOut, p0⟩] S8x112.size (by rfl) y

/-! ## The body's triple -/

set_option maxHeartbeats 1000000 in
/-- The kernel body on whole staging memrefs, the inputs' at read contents `x0 x1 x2` and the outputs' at anything, runs to
    the continuation holding the inputs' as they were and each output's at `out1_3` / `out1_4` of the inputs': the
    loop keeps the invariant the generated module states for it, the carried pair after it is `stF` of the inputs (`st_eq`), and the one
    whole-block store into each output covers it. -/
theorem sound_kernel1 (c : Dev nD) (E : Set ℕ) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (x0 : Vec F S8x112x2048 .f32) (x1 : Vec F S112x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__am_kernel i arg1 harg1 arg2 harg2 arg3 harg3 arg4 harg4 arg5 harg5) K := by
  simp only [cc1__am_kernel_eq_skeleton]; unfold cc1__am_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover1 _), st_eq]
    rfl
  iexists _; isplitr
  swap; · iexact H4
  ipureintro
  rw [View.read_writes_eq_canon _ _ _ (cover1 _), st_eq]
  rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the concepts: one block, fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the modulation row: one block, fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pipeline on core `c`: the arrays as the region finds them (`V`); after the body at point `t`
    each input's buffer at its block and each output's at `out1_3` / `out1_4` of the three input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.R1
end
-- ==== Proof.KernelRun.lean ====
/-
  The kernel program's run, segment by segment: a stretch of host operations, the first kernel, a stretch, the second
  kernel, a last stretch. Between two segments every unscoped buffer of the core is held whole at a known valuation:
  the launch memory, then each stretch's operations applied, then each kernel's output arrays replaced by what its
  grid points wrote back. The run terminates, nothing faults, and every unscoped buffer ends at the last valuation.
-/
import proofs.«175620_j7894149890693_2_alg».proof.Proof.Region0Dat
import proofs.«175620_j7894149890693_2_alg».proof.Proof.Region1
import proofs.«175620_j7894149890693_2_alg».proof.Proof.Gen.KernelIdeal.Regions
import proofs.«175620_j7894149890693_2_alg».proof.Proof.Gen.KernelIdeal.Launch
import proofs.«175620_j7894149890693_2_alg».proof.Proof.Gen.KernelIdeal.Skeleton
import proofs.«175620_j7894149890693_2_alg».proof.Proof.Gen.KernelIdeal.Points
import proofs.«175620_j7894149890693_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the segments -/

/-- What the first kernel is entered from, read at the TensorCore's references. -/
abbrev E1 : (c : Dev nD) → (b : Ref sig .tc) → Buf (Elt F) ((c : Thread nD τ).loc b) := fun c b => Gen.V1 m c b

/-- What the first kernel leaves: its windows' arrays at what the grid points wrote back. -/
def outsA : Gen.Outs (F := F) := fun _ r c =>
  Pipeline.withArrays spec0 c (Gen.V1 m c) (fun w => (R0.dat0 (E1 m) c).arrAt w cfg0.N) r

/-- What the second kernel is entered from. -/
abbrev E3 : (c : Dev nD) → (b : Ref sig .tc) → Buf (Elt F) ((c : Thread nD τ).loc b) := fun c b => Gen.V3 m (outsA m) c b

/-- What the two kernels leave. -/
def outs : Gen.Outs (F := F) := fun J r c =>
  match J with
  | 2 => outsA m 2 r c
  | _ => Pipeline.withArrays spec1 c (Gen.V3 m (outsA m) c) (fun w => (R1.dat1 (E3 m) c).arrAt w cfg1.N) r

theorem outs_two (r : Ref sig .tc) (c : Dev nD) : outs m 2 r c = outsA m 2 r c := rfl
theorem V2_outs (c : Dev nD) : Gen.V2 m (outs m) c = Gen.V2 m (outsA m) c := rfl
theorem V3_outs (c : Dev nD) : Gen.V3 m (outs m) c = Gen.V3 m (outsA m) c := rfl

/-- The first kernel's two output arrays after it. -/
theorem outs_map (c : Dev nD) : outs m 2 main_v2_0 c = (R0.dat0 (E1 m) c).arrAt 3 cfg0.N := by
  rw [outs_two]; unfold outsA; exact Pipeline.withArrays_arr spec0 launch0.win.arr_inj c _ _ 3
theorem outs_gate (c : Dev nD) : outs m 2 main_v2_1 c = (R0.dat0 (E1 m) c).arrAt 4 cfg0.N := by
  rw [outs_two]; unfold outsA; exact Pipeline.withArrays_arr spec0 launch0.win.arr_inj c _ _ 4
/-- The second kernel's two output arrays after it. -/
theorem outs_four (r : Ref sig .tc) (c : Dev nD) :
    outs m 4 r c = Pipeline.withArrays spec1 c (Gen.V3 m (outsA m) c) (fun w => (R1.dat1 (E3 m) c).arrAt w cfg1.N) r := rfl
theorem outs_A (c : Dev nD) : outs m 4 main_v5_0 c = (R1.dat1 (E3 m) c).arrAt 3 cfg1.N := by
  rw [outs_four]; exact Pipeline.withArrays_arr spec1 launch1.win.arr_inj c _ _ 3
theorem outs_M (c : Dev nD) : outs m 4 main_v5_1 c = (R1.dat1 (E3 m) c).arrAt 4 cfg1.N := by
  rw [outs_four]; exact Pipeline.withArrays_arr spec1 launch1.win.arr_inj c _ _ 4

/-- After the first kernel each of its arrays holds what the pipeline leaves there, -/
theorem hF0 (c : Dev nD) (w : Fin cfg0.W) : (R0.dat0 (E1 m) c).arrAt w cfg0.N = Gen.V2 m (outs m) c (Pipeline.arrRef spec0 w) := by
  match w with
  | ⟨0, _⟩ => exact (((R0.dat0 (E1 m) c).arrAt_in 0 rfl _).trans (R0.A_eq0 (E1 m) c 0)).trans (Gen.V2_of m (outs m) c main_v0 (by decide)).symm
  | ⟨1, _⟩ => exact (((R0.dat0 (E1 m) c).arrAt_in 1 rfl _).trans (R0.A_eq0 (E1 m) c 1)).trans (Gen.V2_of m (outs m) c main_v1 (by decide)).symm
  | ⟨2, _⟩ => exact (((R0.dat0 (E1 m) c).arrAt_in 2 rfl _).trans (R0.A_eq0 (E1 m) c 2)).trans (Gen.V2_of m (outs m) c main_arg5 (by decide)).symm
  | ⟨3, _⟩ =>
    show _ = Function.update (Function.update (Gen.V1 m c) main_v2_0 (outs m 2 main_v2_0 c)) main_v2_1 (outs m 2 main_v2_1 c) main_v2_0
    rw [Function.update_of_ne (StableHlo.devRef_ne_of_ne (by decide) : (Proc.devRef .tc main_v2_0 : DevRef τ sig) ≠ Proc.devRef .tc main_v2_1), Function.update_self, outs_map]; rfl
  | ⟨4, _⟩ =>
    show _ = Function.update (Function.update (Gen.V1 m c) main_v2_0 (outs m 2 main_v2_0 c)) main_v2_1 (outs m 2 main_v2_1 c) main_v2_1
    rw [Function.update_self, outs_gate]; rfl
/-- and every other buffer what it held at entry. -/
theorem hrest0 (c : Dev nD) : ∀ b, b ∉ Finset.univ.image (Pipeline.arrRef spec0) → Gen.V2 m (outs m) c b = Gen.V1 m c b :=
  fun b hb => Gen.V2_of m (outs m) c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

/-- The same for the second kernel. -/
theorem hF1 (c : Dev nD) (w : Fin cfg1.W) : (R1.dat1 (E3 m) c).arrAt w cfg1.N = Gen.V4 m (outs m) c (Pipeline.arrRef spec1 w) := by
  match w with
  | ⟨0, _⟩ => exact (((R1.dat1 (E3 m) c).arrAt_in 0 rfl _).trans (R1.A_eq1 (E3 m) c 0)).trans (Gen.V4_of m (outs m) c main_v4 (by decide)).symm
  | ⟨1, _⟩ => exact (((R1.dat1 (E3 m) c).arrAt_in 1 rfl _).trans (R1.A_eq1 (E3 m) c 1)).trans (Gen.V4_of m (outs m) c main_arg1 (by decide)).symm
  | ⟨2, _⟩ => exact (((R1.dat1 (E3 m) c).arrAt_in 2 rfl _).trans (R1.A_eq1 (E3 m) c 2)).trans (Gen.V4_of m (outs m) c main_arg2 (by decide)).symm
  | ⟨3, _⟩ =>
    show _ = Function.update (Function.update (Gen.V3 m (outs m) c) main_v5_0 (outs m 4 main_v5_0 c)) main_v5_1 (outs m 4 main_v5_1 c) main_v5_0
    rw [Function.update_of_ne (StableHlo.devRef_ne_of_ne (by decide) : (Proc.devRef .tc main_v5_0 : DevRef τ sig) ≠ Proc.devRef .tc main_v5_1), Function.update_self, outs_A]; rfl
  | ⟨4, _⟩ =>
    show _ = Function.update (Function.update (Gen.V3 m (outs m) c) main_v5_0 (outs m 4 main_v5_0 c)) main_v5_1 (outs m 4 main_v5_1 c) main_v5_1
    rw [Function.update_self, outs_M]; rfl
theorem hrest1 (c : Dev nD) : ∀ b, b ∉ Finset.univ.image (Pipeline.arrRef spec1) → Gen.V4 m (outs m) c b = Gen.V3 m (outs m) c b :=
  fun b hb => Gen.V4_of m (outs m) c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

/-! ## The launch data family and the thread state -/

/-- No kernel has a prefetched table. -/
abbrev adm : (p : Fin 2) → (pcfgs (F := F) p).Adm := fun p => (cfgs p).toPCfg_adm
/-- Each kernel's launch data at its entry valuation. -/
def pdats : (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => fun c => R1.dat1 (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register and its dues, at nothing. -/
abbrev R (c : Dev nD) : sProp 𝕄 := iprop((∃ r, prngReg c r) ∗ ∃ W, owes (c : Thread nD τ) (0 : CellTallies nD τ sig Unit) W)
/-- A stretch of host operations as a segment from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Gen.V5 m (outs m) c) ∗ ∃ r, prngReg c r)

/-! ## The kernels as segments -/

set_option backward.isDefEq.respectTransparency.types false in
/-- The first kernel over the thread state: entered from every unscoped buffer at the valuation after the first
    stretch, left at that valuation with its two output arrays replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state, likewise. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N) (hF1 m c) (fun b hb => (hrest1 m c b hb).trans (congrFun (V3_outs m c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (fun c => Gen.V0 m c)),
    .region (reg0 m),
    .host (hseg hostOps1 hostOps1_sub Gen.hostOps1_fresh (fun c => Gen.V2 m (outs m) c)),
    .region (reg1 m),
    .host (hseg hostOps2 hostOps2_sub Gen.hostOps2_fresh (fun c => Gen.V4 m (outs m) c)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer of every core ends at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (Gen.V5 m (outs m) c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

end Cert.KernelIdeal.Run

end
-- ==== Proof.WRegion0.lean ====
/-
  The first kernel's body (the attention kernel) as a Hoare triple on whole staging buffers, and what it leaves in its
  two output blocks as functions of its three input blocks.

  One grid point handles eight batch rows. The body loads the stacked 114 rows and the bias once, then runs a counted
  loop of eight trips; trip `k` loads batch row `k` of the input block, computes that row's attention map and gate,
  and stores them into slab `k` of the two output blocks. The eight slabs tile each output block, so what the block
  holds afterwards is determined by the stores alone, whatever it held before.
-/
import proofs.«175620_j7894149890693_2_alg».proof.Proof.Gen.Kernel.Launch
import proofs.«175620_j7894149890693_2_alg».proof.Proof.Gen.Kernel.Skeleton
import proofs.«175620_j7894149890693_2_alg».proof.Proof.Gen.Kernel.Points
import proofs.«175620_j7894149890693_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Trip `k`'s rectangles: batch row `k` of the input block, slab `k` of each output block. -/
abbrev rIn (k : Fin k0_t1_loop.trips) : Rect S8x2048x196 := Rect.unit (s := S8x2048x196) (k0_off1 k) S1x2048x196.size (k0_off1_inb k)
abbrev rMap (k : Fin k0_t1_loop.trips) : Rect S8x113x196 := Rect.unit (s := S8x113x196) (k0_off2 k) S1x113x196.size (k0_off2_inb k)
abbrev rGate (k : Fin k0_t1_loop.trips) : Rect S8x112 := Rect.unit (s := S8x112) (k0_off3 k) S1x112.size (k0_off3_inb k)
/-- The whole stacked-rows block and the whole bias block. -/
abbrev rRows : Rect S114x2048 := Rect.unit (s := S114x2048) ![0, 0] S114x2048.size inb_S114x2048_S114x2048_0_0
abbrev rBias : Rect S1 := Rect.unit (s := S1) ![0] S1.size inb_S1_S1_0

/-- Trip number `n`. -/
abbrev tr (n : ℕ) (h : n < k0_t1_loop.trips) : Fin k0_t1_loop.trips := ⟨n, h⟩

/-! ## What one trip stores -/

/-- Trip `k`'s store into the attention-map block: slab `k`, the attention map of batch row `k`. -/
def pcMap (x0 : Vec F S8x2048x196 .f32) (x1 : Vec F S114x2048 .f32) (k : Fin k0_t1_loop.trips) : View.Piece (Elt F) S8x113x196 .f32 :=
  ⟨rMap k, k0_pay7 (k0_pay2 (View.ld x1 rRows)) (k0_pay3 (View.ld x1 rRows)) (View.ld x0 (rIn k))⟩
/-- Trip `k`'s store into the gate block: row `k`, the gate of batch row `k`. -/
def pcGate (x0 : Vec F S8x2048x196 .f32) (x1 : Vec F S114x2048 .f32) (x2 : Vec F S1 .f32) (k : Fin k0_t1_loop.trips) : View.Piece (Elt F) S8x112 .f32 :=
  ⟨rGate k, k0_pay8 (k0_pay2 (View.ld x1 rRows)) (k0_pay3 (View.ld x1 rRows)) (View.ld x2 rBias) (View.ld x0 (rIn k))⟩

/-- The eight trips' stores, last first. -/
def storesMap (x0 : Vec F S8x2048x196 .f32) (x1 : Vec F S114x2048 .f32) : List (View.Piece (Elt F) S8x113x196 .f32) :=
  [pcMap x0 x1 (tr 7 (by decide)), pcMap x0 x1 (tr 6 (by decide)), pcMap x0 x1 (tr 5 (by decide)), pcMap x0 x1 (tr 4 (by decide)),
   pcMap x0 x1 (tr 3 (by decide)), pcMap x0 x1 (tr 2 (by decide)), pcMap x0 x1 (tr 1 (by decide)), pcMap x0 x1 (tr 0 (by decide))]
def storesGate (x0 : Vec F S8x2048x196 .f32) (x1 : Vec F S114x2048 .f32) (x2 : Vec F S1 .f32) : List (View.Piece (Elt F) S8x112 .f32) :=
  [pcGate x0 x1 x2 (tr 7 (by decide)), pcGate x0 x1 x2 (tr 6 (by decide)), pcGate x0 x1 x2 (tr 5 (by decide)), pcGate x0 x1 x2 (tr 4 (by decide)),
   pcGate x0 x1 x2 (tr 3 (by decide)), pcGate x0 x1 x2 (tr 2 (by decide)), pcGate x0 x1 x2 (tr 1 (by decide)), pcGate x0 x1 x2 (tr 0 (by decide))]

/-- What the body leaves in the attention-map block and in the gate block. -/
def outMap (x0 : Vec F S8x2048x196 .f32) (x1 : Vec F S114x2048 .f32) : Vec F S8x113x196 .f32 := View.canon (storesMap x0 x1)
def outGate (x0 : Vec F S8x2048x196 .f32) (x1 : Vec F S114x2048 .f32) (x2 : Vec F S1 .f32) : Vec F S8x112 .f32 := View.canon (storesGate x0 x1 x2)

/-- The eight slabs tile each output block. -/
theorem coverMap (x0 : Vec F S8x2048x196 .f32) (x1 : Vec F S114x2048 .f32) (y : S8x113x196.Idx) : ∃ pc ∈ storesMap x0 x1, y ∈ pc.1.set :=
  View.cover_of_tiled (storesMap x0 x1) S1x113x196.size (by rfl) y
theorem coverGate (x0 : Vec F S8x2048x196 .f32) (x1 : Vec F S114x2048 .f32) (x2 : Vec F S1 .f32) (y : S8x112.Idx) : ∃ pc ∈ storesGate x0 x1 x2, y ∈ pc.1.set :=
  View.cover_of_tiled (storesGate x0 x1 x2) S1x112.size (by rfl) y

/-! ## The loop's stores, read off the run -/

section Trips
variable (𝒱 : Variants) (c : Dev nD) (bd : Option 𝒱.V) (i : grid0.Coords) (arg1 : Memref sig .tc .vmem S8x2048x196 .f32) (harg1 : arg1.IsWhole) (arg2 : Memref sig .tc .vmem S114x2048 .f32) (harg2 : arg2.IsWhole) (arg3 : Memref sig .tc .vmem S1 .f32) (harg3 : arg3.IsWhole) (arg4 : Memref sig .tc .vmem S8x113x196 .f32) (harg4 : arg4.IsWhole) (arg5 : Memref sig .tc .vmem S8x112 .f32) (harg5 : arg5.IsWhole)
  (f0 : BufTy.Contents (Elt F) arg1.view.ty) (f1 : BufTy.Contents (Elt F) arg2.view.ty) (f2 : BufTy.Contents (Elt F) arg3.view.ty)

/-- One trip's two stores, whatever the output blocks hold when it starts. -/
theorem trip_stores (k : Fin k0_t1_loop.trips) (g4 : BufTy.Contents (Elt F) arg4.view.ty) (g5 : BufTy.Contents (Elt F) arg5.view.ty) :
    tripL_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 k g4 g5
      = ([pcMap (View.read (Elt F) arg1.view f0) (View.read (Elt F) arg2.view f1) k],
         [pcGate (View.read (Elt F) arg1.view f0) (View.read (Elt F) arg2.view f1) (View.read (Elt F) arg3.view f2) k]) := by
  unfold tripL_k0_t1 trip_k0_t1
  dsimp only
  sl_unfold_run_names
  rfl

/-- The stores of the trips before `k + 1` are trip `k`'s in front of those before `k`. -/
theorem stores_succ (k : Fin k0_t1_loop.trips) (g4 : BufTy.Contents (Elt F) arg4.view.ty) (g5 : BufTy.Contents (Elt F) arg5.view.ty)
    (P : List (View.Piece (Elt F) S8x113x196 .f32)) (Q : List (View.Piece (Elt F) S8x112 .f32))
    (h : pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5 k.val = (P, Q)) :
    pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5 (k.val + 1)
      = (pcMap (View.read (Elt F) arg1.view f0) (View.read (Elt F) arg2.view f1) k :: P,
         pcGate (View.read (Elt F) arg1.view f0) (View.read (Elt F) arg2.view f1) (View.read (Elt F) arg3.view f2) k :: Q) := by
  rw [pb_k0_t1_succ, trip_stores, h]
  rfl

/-- After the eight trips: the eight stores. -/
theorem stores_all (g4 : BufTy.Contents (Elt F) arg4.view.ty) (g5 : BufTy.Contents (Elt F) arg5.view.ty) :
    pb_k0_t1 (F := F) 𝒱 c bd i arg1 harg1 arg2 harg2 arg3 harg3 arg4 harg4 arg5 harg5
        (View.readAt (Elt F) arg2.view rRows.toLoadRect f1) (View.readAt (Elt F) arg3.view rBias.toLoadRect f2) f0 g4 g5
        (Scf.trips k0_t1_loop.lb k0_t1_loop.ub k0_t1_loop.st)
      = (storesMap (View.read (Elt F) arg1.view f0) (View.read (Elt F) arg2.view f1),
         storesGate (View.read (Elt F) arg1.view f0) (View.read (Elt F) arg2.view f1) (View.read (Elt F) arg3.view f2)) :=
  stores_succ 𝒱 c bd i arg1 harg1 arg2 harg2 arg3 harg3 arg4 harg4 arg5 harg5 f0 f1 f2 (tr 7 (by decide)) g4 g5 _ _ <|
  stores_succ 𝒱 c bd i arg1 harg1 arg2 harg2 arg3 harg3 arg4 harg4 arg5 harg5 f0 f1 f2 (tr 6 (by decide)) g4 g5 _ _ <|
  stores_succ 𝒱 c bd i arg1 harg1 arg2 harg2 arg3 harg3 arg4 harg4 arg5 harg5 f0 f1 f2 (tr 5 (by decide)) g4 g5 _ _ <|
  stores_succ 𝒱 c bd i arg1 harg1 arg2 harg2 arg3 harg3 arg4 harg4 arg5 harg5 f0 f1 f2 (tr 4 (by decide)) g4 g5 _ _ <|
  stores_succ 𝒱 c bd i arg1 harg1 arg2 harg2 arg3 harg3 arg4 harg4 arg5 harg5 f0 f1 f2 (tr 3 (by decide)) g4 g5 _ _ <|
  stores_succ 𝒱 c bd i arg1 harg1 arg2 harg2 arg3 harg3 arg4 harg4 arg5 harg5 f0 f1 f2 (tr 2 (by decide)) g4 g5 _ _ <|
  stores_succ 𝒱 c bd i arg1 harg1 arg2 harg2 arg3 harg3 arg4 harg4 arg5 harg5 f0 f1 f2 (tr 1 (by decide)) g4 g5 _ _ <|
  stores_succ 𝒱 c bd i arg1 harg1 arg2 harg2 arg3 harg3 arg4 harg4 arg5 harg5 f0 f1 f2 (tr 0 (by decide)) g4 g5 _ _ rfl

end Trips

/-! ## The body's triple -/

set_option maxHeartbeats 1000000 in
/-- The body on whole staging buffers — the three inputs' at read contents, the two outputs' at anything — runs to the
    continuation holding the inputs' as they were and the outputs' at `outMap`, `outGate` of the inputs. -/
theorem sound_kernel0 (c : Dev nD) (E : Set ℕ) (i : grid0.Coords) (arg1 : Memref sig .tc .vmem S8x2048x196 .f32) (harg1 : arg1.IsWhole) (arg2 : Memref sig .tc .vmem S114x2048 .f32) (harg2 : arg2.IsWhole) (arg3 : Memref sig .tc .vmem S1 .f32) (harg3 : arg3.IsWhole) (arg4 : Memref sig .tc .vmem S8x113x196 .f32) (harg4 : arg4.IsWhole) (arg5 : Memref sig .tc .vmem S8x112 .f32) (harg5 : arg5.IsWhole)
    (x0 : Vec F S8x2048x196 .f32) (x1 : Vec F S114x2048 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outMap x0 x1) ∗ owns (c : Thread nD τ) arg5 fullShare (outGate x0 x1 x2)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [stores_all]
    exact View.read_writes_eq_canon _ _ _ (coverMap _ _)
  iexists _; isplitr
  swap; · iexact H4
  ipureintro
  rw [stores_all]
  exact View.read_writes_eq_canon _ _ _ (coverGate _ _ _)

end Cert.Kernel.R0

end
-- ==== Proof.WRegion0Dat.lean ====
/-
  The first kernel's launch data: each window's block at a grid point read off the arrays as the region finds them,
  what the body leaves in each staging buffer at a point (the inputs' blocks in place, the outputs at the body's
  stores), and the body's obligation at every point.
-/
import proofs.«175620_j7894149890693_2_alg».proof.Proof.WRegion0
import proofs.«175620_j7894149890693_2_alg».proof.Proof.Gen.Kernel.Launch
import proofs.«175620_j7894149890693_2_alg».proof.Proof.Gen.Kernel.Skeleton
import proofs.«175620_j7894149890693_2_alg».proof.Proof.Gen.Kernel.Points
import proofs.«175620_j7894149890693_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any launch data over these arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The launch data of the first kernel on core `c`: the arrays as the region finds them; after the body at point
    `t` each input's buffer at its block and each output's at what the body's stores leave; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outMap (iblk0 V c 0 t) (iblk0 V c 1 t)
    | ⟨4, _⟩ => outGate (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outMap (iblk0 V c 0 t) (iblk0 V c 1 t) := by dsimp only [dat0]
theorem after0_4 (c : Dev nD) (t : Fin cfg0.N) : (dat0 V c).after 4 t = outGate (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.R0

end
-- ==== Proof.WRegion1.lean ====
import proofs.«175620_j7894149890693_2_alg».proof.Proof.Gen.Kernel.Launch
import proofs.«175620_j7894149890693_2_alg».proof.Proof.Gen.Kernel.Skeleton
import proofs.«175620_j7894149890693_2_alg».proof.Proof.Gen.Kernel.Loops
import proofs.«175620_j7894149890693_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-!
# The second kernel: what its body leaves, its triple, and the pipeline's body obligation

The body carries two [8,112] accumulators through four trips. Trip `k` reads lanes `512·k … 512·k+511` of the
weight block, of the concepts and of the modulation row, and adds to each accumulator the lane sums of the two
products. After the trips the accumulators are stored whole into the two output blocks. Everything here is stated
for any float model `F`: the trip is the two printed payloads applied to the three lane slices.
-/

/-! ## The body's accesses -/

/-- The whole-block rectangle both stores write through. -/
abbrev rOut : Rect S8x112 := Rect.unit (s := S8x112) ![0, 0] S8x112.size inb_S8x112_S8x112_0_0

/-- Trip `k`'s lane slice of the weight block, of the concepts, of the modulation row. -/
abbrev rW (k : Fin k1_t1_loop.trips) : Rect S8x112x2048 := Rect.unit (s := S8x112x2048) (k1_off1 k) S8x112x512.size (k1_off1_inb k)
abbrev rC (k : Fin k1_t1_loop.trips) : Rect S112x2048 := Rect.unit (s := S112x2048) (k1_off2 k) S112x512.size (k1_off2_inb k)
abbrev rM (k : Fin k1_t1_loop.trips) : Rect S1x2048 := Rect.unit (s := S1x2048) (k1_off3 k) S1x512.size (k1_off3_inb k)

/-! ## One trip and the four trips, as functions of the three input blocks -/

/-- One trip on the carried pair: each accumulator plus the lane sum of its product over the trip's slice. -/
def tripF (x0 : Vec F S8x112x2048 .f32) (x1 : Vec F S112x2048 .f32) (x2 : Vec F S1x2048 .f32) (k : Fin k1_t1_loop.trips)
    (acc : FVec F S8x112 .f32 × FVec F S8x112 .f32) : FVec F S8x112 .f32 × FVec F S8x112 .f32 :=
  (k1_pay4 acc.1 (View.ld x0 (rW k)) (View.ld x1 (rC k)), k1_pay5 acc.2 (View.ld x0 (rW k)) (View.ld x2 (rM k)))

/-- The carried pair before trip `n`, from the two zero blocks. -/
def stF (x0 : Vec F S8x112x2048 .f32) (x1 : Vec F S112x2048 .f32) (x2 : Vec F S1x2048 .f32) : ℕ → FVec F S8x112 .f32 × FVec F S8x112 .f32
  | 0 => (k1_pay1 (F := F), k1_pay2 (F := F))
  | n + 1 => if h : n < k1_t1_loop.trips then tripF x0 x1 x2 ⟨n, h⟩ (stF x0 x1 x2 n) else stF x0 x1 x2 n

theorem stF_zero (x0 : Vec F S8x112x2048 .f32) (x1 : Vec F S112x2048 .f32) (x2 : Vec F S1x2048 .f32) :
    stF x0 x1 x2 0 = (k1_pay1 (F := F), k1_pay2 (F := F)) := rfl

theorem stF_succ (x0 : Vec F S8x112x2048 .f32) (x1 : Vec F S112x2048 .f32) (x2 : Vec F S1x2048 .f32) (k : Fin k1_t1_loop.trips) :
    stF x0 x1 x2 (k.val + 1) = tripF x0 x1 x2 k (stF x0 x1 x2 k.val) := by
  rw [stF.eq_2]; exact dif_pos k.isLt

/-- The trip's yield, as the generated module states it, is `tripF` of what the three memrefs read. -/
theorem tripR_eq (𝒱 : Variants) (c : Dev nD) (bd : Option 𝒱.V) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (X_arg1 : BufTy.Contents (Elt F) arg1.view.ty) (X_arg2 : BufTy.Contents (Elt F) arg2.view.ty) (X_arg3 : BufTy.Contents (Elt F) arg3.view.ty)
    (k : Fin k1_t1_loop.trips) (acc : FVec F S8x112 .f32 × FVec F S8x112 .f32) :
    tripR_k1_t1 (F := F) 𝒱 c bd i arg1 harg1 arg2 harg2 arg3 harg3 arg4 harg4 arg5 harg5 X_arg1 X_arg2 X_arg3 k acc
      = tripF (arg1.view.read (Elt F) X_arg1) (arg2.view.read (Elt F) X_arg2) (arg3.view.read (Elt F) X_arg3) k acc := by
  unfold tripR_k1_t1
  unfold trip_k1_t1
  rfl

/-- So the recursion over the trips (the generated module's) is `stF` of what the three memrefs read. -/
theorem st_eq (𝒱 : Variants) (c : Dev nD) (bd : Option 𝒱.V) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (X_arg1 : BufTy.Contents (Elt F) arg1.view.ty) (X_arg2 : BufTy.Contents (Elt F) arg2.view.ty) (X_arg3 : BufTy.Contents (Elt F) arg3.view.ty) :
    ∀ n : ℕ, st_k1_t1 (F := F) 𝒱 c bd i arg1 harg1 arg2 harg2 arg3 harg3 arg4 harg4 arg5 harg5 X_arg1 X_arg2 X_arg3 (k1_pay1 (F := F), k1_pay2 (F := F)) n
      = stF (arg1.view.read (Elt F) X_arg1) (arg2.view.read (Elt F) X_arg2) (arg3.view.read (Elt F) X_arg3) n
  | 0 => rfl
  | n + 1 => by
    rw [st_k1_t1.eq_2, stF.eq_2, st_eq 𝒱 c bd i arg1 harg1 arg2 harg2 arg3 harg3 arg4 harg4 arg5 harg5 X_arg1 X_arg2 X_arg3 n]
    unfold st_k1_t1Step
    by_cases h : n < k1_t1_loop.trips
    · rw [dif_pos h, dif_pos h, tripR_eq]
    · rw [dif_neg h, dif_neg h]

/-! ## What the body leaves in each output window's buffer -/

/-- Window 3's staging buffer after the body, from the input windows' blocks: its one whole-block store of the first
    accumulator after the trips. -/
def out1_3 (x0 : Vec F S8x112x2048 .f32) (x1 : Vec F S112x2048 .f32) (x2 : Vec F S1x2048 .f32) : Vec F S8x112 .f32 :=
  View.canon [⟨rOut, (stF x0 x1 x2 k1_t1_loop.trips).1⟩]

/-- Window 4's: the second accumulator. -/
def out1_4 (x0 : Vec F S8x112x2048 .f32) (x1 : Vec F S112x2048 .f32) (x2 : Vec F S1x2048 .f32) : Vec F S8x112 .f32 :=
  View.canon [⟨rOut, (stF x0 x1 x2 k1_t1_loop.trips).2⟩]

/-- The one store tiles the buffer, so it covers it. -/
theorem cover1 (p0 : Vec F S8x112 .f32) (y : S8x112.Idx) :
    ∃ pc ∈ ([⟨rOut, p0⟩] : List (View.Piece (Elt F) S8x112 .f32)), y ∈ pc.1.set :=
  View.cover_of_tiled [⟨rOut, p0⟩] S8x112.size (by rfl) y

/-! ## The body's triple -/

set_option maxHeartbeats 1000000 in
/-- The kernel body on whole staging memrefs, the inputs' at read contents `x0 x1 x2` and the outputs' at anything, runs to
    the continuation holding the inputs' as they were and each output's at `out1_3` / `out1_4` of the inputs': the
    loop keeps the invariant the generated module states for it, the carried pair after it is `stF` of the inputs (`st_eq`), and the one
    whole-block store into each output covers it. -/
theorem sound_kernel1 (c : Dev nD) (E : Set ℕ) (i : grid1.Coords) (arg1 : Memref sig .tc .vmem S8x112x2048 .f32) (harg1 : arg1.IsWhole) (arg2 : Memref sig .tc .vmem S112x2048 .f32) (harg2 : arg2.IsWhole) (arg3 : Memref sig .tc .vmem S1x2048 .f32) (harg3 : arg3.IsWhole) (arg4 : Memref sig .tc .vmem S8x112 .f32) (harg4 : arg4.IsWhole) (arg5 : Memref sig .tc .vmem S8x112 .f32) (harg5 : arg5.IsWhole)
    (x0 : Vec F S8x112x2048 .f32) (x1 : Vec F S112x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__am_kernel i arg1 harg1 arg2 harg2 arg3 harg3 arg4 harg4 arg5 harg5) K := by
  simp only [cc1__am_kernel_eq_skeleton]; unfold cc1__am_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover1 _), st_eq]
    rfl
  iexists _; isplitr
  swap; · iexact H4
  ipureintro
  rw [View.read_writes_eq_canon _ _ _ (cover1 _), st_eq]
  rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (the concepts: one block, fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (the modulation row: one block, fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pipeline on core `c`: the arrays as the region finds them (`V`); after the body at point `t`
    each input's buffer at its block and each output's at `out1_3` / `out1_4` of the three input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.R1
end
-- ==== Proof.WKernelRun.lean ====
/-
  The kernel program's run, segment by segment: a stretch of host operations, the first kernel, a stretch, the second
  kernel, a last stretch. Between two segments every unscoped buffer of the core is held whole at a known valuation:
  the launch memory, then each stretch's operations applied, then each kernel's output arrays replaced by what its
  grid points wrote back. The run terminates, nothing faults, and every unscoped buffer ends at the last valuation.
-/
import proofs.«175620_j7894149890693_2_alg».proof.Proof.WRegion0Dat
import proofs.«175620_j7894149890693_2_alg».proof.Proof.WRegion1
import proofs.«175620_j7894149890693_2_alg».proof.Proof.Gen.Kernel.Regions
import proofs.«175620_j7894149890693_2_alg».proof.Proof.Gen.Kernel.Launch
import proofs.«175620_j7894149890693_2_alg».proof.Proof.Gen.Kernel.Skeleton
import proofs.«175620_j7894149890693_2_alg».proof.Proof.Gen.Kernel.Points
import proofs.«175620_j7894149890693_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the segments -/

/-- What the first kernel is entered from, read at the TensorCore's references. -/
abbrev E1 : (c : Dev nD) → (b : Ref sig .tc) → Buf (Elt F) ((c : Thread nD τ).loc b) := fun c b => Gen.V1 m c b

/-- What the first kernel leaves: its windows' arrays at what the grid points wrote back. -/
def outsA : Gen.Outs (F := F) := fun _ r c =>
  Pipeline.withArrays spec0 c (Gen.V1 m c) (fun w => (R0.dat0 (E1 m) c).arrAt w cfg0.N) r

/-- What the second kernel is entered from. -/
abbrev E3 : (c : Dev nD) → (b : Ref sig .tc) → Buf (Elt F) ((c : Thread nD τ).loc b) := fun c b => Gen.V3 m (outsA m) c b

/-- What the two kernels leave. -/
def outs : Gen.Outs (F := F) := fun J r c =>
  match J with
  | 2 => outsA m 2 r c
  | _ => Pipeline.withArrays spec1 c (Gen.V3 m (outsA m) c) (fun w => (R1.dat1 (E3 m) c).arrAt w cfg1.N) r

theorem outs_two (r : Ref sig .tc) (c : Dev nD) : outs m 2 r c = outsA m 2 r c := rfl
theorem V2_outs (c : Dev nD) : Gen.V2 m (outs m) c = Gen.V2 m (outsA m) c := rfl
theorem V3_outs (c : Dev nD) : Gen.V3 m (outs m) c = Gen.V3 m (outsA m) c := rfl

/-- The first kernel's two output arrays after it. -/
theorem outs_map (c : Dev nD) : outs m 2 main_v2_0 c = (R0.dat0 (E1 m) c).arrAt 3 cfg0.N := by
  rw [outs_two]; unfold outsA; exact Pipeline.withArrays_arr spec0 launch0.win.arr_inj c _ _ 3
theorem outs_gate (c : Dev nD) : outs m 2 main_v2_1 c = (R0.dat0 (E1 m) c).arrAt 4 cfg0.N := by
  rw [outs_two]; unfold outsA; exact Pipeline.withArrays_arr spec0 launch0.win.arr_inj c _ _ 4
/-- The second kernel's two output arrays after it. -/
theorem outs_four (r : Ref sig .tc) (c : Dev nD) :
    outs m 4 r c = Pipeline.withArrays spec1 c (Gen.V3 m (outsA m) c) (fun w => (R1.dat1 (E3 m) c).arrAt w cfg1.N) r := rfl
theorem outs_A (c : Dev nD) : outs m 4 main_v5_0 c = (R1.dat1 (E3 m) c).arrAt 3 cfg1.N := by
  rw [outs_four]; exact Pipeline.withArrays_arr spec1 launch1.win.arr_inj c _ _ 3
theorem outs_M (c : Dev nD) : outs m 4 main_v5_1 c = (R1.dat1 (E3 m) c).arrAt 4 cfg1.N := by
  rw [outs_four]; exact Pipeline.withArrays_arr spec1 launch1.win.arr_inj c _ _ 4

/-- After the first kernel each of its arrays holds what the pipeline leaves there, -/
theorem hF0 (c : Dev nD) (w : Fin cfg0.W) : (R0.dat0 (E1 m) c).arrAt w cfg0.N = Gen.V2 m (outs m) c (Pipeline.arrRef spec0 w) := by
  match w with
  | ⟨0, _⟩ => exact (((R0.dat0 (E1 m) c).arrAt_in 0 rfl _).trans (R0.A_eq0 (E1 m) c 0)).trans (Gen.V2_of m (outs m) c main_v0 (by decide)).symm
  | ⟨1, _⟩ => exact (((R0.dat0 (E1 m) c).arrAt_in 1 rfl _).trans (R0.A_eq0 (E1 m) c 1)).trans (Gen.V2_of m (outs m) c main_v1 (by decide)).symm
  | ⟨2, _⟩ => exact (((R0.dat0 (E1 m) c).arrAt_in 2 rfl _).trans (R0.A_eq0 (E1 m) c 2)).trans (Gen.V2_of m (outs m) c main_arg5 (by decide)).symm
  | ⟨3, _⟩ =>
    show _ = Function.update (Function.update (Gen.V1 m c) main_v2_0 (outs m 2 main_v2_0 c)) main_v2_1 (outs m 2 main_v2_1 c) main_v2_0
    rw [Function.update_of_ne (StableHlo.devRef_ne_of_ne (by decide) : (Proc.devRef .tc main_v2_0 : DevRef τ sig) ≠ Proc.devRef .tc main_v2_1), Function.update_self, outs_map]; rfl
  | ⟨4, _⟩ =>
    show _ = Function.update (Function.update (Gen.V1 m c) main_v2_0 (outs m 2 main_v2_0 c)) main_v2_1 (outs m 2 main_v2_1 c) main_v2_1
    rw [Function.update_self, outs_gate]; rfl
/-- and every other buffer what it held at entry. -/
theorem hrest0 (c : Dev nD) : ∀ b, b ∉ Finset.univ.image (Pipeline.arrRef spec0) → Gen.V2 m (outs m) c b = Gen.V1 m c b :=
  fun b hb => Gen.V2_of m (outs m) c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

/-- The same for the second kernel. -/
theorem hF1 (c : Dev nD) (w : Fin cfg1.W) : (R1.dat1 (E3 m) c).arrAt w cfg1.N = Gen.V4 m (outs m) c (Pipeline.arrRef spec1 w) := by
  match w with
  | ⟨0, _⟩ => exact (((R1.dat1 (E3 m) c).arrAt_in 0 rfl _).trans (R1.A_eq1 (E3 m) c 0)).trans (Gen.V4_of m (outs m) c main_v4 (by decide)).symm
  | ⟨1, _⟩ => exact (((R1.dat1 (E3 m) c).arrAt_in 1 rfl _).trans (R1.A_eq1 (E3 m) c 1)).trans (Gen.V4_of m (outs m) c main_arg1 (by decide)).symm
  | ⟨2, _⟩ => exact (((R1.dat1 (E3 m) c).arrAt_in 2 rfl _).trans (R1.A_eq1 (E3 m) c 2)).trans (Gen.V4_of m (outs m) c main_arg2 (by decide)).symm
  | ⟨3, _⟩ =>
    show _ = Function.update (Function.update (Gen.V3 m (outs m) c) main_v5_0 (outs m 4 main_v5_0 c)) main_v5_1 (outs m 4 main_v5_1 c) main_v5_0
    rw [Function.update_of_ne (StableHlo.devRef_ne_of_ne (by decide) : (Proc.devRef .tc main_v5_0 : DevRef τ sig) ≠ Proc.devRef .tc main_v5_1), Function.update_self, outs_A]; rfl
  | ⟨4, _⟩ =>
    show _ = Function.update (Function.update (Gen.V3 m (outs m) c) main_v5_0 (outs m 4 main_v5_0 c)) main_v5_1 (outs m 4 main_v5_1 c) main_v5_1
    rw [Function.update_self, outs_M]; rfl
theorem hrest1 (c : Dev nD) : ∀ b, b ∉ Finset.univ.image (Pipeline.arrRef spec1) → Gen.V4 m (outs m) c b = Gen.V3 m (outs m) c b :=
  fun b hb => Gen.V4_of m (outs m) c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

/-! ## The launch data family and the thread state -/

/-- No kernel has a prefetched table. -/
abbrev adm : (p : Fin 2) → (pcfgs (F := F) p).Adm := fun p => (cfgs p).toPCfg_adm
/-- Each kernel's launch data at its entry valuation. -/
def pdats : (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => fun c => R1.dat1 (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register and its dues, at nothing. -/
abbrev R (c : Dev nD) : sProp 𝕄 := iprop((∃ r, prngReg c r) ∗ ∃ W, owes (c : Thread nD τ) (0 : CellTallies nD τ sig Unit) W)
/-- A stretch of host operations as a segment from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (Gen.V5 m (outs m) c) ∗ ∃ r, prngReg c r)

/-! ## The kernels as segments -/

set_option backward.isDefEq.respectTransparency.types false in
/-- The first kernel over the thread state: entered from every unscoped buffer at the valuation after the first
    stretch, left at that valuation with its two output arrays replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state, likewise. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N) (hF1 m c) (fun b hb => (hrest1 m c b hb).trans (congrFun (V3_outs m c) b))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (fun c => Gen.V0 m c)),
    .region (reg0 m),
    .host (hseg hostOps1 hostOps1_sub Gen.hostOps1_fresh (fun c => Gen.V2 m (outs m) c)),
    .region (reg1 m),
    .host (hseg hostOps2 hostOps2_sub Gen.hostOps2_fresh (fun c => Gen.V4 m (outs m) c)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer of every core ends at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (Gen.V5 m (outs m) c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

end Cert.Kernel.Run

end
-- ==== Proof.Spec.lean ====
/-
  The mathematics of the claim, free of any program: the eight argument arrays by coordinates, and the three
  results as functions of them, index by index, on the extended reals.

  Shared by both programs: the concept rows followed by the background row (`cwb`, 113 rows), the squared
  distance `‖a_k‖² + ‖x_n‖² − 2·⟨a_k, x_n⟩`, its clamped square root negated, and the softmax of that over the
  113 rows at each image position (`attn`); result 0 is `attn` with the position split into its two coordinates.

  Result 1, the gate, comes in two arrangements of one double sum: the kernel contracts the channel axis first
  (`wx = w_cfc · x`, then `Σ_n attn · wx`), the reference the position axis first (`repr = Σ_n attn · x`, then
  `Σ_c repr · w_cfc`). Result 2, the label logits: the reference mixes concepts and modulation by the gate and
  contracts all 112·2048 features against the weight at once; the kernel contracts the channel axis in four
  chunks of 512 into `A` (against the concepts) and `M` (against the modulation) and finishes with
  `Σ_k g·(A − M) + Σ_k M`. The two arrangements agree when every entry is a real number (distributivity and
  exchanging finite sums need it on the extended reals); that is proved in the module built on this one.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The eight argument arrays, by coordinates: `x[b, c, n]` with the two image axes flattened (`n = 14·h + w`),
    the concepts `cp[k, c]`, the modulation, background and concept-head weight rows `md[c]`, `bg[c]`, `wc[c]`, the
    concept-head bias `bc`, the label weight `wl[o, j]` over the flat feature axis `j = 2048·k + c`, the label bias. -/
structure Ins where
  x  : Fin 128 → Fin 2048 → Fin 196 → EReal
  cp : Fin 112 → Fin 2048 → EReal
  md : Fin 2048 → EReal
  bg : Fin 2048 → EReal
  wc : Fin 2048 → EReal
  bc : EReal
  wl : Fin 200 → Fin 229376 → EReal
  bl : Fin 200 → EReal

/-- The arrays as the programs hold them (rank-4 input, rows as 1×2048, the bias as a 1-vector), by coordinates. -/
def Ins.ofArrays (a0 : (⟨4, ![128, 2048, 14, 14]⟩ : Shape).Idx → EReal) (a1 : (⟨2, ![112, 2048]⟩ : Shape).Idx → EReal)
    (a2 a3 a4 : (⟨2, ![1, 2048]⟩ : Shape).Idx → EReal) (a5 : (⟨1, ![1]⟩ : Shape).Idx → EReal)
    (a6 : (⟨2, ![200, 229376]⟩ : Shape).Idx → EReal) (a7 : (⟨1, ![200]⟩ : Shape).Idx → EReal) : Ins where
  x b c n := a0 (ValueIdx.ix4 b c (⟨n.val / 14, by have := n.isLt; omega⟩ : Fin 14) (⟨n.val % 14, by omega⟩ : Fin 14))
  cp k c := a1 (ValueIdx.ix2 k c)
  md c := a2 (ValueIdx.ix2 (0 : Fin 1) c)
  bg c := a3 (ValueIdx.ix2 (0 : Fin 1) c)
  wc c := a4 (ValueIdx.ix2 (0 : Fin 1) c)
  bc := a5 (ValueIdx.ix1 (0 : Fin 1))
  wl o j := a6 (ValueIdx.ix2 o j)
  bl o := a7 (ValueIdx.ix1 o)

/-- Every entry of every array is a real number. -/
structure Ins.Finite (I : Ins) : Prop where
  x  : ∀ b c n, ∃ r : ℝ, I.x b c n = (r : EReal)
  cp : ∀ k c, ∃ r : ℝ, I.cp k c = (r : EReal)
  md : ∀ c, ∃ r : ℝ, I.md c = (r : EReal)
  bg : ∀ c, ∃ r : ℝ, I.bg c = (r : EReal)
  wc : ∀ c, ∃ r : ℝ, I.wc c = (r : EReal)
  bc : ∃ r : ℝ, I.bc = (r : EReal)
  wl : ∀ o j, ∃ r : ℝ, I.wl o j = (r : EReal)
  bl : ∀ o, ∃ r : ℝ, I.bl o = (r : EReal)

variable (I : Ins)

/-! ## The attention map (both programs) -/

/-- The literals `2.0` and `1.0` as the programs write them (never evaluated where both sides carry the same word). -/
def two : EReal := Ideal.ofBits .f32 0x40000000#32
def one : EReal := Ideal.ofBits .f32 0x3F800000#32

/-- Row `k` of the concepts followed by the background: 113 rows. -/
def cwb (k : Fin 113) (c : Fin 2048) : EReal := if h : k.val < 112 then I.cp ⟨k.val, h⟩ c else I.bg c
/-- `‖a_k‖²`. -/
def asq (k : Fin 113) : EReal := ∑ c : Fin 2048, cwb I k c * cwb I k c
/-- `‖x_{b,n}‖²` over the channels. -/
def xsq (b : Fin 128) (n : Fin 196) : EReal := ∑ c : Fin 2048, I.x b c n * I.x b c n
/-- `⟨a_k, x_{b,n}⟩`. -/
def dots (b : Fin 128) (k : Fin 113) (n : Fin 196) : EReal := ∑ c : Fin 2048, cwb I k c * I.x b c n
/-- The squared distance, grouped as both programs group it. -/
def d2 (b : Fin 128) (k : Fin 113) (n : Fin 196) : EReal := (asq I k + xsq I b n) - two * dots I b k n
/-- Minus the distance (the square root of the squared distance clamped at zero). -/
def nd (b : Fin 128) (k : Fin 113) (n : Fin 196) : EReal := -(Ideal.sqrt (max (d2 I b k n) 0))
/-- Its maximum over the 113 rows, as a fold from `-∞`. -/
def mx (b : Fin 128) (n : Fin 196) : EReal := (Finset.univ : Finset (Fin 113)).fold max ⊥ (fun k => nd I b k n)
/-- The shifted exponential, -/
def ex (b : Fin 128) (k : Fin 113) (n : Fin 196) : EReal := Ideal.exp (nd I b k n - mx I b n)
/-- its sum over the rows, -/
def ssum (b : Fin 128) (n : Fin 196) : EReal := ∑ k : Fin 113, ex I b k n
/-- and the softmax over the rows. -/
def attn (b : Fin 128) (k : Fin 113) (n : Fin 196) : EReal := Ideal.div (ex I b k n) (ssum I b n)

/-- RESULT 0: the attention map with the position split into its image coordinates. -/
def score (b : Fin 128) (k : Fin 113) (h w : Fin 14) : EReal := attn I b k ⟨14 * h.val + w.val, by omega⟩

/-! ## The gate: two arrangements -/

/-- A concept row among the 113. -/
def lo (k : Fin 112) : Fin 113 := ⟨k.val, by omega⟩

/-- The kernel's: the concept-head weight against `x` over the channels first, -/
def wx (b : Fin 128) (n : Fin 196) : EReal := ∑ c : Fin 2048, I.wc c * I.x b c n
/-- RESULT 1, the kernel's arrangement: then the attention against that over the positions, the bias, the logistic. -/
def gateK (b : Fin 128) (k : Fin 112) : EReal :=
  Ideal.logistic ((∑ n : Fin 196, attn I b (lo k) n * wx I b n) + I.bc)

/-- The reference's: the attention against `x` over the positions first, -/
def repr (b : Fin 128) (k : Fin 112) (c : Fin 2048) : EReal := ∑ n : Fin 196, attn I b (lo k) n * I.x b c n
/-- RESULT 1, the reference's arrangement: then against the concept-head weight over the channels, the bias, and
    the logistic spelt `1 / (1 + e^(−t))` with the literal `1.0`. -/
def gateR (b : Fin 128) (k : Fin 112) : EReal :=
  Ideal.div one (one + Ideal.exp (-((∑ c : Fin 2048, repr I b k c * I.wc c) + I.bc)))

/-! ## The label logits: two arrangements -/

/-- The flat feature index of concept `k`, channel `c`; and channel `512·i + j` of chunk `i`. -/
def fl (k : Fin 112) (c : Fin 2048) : Fin 229376 := ⟨2048 * k.val + c.val, by omega⟩
def ch (i : Fin 4) (j : Fin 512) : Fin 2048 := ⟨512 * i.val + j.val, by omega⟩

/-- The kernel's: one chunk of the channel contraction against the concepts, and against the modulation; -/
def chunkA (o : Fin 200) (k : Fin 112) (i : Fin 4) : EReal := ∑ j : Fin 512, I.wl o (fl k (ch i j)) * I.cp k (ch i j)
def chunkM (o : Fin 200) (k : Fin 112) (i : Fin 4) : EReal := ∑ j : Fin 512, I.wl o (fl k (ch i j)) * I.md (ch i j)
/-- the four chunks accumulated from zero, in order; -/
def AK (o : Fin 200) (k : Fin 112) : EReal := (((0 + chunkA I o k 0) + chunkA I o k 1) + chunkA I o k 2) + chunkA I o k 3
def MK (o : Fin 200) (k : Fin 112) : EReal := (((0 + chunkM I o k 0) + chunkM I o k 1) + chunkM I o k 2) + chunkM I o k 3
/-- RESULT 2, the kernel's arrangement. -/
def labelK (b : Fin 128) (o : Fin 200) : EReal :=
  ((∑ k : Fin 112, gateK I b k * (AK I o k - MK I o k)) + ∑ k : Fin 112, MK I o k) + I.bl o

/-- The reference's: concepts and modulation mixed by the gate, -/
def mixed (b : Fin 128) (k : Fin 112) (c : Fin 2048) : EReal := gateR I b k * I.cp k c + (one - gateR I b k) * I.md c
/-- the concept and the channel of a flat feature index, -/
def kOf (j : Fin 229376) : Fin 112 := ⟨j.val / 2048, by have := j.isLt; omega⟩
def cOf (j : Fin 229376) : Fin 2048 := ⟨j.val % 2048, by omega⟩
/-- RESULT 2, the reference's arrangement: all features against the weight at once. -/
def labelR (b : Fin 128) (o : Fin 200) : EReal := (∑ j : Fin 229376, mixed I b (kOf j) (cOf j) * I.wl o j) + I.bl o

end Cert.Spec

end
-- ==== Proof.RefAttn.lean ====
/-
  The reference's softmax map, stage by stage at an index: the rows of concepts and background, the squared norms,
  the inner products, the squared distance, minus the clamped distance, its maximum over the rows, the shifted
  exponential, its sum, and the quotient; then the first result, the map with the position split in two.
-/
import proofs.«175620_j7894149890693_2_alg».proof.Proof.Gen.ReferenceIdeal.Read
import proofs.«175620_j7894149890693_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Idealize.SL.Sem

/-! ## The record of arrays, field by field -/

section Fields
variable (a0 : (⟨4, ![128, 2048, 14, 14]⟩ : Shape).Idx → EReal) (a1 : (⟨2, ![112, 2048]⟩ : Shape).Idx → EReal)
    (a2 a3 a4 : (⟨2, ![1, 2048]⟩ : Shape).Idx → EReal) (a5 : (⟨1, ![1]⟩ : Shape).Idx → EReal)
    (a6 : (⟨2, ![200, 229376]⟩ : Shape).Idx → EReal) (a7 : (⟨1, ![200]⟩ : Shape).Idx → EReal)

theorem ofArrays_x (b : Fin 128) (c : Fin 2048) (n : Fin 196) :
    (Cert.Spec.Ins.ofArrays a0 a1 a2 a3 a4 a5 a6 a7).x b c n
      = a0 (ix4 b c (⟨n.val / 14, by have := n.isLt; omega⟩ : Fin 14) (⟨n.val % 14, by omega⟩ : Fin 14)) := rfl
theorem ofArrays_cp (k : Fin 112) (c : Fin 2048) : (Cert.Spec.Ins.ofArrays a0 a1 a2 a3 a4 a5 a6 a7).cp k c = a1 (ix2 k c) := rfl
theorem ofArrays_md (c : Fin 2048) : (Cert.Spec.Ins.ofArrays a0 a1 a2 a3 a4 a5 a6 a7).md c = a2 (ix2 (0 : Fin 1) c) := rfl
theorem ofArrays_bg (c : Fin 2048) : (Cert.Spec.Ins.ofArrays a0 a1 a2 a3 a4 a5 a6 a7).bg c = a3 (ix2 (0 : Fin 1) c) := rfl
theorem ofArrays_wc (c : Fin 2048) : (Cert.Spec.Ins.ofArrays a0 a1 a2 a3 a4 a5 a6 a7).wc c = a4 (ix2 (0 : Fin 1) c) := rfl
theorem ofArrays_bc : (Cert.Spec.Ins.ofArrays a0 a1 a2 a3 a4 a5 a6 a7).bc = a5 (ix1 (0 : Fin 1)) := rfl
theorem ofArrays_wl (o : Fin 200) (j : Fin 229376) : (Cert.Spec.Ins.ofArrays a0 a1 a2 a3 a4 a5 a6 a7).wl o j = a6 (ix2 o j) := rfl
theorem ofArrays_bl (o : Fin 200) : (Cert.Spec.Ins.ofArrays a0 a1 a2 a3 a4 a5 a6 a7).bl o = a7 (ix1 o) := rfl

end Fields

/-- The word of minus infinity is the bottom of the extended reals. -/
theorem ofBits_ninf : Ideal.ofBits .f32 0xFF800000#32 = (⊥ : EReal) := by simp [Ideal.ofBits, Ideal.ieee]

variable (x0 : (⟨S128x2048x14x14, .f32⟩ : BufTy).Contents (Elt Ideal)) (x1 : (⟨S112x2048, .f32⟩ : BufTy).Contents (Elt Ideal))
    (x2 x3 x4 : (⟨S1x2048, .f32⟩ : BufTy).Contents (Elt Ideal)) (x5 : (⟨S1, .f32⟩ : BufTy).Contents (Elt Ideal))
    (x6 : (⟨S200x229376, .f32⟩ : BufTy).Contents (Elt Ideal)) (x7 : (⟨S200, .f32⟩ : BufTy).Contents (Elt Ideal))

local notation "𝓘" => Cert.Spec.Ins.ofArrays x0 x1 x2 x3 x4 x5 x6 x7

/-! ## The operands -/

/-- The transposed, flattened input at (b, n, c) is the input's entry at channel c, position n. -/
theorem v1_at (b : Fin 128) (n : Fin 196) (c : Fin 2048) :
    val_main_v1 (F := Ideal) x0 (ix3 b n c) = Cert.Spec.Ins.x 𝓘 b c n := by
  rw [val_main_v1_apply, val_main_v0_apply, ofArrays_x]
  refine congrArg x0 (funext fun a => Fin.ext ?_)
  have hb := b.isLt; have hn := n.isLt; have hc := c.isLt
  match a with
  | ⟨0, _⟩ => show ((b.val * 2048 + c.val) * 196 + n.val) / 401408 = b.val; omega
  | ⟨1, _⟩ => show ((b.val * 2048 + c.val) * 196 + n.val) / 196 % 2048 = c.val; omega
  | ⟨2, _⟩ => show ((b.val * 2048 + c.val) * 196 + n.val) / 14 % 14 = n.val / 14; omega
  | ⟨3, _⟩ => show ((b.val * 2048 + c.val) * 196 + n.val) % 14 = n.val % 14; omega

/-- The concatenation's row k is the concept row k below 112 and the background row at 112. -/
theorem v2_at (k : Fin 113) (c : Fin 2048) :
    val_main_v2 (F := Ideal) x1 x3 (ix2 k c) = Cert.Spec.cwb 𝓘 k c := by
  unfold val_main_v2 Cert.Spec.cwb
  by_cases h : k.val < 112
  · rw [dif_pos h, ofArrays_cp]
    exact concatenate_pair_apply_left (0 : Fin 2) x1 x3 concatenates_S112x2048_S1x2048_S113x2048_d0 (ix2 k c) rfl
      (ix2 (⟨k.val, h⟩ : Fin 112) c) (fun b => match b with | ⟨0, _⟩ => rfl | ⟨1, _⟩ => rfl)
  · rw [dif_neg h, ofArrays_bg]
    exact concatenate_pair_apply_right (0 : Fin 2) x1 x3 concatenates_S112x2048_S1x2048_S113x2048_d0 (ix2 k c) rfl rfl
      (ix2 (0 : Fin 1) c) (fun b hb => match b, hb with | ⟨0, _⟩, hb => absurd rfl hb | ⟨1, _⟩, _ => rfl)
      (by have hk := k.isLt; show 0 + 112 = k.val; omega)

/-! ## The squared norms and the inner products -/

theorem v4_at (k : Fin 113) : val_main_v4 (F := Ideal) x1 x3 (ix1 k) = Cert.Spec.asq 𝓘 k := by
  unfold Cert.Spec.asq
  rw [val_main_v4_apply, val_main_cst_apply, Ideal.ofBits_def, Ideal.ofBits_zero_f32, zero_add]
  refine Finset.sum_congr rfl fun c _ => ?_
  have e : idx_main_v4 (ix1 k) c = ix2 k c := funext fun a => Fin.ext (by match a with | ⟨0, _⟩ => rfl | ⟨1, _⟩ => rfl)
  rw [e, val_main_v3_apply, Ideal.mulf_def, v2_at x0 x1 x2 x3 x4 x5 x6 x7]

theorem v6_at (b : Fin 128) (n : Fin 196) : val_main_v6 (F := Ideal) x0 (ix2 b n) = Cert.Spec.xsq 𝓘 b n := by
  unfold Cert.Spec.xsq
  rw [val_main_v6_apply, val_main_cst_0_apply, Ideal.ofBits_def, Ideal.ofBits_zero_f32, zero_add]
  refine Finset.sum_congr rfl fun c _ => ?_
  have e : idx_main_v6 (ix2 b n) c = ix3 b n c :=
    funext fun a => Fin.ext (by match a with | ⟨0, _⟩ => rfl | ⟨1, _⟩ => rfl | ⟨2, _⟩ => rfl)
  rw [e, val_main_v5_apply, Ideal.mulf_def, v1_at x0 x1 x2 x3 x4 x5 x6 x7]

/-- The contraction over the channels, the input on the left: the inner product after commuting each term. -/
theorem v7_at (b : Fin 128) (n : Fin 196) (k : Fin 113) :
    val_main_v7 (F := Ideal) x0 x1 x3 (ix3 b n k) = Cert.Spec.dots 𝓘 b k n := by
  unfold Cert.Spec.dots
  rw [val_main_v7_apply]
  refine Finset.sum_congr rfl fun c _ => ?_
  have el : lidx_main_v7 (ix3 b n k) c = ix3 b n c :=
    funext fun a => Fin.ext (by match a with | ⟨0, _⟩ => rfl | ⟨1, _⟩ => rfl | ⟨2, _⟩ => rfl)
  have er : ridx_main_v7 (ix3 b n k) c = ix2 k c := funext fun a => Fin.ext (by match a with | ⟨0, _⟩ => rfl | ⟨1, _⟩ => rfl)
  rw [el, er, v1_at x0 x1 x2 x3 x4 x5 x6 x7, v2_at x0 x1 x2 x3 x4 x5 x6 x7, mul_comm]

theorem v8_at (b : Fin 128) (k : Fin 113) (n : Fin 196) :
    val_main_v8 (F := Ideal) x0 x1 x3 (ix3 b k n) = Cert.Spec.dots 𝓘 b k n := by
  rw [val_main_v8_apply]
  have e : idx_main_v8 (ix3 b k n) = ix3 b n k :=
    funext fun a => Fin.ext (by match a with | ⟨0, _⟩ => rfl | ⟨1, _⟩ => rfl | ⟨2, _⟩ => rfl)
  rw [e, v7_at x0 x1 x2 x3 x4 x5 x6 x7]

/-! ## The squared distance and its negated clamped root -/

theorem v16_at (b : Fin 128) (k : Fin 113) (n : Fin 196) :
    val_main_v16 (F := Ideal) x0 x1 x3 (ix3 b k n) = Cert.Spec.d2 𝓘 b k n := by
  unfold Cert.Spec.d2 Cert.Spec.two
  have e1 : idx_main_v9 (idx_main_v11 (ix3 b k n)) = ix1 k := funext fun a => Fin.ext (by match a with | ⟨0, _⟩ => rfl)
  have e2 : idx_main_v10 (idx_main_v12 (ix3 b k n)) = ix2 b n :=
    funext fun a => Fin.ext (by match a with | ⟨0, _⟩ => rfl | ⟨1, _⟩ => rfl)
  rw [val_main_v16_apply, val_main_v13_apply, val_main_v15_apply, val_main_v11_apply, val_main_v9_apply, e1,
    val_main_v12_apply, val_main_v10_apply, e2, val_main_v14_apply, val_main_cst_1_apply,
    v4_at x0 x1 x2 x3 x4 x5 x6 x7, v6_at x0 x1 x2 x3 x4 x5 x6 x7, v8_at x0 x1 x2 x3 x4 x5 x6 x7]
  rfl

theorem v20_at (b : Fin 128) (k : Fin 113) (n : Fin 196) :
    val_main_v20 (F := Ideal) x0 x1 x3 (ix3 b k n) = Cert.Spec.nd 𝓘 b k n := by
  unfold Cert.Spec.nd
  rw [val_main_v20_apply, val_main_v19_apply, val_main_v18_apply, val_main_v17_apply, val_main_cst_2_apply,
    v16_at x0 x1 x2 x3 x4 x5 x6 x7, Ideal.ofBits_def, Ideal.ofBits_zero_f32]
  rfl

/-! ## The maximum over the rows -/

theorem reduces_rows : S128x113x196.Reduces [1] S128x196 := by decide

/-- The position (b, n) with row k put back is (b, k, n). -/
theorem lift_rows (b : Fin 128) (n : Fin 196) (k : Fin (S128x113x196.size 1)) :
    reduces_rows.lift (ix2 b n) k = ix3 b (⟨k.val, k.isLt⟩ : Fin 113) n := by
  funext c; apply Fin.ext
  fin_cases c <;> rfl

theorem v21_at (b : Fin 128) (n : Fin 196) :
    val_main_v21 (F := Ideal) x0 x1 x3 (ix2 b n) = Cert.Spec.mx 𝓘 b n := by
  unfold val_main_v21 Cert.Spec.mx
  rw [Host.reduce_eq_fold_single FloatOps.maximumf _ _ reducesTo_S128x113x196_S128x196_d1 reduces_rows h_S_]
  have hf : (val_main_v20 (F := Ideal) x0 x1 x3 ∘ reduces_rows.lift (ix2 b n))
      = fun k : Fin 113 => Cert.Spec.nd 𝓘 b k n := funext fun k => by
    show val_main_v20 (F := Ideal) x0 x1 x3 (reduces_rows.lift (ix2 b n) k) = _
    rw [lift_rows, v20_at x0 x1 x2 x3 x4 x5 x6 x7]
    rfl
  have hbot : val_main_cst_3 (F := Ideal) (Shape.Idx.first h_S_) = (⊥ : EReal) := by
    rw [val_main_cst_3_apply, Ideal.ofBits_def, ofBits_ninf]
  rw [hf, hbot]
  rfl

theorem v23_at (b : Fin 128) (n : Fin 196) :
    val_main_v23 (F := Ideal) x0 x1 x3 (ix2 b n) = Cert.Spec.mx 𝓘 b n := by
  rw [val_main_v23_apply, val_main_v22_apply, val_main_cst_4_apply, v21_at x0 x1 x2 x3 x4 x5 x6 x7,
    Ideal.ofBits_def, ofBits_ninf, Ideal.maximumf_def]
  exact max_bot_left _

/-! ## The softmax -/

theorem v27_at (b : Fin 128) (k : Fin 113) (n : Fin 196) :
    val_main_v27 (F := Ideal) x0 x1 x3 (ix3 b k n) = Cert.Spec.ex 𝓘 b k n := by
  unfold Cert.Spec.ex
  have e : idx_main_v24 (idx_main_v25 (ix3 b k n)) = ix2 b n :=
    funext fun a => Fin.ext (by match a with | ⟨0, _⟩ => rfl | ⟨1, _⟩ => rfl)
  rw [val_main_v27_apply, val_main_v26_apply, val_main_v25_apply, val_main_v24_apply, e,
    v23_at x0 x1 x2 x3 x4 x5 x6 x7, v20_at x0 x1 x2 x3 x4 x5 x6 x7]
  rfl

theorem v28_at (b : Fin 128) (n : Fin 196) :
    val_main_v28 (F := Ideal) x0 x1 x3 (ix2 b n) = Cert.Spec.ssum 𝓘 b n := by
  unfold Cert.Spec.ssum
  rw [val_main_v28_apply, val_main_cst_5_apply, Ideal.ofBits_def, Ideal.ofBits_zero_f32, zero_add]
  refine Finset.sum_congr rfl fun k _ => ?_
  have e : idx_main_v28 (ix2 b n) k = ix3 b k n :=
    funext fun a => Fin.ext (by match a with | ⟨0, _⟩ => rfl | ⟨1, _⟩ => rfl | ⟨2, _⟩ => rfl)
  rw [e, v27_at x0 x1 x2 x3 x4 x5 x6 x7]

/-- The shared prefix of all three results: the softmax over the rows at (b, k, n). -/
theorem v31_at (b : Fin 128) (k : Fin 113) (n : Fin 196) :
    val_main_v31 (F := Ideal) x0 x1 x3 (ix3 b k n) = Cert.Spec.attn 𝓘 b k n := by
  unfold Cert.Spec.attn
  have e : idx_main_v29 (idx_main_v30 (ix3 b k n)) = ix2 b n :=
    funext fun a => Fin.ext (by match a with | ⟨0, _⟩ => rfl | ⟨1, _⟩ => rfl)
  rw [val_main_v31_apply, val_main_v30_apply, val_main_v29_apply, e, v28_at x0 x1 x2 x3 x4 x5 x6 x7,
    v27_at x0 x1 x2 x3 x4 x5 x6 x7]
  rfl

/-! ## The first result -/

theorem v32_at (b : Fin 128) (k : Fin 113) (h w : Fin 14) :
    val_main_v32 (F := Ideal) x0 x1 x3 (ix4 b k h w) = Cert.Spec.score 𝓘 b k h w := by
  unfold Cert.Spec.score
  have e : idx_main_v32 (ix4 b k h w)
      = ix3 b k (⟨14 * h.val + w.val, by have := h.isLt; have := w.isLt; omega⟩ : Fin 196) :=
    funext fun a => Fin.ext (by
      have hb := b.isLt; have hk := k.isLt; have hh := h.isLt; have hw := w.isLt
      match a with
      | ⟨0, _⟩ => show (((b.val * 113 + k.val) * 14 + h.val) * 14 + w.val) / 22148 = b.val; omega
      | ⟨1, _⟩ => show (((b.val * 113 + k.val) * 14 + h.val) * 14 + w.val) / 196 % 113 = k.val; omega
      | ⟨2, _⟩ => show (((b.val * 113 + k.val) * 14 + h.val) * 14 + w.val) % 196 = 14 * h.val + w.val; omega)
  rw [val_main_v32_apply, e, v31_at x0 x1 x2 x3 x4 x5 x6 x7]

/-- RESULT 0 of the reference, as a whole array. -/
theorem v32_eq : val_main_v32 (F := Ideal) x0 x1 x3 = fun j => Cert.Spec.score 𝓘 (j 0) (j 1) (j 2) (j 3) := by
  funext j
  obtain ⟨b, k, h, w, rfl⟩ : ∃ (b : Fin 128) (k : Fin 113) (h w : Fin 14), j = ix4 b k h w := ⟨j 0, j 1, j 2, j 3, eq_ix4 j⟩
  exact v32_at x0 x1 x2 x3 x4 x5 x6 x7 b k h w

end Cert.ReferenceIdeal.RefValue

end
-- ==== Proof.RefGate.lean ====
/-
  The reference's gate, stage by stage at an index: the softmax map cut to the concept rows, contracted against the
  input over the positions, that against the concept-head weight over the channels, the bias, and the logistic
  spelt as a quotient with the literal one.
-/
import proofs.«175620_j7894149890693_2_alg».proof.Proof.RefAttn

noncomputable section

open scoped BigOperators

namespace Cert.ReferenceIdeal.RefValue

open Cert.ReferenceIdeal Cert.ReferenceIdeal.Gen Cert.ReferenceIdeal.Read Idealize.ShloMosaic Idealize.ShloMosaic.ValueIdx Idealize.SL.Sem

variable (x0 : (⟨S128x2048x14x14, .f32⟩ : BufTy).Contents (Elt Ideal)) (x1 : (⟨S112x2048, .f32⟩ : BufTy).Contents (Elt Ideal))
    (x2 x3 x4 : (⟨S1x2048, .f32⟩ : BufTy).Contents (Elt Ideal)) (x5 : (⟨S1, .f32⟩ : BufTy).Contents (Elt Ideal))
    (x6 : (⟨S200x229376, .f32⟩ : BufTy).Contents (Elt Ideal)) (x7 : (⟨S200, .f32⟩ : BufTy).Contents (Elt Ideal))

local notation "𝓘" => Cert.Spec.Ins.ofArrays x0 x1 x2 x3 x4 x5 x6 x7

/-- The slice keeps the concept rows. -/
theorem v33_at (b : Fin 128) (k : Fin 112) (n : Fin 196) :
    val_main_v33 (F := Ideal) x0 x1 x3 (ix3 b k n) = Cert.Spec.attn 𝓘 b (Cert.Spec.lo k) n := by
  have e : idx_main_v33 (ix3 b k n) = ix3 b (Cert.Spec.lo k) n :=
    funext fun a => Fin.ext (by match a with | ⟨0, _⟩ => rfl | ⟨1, _⟩ => rfl | ⟨2, _⟩ => rfl)
  rw [val_main_v33_apply, e, v31_at x0 x1 x2 x3 x4 x5 x6 x7]

/-- The contraction over the positions. -/
theorem v34_at (b : Fin 128) (k : Fin 112) (c : Fin 2048) :
    val_main_v34 (F := Ideal) x0 x1 x3 (ix3 b k c) = Cert.Spec.repr 𝓘 b k c := by
  unfold Cert.Spec.repr
  rw [val_main_v34_apply]
  refine Finset.sum_congr rfl fun n _ => ?_
  have el : lidx_main_v34 (ix3 b k c) n = ix3 b k n :=
    funext fun a => Fin.ext (by match a with | ⟨0, _⟩ => rfl | ⟨1, _⟩ => rfl | ⟨2, _⟩ => rfl)
  have er : ridx_main_v34 (ix3 b k c) n = ix3 b n c :=
    funext fun a => Fin.ext (by match a with | ⟨0, _⟩ => rfl | ⟨1, _⟩ => rfl | ⟨2, _⟩ => rfl)
  rw [el, er, v33_at x0 x1 x2 x3 x4 x5 x6 x7, v1_at x0 x1 x2 x3 x4 x5 x6 x7]

/-- The contraction over the channels against the concept-head weight. -/
theorem v35_at (b : Fin 128) (k : Fin 112) :
    val_main_v35 (F := Ideal) x0 x1 x3 x4 (ix3 b k (0 : Fin 1))
      = ∑ c : Fin 2048, Cert.Spec.repr 𝓘 b k c * Cert.Spec.Ins.wc 𝓘 c := by
  rw [val_main_v35_apply]
  refine Finset.sum_congr rfl fun c _ => ?_
  have el : lidx_main_v35 (ix3 b k (0 : Fin 1)) c = ix3 b k c :=
    funext fun a => Fin.ext (by match a with | ⟨0, _⟩ => rfl | ⟨1, _⟩ => rfl | ⟨2, _⟩ => rfl)
  have er : ridx_main_v35 (ix3 b k (0 : Fin 1)) c = ix2 (0 : Fin 1) c :=
    funext fun a => Fin.ext (by match a with | ⟨0, _⟩ => rfl | ⟨1, _⟩ => rfl)
  rw [el, er, v34_at x0 x1 x2 x3 x4 x5 x6 x7, ofArrays_wc]

/-- The logistic as the reference spells it. -/
theorem v44_at (b : Fin 128) (k : Fin 112) :
    val_main_v44 (F := Ideal) x0 x1 x3 x4 x5 (ix3 b k (0 : Fin 1)) = Cert.Spec.gateR 𝓘 b k := by
  unfold Cert.Spec.gateR Cert.Spec.one
  have e : idx_main_v36 (idx_main_v37 (ix3 b k (0 : Fin 1))) = ix1 (0 : Fin 1) :=
    funext fun a => Fin.ext (by match a with | ⟨0, _⟩ => rfl)
  rw [val_main_v44_apply, val_main_v43_apply, val_main_cst_7_apply, val_main_v42_apply, val_main_v41_apply,
    val_main_cst_6_apply, val_main_v40_apply, val_main_v39_apply, val_main_v38_apply, val_main_v37_apply,
    val_main_v36_apply, e, v35_at x0 x1 x2 x3 x4 x5 x6 x7, ofArrays_bc]
  rfl

/-- RESULT 1 of the reference at (b, k). -/
theorem v45_at (b : Fin 128) (k : Fin 112) :
    val_main_v45 (F := Ideal) x0 x1 x3 x4 x5 (ix2 b k) = Cert.Spec.gateR 𝓘 b k := by
  have e : idx_main_v45 (ix2 b k) = ix3 b k (0 : Fin 1) :=
    funext fun a => Fin.ext (by
      have hb := b.isLt; have hk := k.isLt
      match a with
      | ⟨0, _⟩ => show (b.val * 112 + k.val) / 112 = b.val; omega
      | ⟨1, _⟩ => show (b.val * 112 + k.val) / 1 % 112 = k.val; omega
      | ⟨2, _⟩ => rfl)
  rw [val_main_v45_apply, e, v44_at x0 x1 x2 x3 x4 x5 x6 x7]

/-- RESULT 1 of the reference, as a whole array. -/
theorem v45_eq : val_main_v45 (F := Ideal) x0 x1 x3 x4 x5 = fun j => Cert.Spec.gateR 𝓘 (j 0) (j 1) := by
  funext j
  obtain ⟨b, k, rfl⟩ : ∃ (b : Fin 128) (k : Fin 112), j = ix2 b k := ⟨j 0, j 1, eq_ix2 j⟩
  exact v45_at x0 x1 x2 x3 x4 x5 x6 x7 b k

end Cert.ReferenceIdeal.RefValue

end
-- ==== Proof.RefLabel.lean ====
/-
  The reference's label logits, stage by stage at an index: concepts and modulation mixed by the gate, the mix laid
  flat over (concept, channel), contracted against the label weight over all features at once, and the bias.
-/
import proofs.«175620_j7894149890693_2_alg».proof.Proof.RefGate

noncomputable section

open scoped BigOperators

namespace Cert.ReferenceIdeal.RefValue

open Cert.ReferenceIdeal Cert.ReferenceIdeal.Gen Cert.ReferenceIdeal.Read Idealize.ShloMosaic Idealize.ShloMosaic.ValueIdx Idealize.SL.Sem

variable (x0 : (⟨S128x2048x14x14, .f32⟩ : BufTy).Contents (Elt Ideal)) (x1 : (⟨S112x2048, .f32⟩ : BufTy).Contents (Elt Ideal))
    (x2 x3 x4 : (⟨S1x2048, .f32⟩ : BufTy).Contents (Elt Ideal)) (x5 : (⟨S1, .f32⟩ : BufTy).Contents (Elt Ideal))
    (x6 : (⟨S200x229376, .f32⟩ : BufTy).Contents (Elt Ideal)) (x7 : (⟨S200, .f32⟩ : BufTy).Contents (Elt Ideal))

local notation "𝓘" => Cert.Spec.Ins.ofArrays x0 x1 x2 x3 x4 x5 x6 x7

/-- The gate as a column. -/
theorem v46_at (b : Fin 128) (k : Fin 112) :
    val_main_v46 (F := Ideal) x0 x1 x3 x4 x5 (ix3 b k (0 : Fin 1)) = Cert.Spec.gateR 𝓘 b k := by
  have e : idx_main_v46 (ix3 b k (0 : Fin 1)) = ix2 b k :=
    funext fun a => Fin.ext (by match a with | ⟨0, _⟩ => rfl | ⟨1, _⟩ => rfl)
  rw [val_main_v46_apply, e, v45_at x0 x1 x2 x3 x4 x5 x6 x7]

/-- The gate times the concept row. -/
theorem v50_at (b : Fin 128) (k : Fin 112) (c : Fin 2048) :
    val_main_v50 (F := Ideal) x0 x1 x3 x4 x5 (ix3 b k c) = Cert.Spec.gateR 𝓘 b k * Cert.Spec.Ins.cp 𝓘 k c := by
  have e48 : idx_main_v48 (ix3 b k c) = ix3 b k (0 : Fin 1) :=
    funext fun a => Fin.ext (by match a with | ⟨0, _⟩ => rfl | ⟨1, _⟩ => rfl | ⟨2, _⟩ => rfl)
  have e49 : idx_main_v47 (idx_main_v49 (ix3 b k c)) = ix2 k c :=
    funext fun a => Fin.ext (by match a with | ⟨0, _⟩ => rfl | ⟨1, _⟩ => rfl)
  rw [val_main_v50_apply, val_main_v48_apply, e48, v46_at x0 x1 x2 x3 x4 x5 x6 x7, val_main_v49_apply,
    val_main_v47_apply, e49, ofArrays_cp]
  rfl

/-- One minus the gate, times the modulation row. -/
theorem v56_at (b : Fin 128) (k : Fin 112) (c : Fin 2048) :
    val_main_v56 (F := Ideal) x0 x1 x2 x3 x4 x5 (ix3 b k c)
      = (Cert.Spec.one - Cert.Spec.gateR 𝓘 b k) * Cert.Spec.Ins.md 𝓘 c := by
  unfold Cert.Spec.one
  have e54 : idx_main_v54 (ix3 b k c) = ix3 b k (0 : Fin 1) :=
    funext fun a => Fin.ext (by match a with | ⟨0, _⟩ => rfl | ⟨1, _⟩ => rfl | ⟨2, _⟩ => rfl)
  have e55 : idx_main_v53 (idx_main_v55 (ix3 b k c)) = ix2 (0 : Fin 1) c :=
    funext fun a => Fin.ext (by match a with | ⟨0, _⟩ => rfl | ⟨1, _⟩ => rfl)
  rw [val_main_v56_apply, val_main_v54_apply, e54, val_main_v52_apply, val_main_v51_apply, val_main_cst_8_apply,
    v46_at x0 x1 x2 x3 x4 x5 x6 x7, val_main_v55_apply, val_main_v53_apply, e55, ofArrays_md]
  rfl

/-- The mix at (b, k, c). -/
theorem v57_at (b : Fin 128) (k : Fin 112) (c : Fin 2048) :
    val_main_v57 (F := Ideal) x0 x1 x2 x3 x4 x5 (ix3 b k c) = Cert.Spec.mixed 𝓘 b k c := by
  unfold Cert.Spec.mixed
  rw [val_main_v57_apply, v50_at x0 x1 x2 x3 x4 x5 x6 x7, v56_at x0 x1 x2 x3 x4 x5 x6 x7]
  rfl

/-- The mix laid flat: feature j is concept j / 2048, channel j % 2048. -/
theorem v58_at (b : Fin 128) (j : Fin 229376) :
    val_main_v58 (F := Ideal) x0 x1 x2 x3 x4 x5 (ix2 b j) = Cert.Spec.mixed 𝓘 b (Cert.Spec.kOf j) (Cert.Spec.cOf j) := by
  have e : idx_main_v58 (ix2 b j) = ix3 b (Cert.Spec.kOf j) (Cert.Spec.cOf j) :=
    funext fun a => Fin.ext (by
      have hb := b.isLt; have hj := j.isLt
      match a with
      | ⟨0, _⟩ => show (b.val * 229376 + j.val) / 229376 = b.val; omega
      | ⟨1, _⟩ => show (b.val * 229376 + j.val) / 2048 % 112 = j.val / 2048; omega
      | ⟨2, _⟩ => show (b.val * 229376 + j.val) % 2048 = j.val % 2048; omega)
  rw [val_main_v58_apply, e, v57_at x0 x1 x2 x3 x4 x5 x6 x7]

/-- The contraction over all features against the transposed label weight. -/
theorem v60_at (b : Fin 128) (o : Fin 200) :
    val_main_v60 (F := Ideal) x0 x1 x2 x3 x4 x5 x6 (ix2 b o)
      = ∑ j : Fin 229376, Cert.Spec.mixed 𝓘 b (Cert.Spec.kOf j) (Cert.Spec.cOf j) * Cert.Spec.Ins.wl 𝓘 o j := by
  rw [val_main_v60_apply]
  refine Finset.sum_congr rfl fun j _ => ?_
  have el : lidx_main_v60 (ix2 b o) j = ix2 b j :=
    funext fun a => Fin.ext (by match a with | ⟨0, _⟩ => rfl | ⟨1, _⟩ => rfl)
  have er : idx_main_v59 (ridx_main_v60 (ix2 b o) j) = ix2 o j :=
    funext fun a => Fin.ext (by match a with | ⟨0, _⟩ => rfl | ⟨1, _⟩ => rfl)
  rw [el, v58_at x0 x1 x2 x3 x4 x5 x6 x7, val_main_v59_apply, er, ofArrays_wl]

/-- RESULT 2 of the reference at (b, o). -/
theorem v63_at (b : Fin 128) (o : Fin 200) :
    val_main_v63 (F := Ideal) x0 x1 x2 x3 x4 x5 x6 x7 (ix2 b o) = Cert.Spec.labelR 𝓘 b o := by
  unfold Cert.Spec.labelR
  have e : idx_main_v61 (idx_main_v62 (ix2 b o)) = ix1 o := funext fun a => Fin.ext (by match a with | ⟨0, _⟩ => rfl)
  rw [val_main_v63_apply, val_main_v62_apply, val_main_v61_apply, e, v60_at x0 x1 x2 x3 x4 x5 x6 x7, ofArrays_bl]
  rfl

/-- RESULT 2 of the reference, as a whole array. -/
theorem v63_eq : val_main_v63 (F := Ideal) x0 x1 x2 x3 x4 x5 x6 x7 = fun j => Cert.Spec.labelR 𝓘 (j 0) (j 1) := by
  funext j
  obtain ⟨b, o, rfl⟩ : ∃ (b : Fin 128) (o : Fin 200), j = ix2 b o := ⟨j 0, j 1, eq_ix2 j⟩
  exact v63_at x0 x1 x2 x3 x4 x5 x6 x7 b o

end Cert.ReferenceIdeal.RefValue

end
-- ==== Proof.RefValue.lean ====
/-
  The reference's three results, index by index, as the specification's functions of the argument arrays.
-/
import proofs.«175620_j7894149890693_2_alg».proof.Proof.RefLabel

noncomputable section

namespace Cert.ReferenceIdeal.RefValue

open Cert.ReferenceIdeal Cert.ReferenceIdeal.Gen Idealize.ShloMosaic Idealize.ShloMosaic.TcCoe Idealize.SL.Sem

/-- The argument arrays of a memory of the reference program on device `c`, by coordinates. -/
def insOf (m' : (ℓ : Loc nD τ sig) → Buf (Elt Ideal) ℓ) (c : Dev nD) : Cert.Spec.Ins :=
  Cert.Spec.Ins.ofArrays (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))
    (m' ((c.tc : Thread nD τ).loc main_arg5)) (m' ((c.tc : Thread nD τ).loc main_arg6)) (m' ((c.tc : Thread nD τ).loc main_arg7))

/-- Every weakly fair execution of the reference ends with its three results at the specification's softmax map, gate
    (the reference's arrangement) and label logits (the reference's arrangement) of the argument arrays, and the
    arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v32) = (fun j => Cert.Spec.score (insOf m' c) (j 0) (j 1) (j 2) (j 3))
      ∧ r.2.mem ((c.tc : Thread nD τ).loc main_v45) = (fun j => Cert.Spec.gateR (insOf m' c) (j 0) (j 1))
      ∧ r.2.mem ((c.tc : Thread nD τ).loc main_v63) = (fun j => Cert.Spec.labelR (insOf m' c) (j 0) (j 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run _ _ _).mono (fun _ h c =>
      ⟨(h c).1.trans ((Cert.ReferenceIdeal.Read.val_main_v32_eq m' c).trans
          (v32_eq (m' ((c.tc : Thread nD τ).loc main_arg0)) (m' ((c.tc : Thread nD τ).loc main_arg1))
            (m' ((c.tc : Thread nD τ).loc main_arg2)) (m' ((c.tc : Thread nD τ).loc main_arg3)) (m' ((c.tc : Thread nD τ).loc main_arg4))
            (m' ((c.tc : Thread nD τ).loc main_arg5)) (m' ((c.tc : Thread nD τ).loc main_arg6)) (m' ((c.tc : Thread nD τ).loc main_arg7)))),
       (h c).2.1.trans ((Cert.ReferenceIdeal.Read.val_main_v45_eq m' c).trans
          (v45_eq (m' ((c.tc : Thread nD τ).loc main_arg0)) (m' ((c.tc : Thread nD τ).loc main_arg1))
            (m' ((c.tc : Thread nD τ).loc main_arg2)) (m' ((c.tc : Thread nD τ).loc main_arg3)) (m' ((c.tc : Thread nD τ).loc main_arg4))
            (m' ((c.tc : Thread nD τ).loc main_arg5)) (m' ((c.tc : Thread nD τ).loc main_arg6)) (m' ((c.tc : Thread nD τ).loc main_arg7)))),
       (h c).2.2.1.trans ((Cert.ReferenceIdeal.Read.val_main_v63_eq m' c).trans
          (v63_eq (m' ((c.tc : Thread nD τ).loc main_arg0)) (m' ((c.tc : Thread nD τ).loc main_arg1))
            (m' ((c.tc : Thread nD τ).loc main_arg2)) (m' ((c.tc : Thread nD τ).loc main_arg3)) (m' ((c.tc : Thread nD τ).loc main_arg4))
            (m' ((c.tc : Thread nD τ).loc main_arg5)) (m' ((c.tc : Thread nD τ).loc main_arg6)) (m' ((c.tc : Thread nD τ).loc main_arg7)))),
       (h c).2.2.2⟩)
    (Cert.ReferenceIdeal.Value.run (F := Ideal) m' ρ')

end Cert.ReferenceIdeal.RefValue

end
-- ==== Proof.Frames.lean ====
/-
  The three frame claims: each program runs from any memory the precondition holds of, and its argument arrays end as
  they were launched. The two kernel programs' runs end with every unscoped buffer at the last valuation, which holds
  each argument at its launch contents; the reference's run states the arguments among its results.
-/
import proofs.«175620_j7894149890693_2_alg».proof.Defs
import proofs.«175620_j7894149890693_2_alg».proof.Proof.KernelRun
import proofs.«175620_j7894149890693_2_alg».proof.Proof.WKernelRun
import proofs.«175620_j7894149890693_2_alg».proof.Proof.RefValue
import proofs.«175620_j7894149890693_2_alg».proof.Proof.Gen.Pre_finite_inputs

noncomputable section

namespace Cert.Proof.Frames

open Idealize.ShloMosaic Idealize.SL.Sem

/-- The kernel program as printed runs and leaves its arguments unchanged. -/
theorem frame_p : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Gen.V5_main_arg0 m _ c),
      (h c _ (Cert.Kernel.Run.mem_uc Cert.Kernel.main_arg1 (by decide))).trans (Cert.Kernel.Gen.V5_main_arg1 m _ c),
      (h c _ (Cert.Kernel.Run.mem_uc Cert.Kernel.main_arg2 (by decide))).trans (Cert.Kernel.Gen.V5_main_arg2 m _ c),
      (h c _ (Cert.Kernel.Run.mem_uc Cert.Kernel.main_arg3 (by decide))).trans (Cert.Kernel.Gen.V5_main_arg3 m _ c),
      (h c _ (Cert.Kernel.Run.mem_uc Cert.Kernel.main_arg4 (by decide))).trans (Cert.Kernel.Gen.V5_main_arg4 m _ c),
      (h c _ (Cert.Kernel.Run.mem_uc Cert.Kernel.main_arg5 (by decide))).trans (Cert.Kernel.Gen.V5_main_arg5 m _ c),
      (h c _ (Cert.Kernel.Run.mem_uc Cert.Kernel.main_arg6 (by decide))).trans (Cert.Kernel.Gen.V5_main_arg6 m _ c),
      (h c _ (Cert.Kernel.Run.mem_uc Cert.Kernel.main_arg7 (by decide))).trans (Cert.Kernel.Gen.V5_main_arg7 m _ c)⟩)
    (Cert.Kernel.Run.run (F := Bits) m ρ)

/-- The idealized kernel program runs and leaves its arguments unchanged. -/
theorem frame_pi : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Gen.V5_main_arg0 m _ c),
      (h c _ (Cert.KernelIdeal.Run.mem_uc Cert.KernelIdeal.main_arg1 (by decide))).trans (Cert.KernelIdeal.Gen.V5_main_arg1 m _ c),
      (h c _ (Cert.KernelIdeal.Run.mem_uc Cert.KernelIdeal.main_arg2 (by decide))).trans (Cert.KernelIdeal.Gen.V5_main_arg2 m _ c),
      (h c _ (Cert.KernelIdeal.Run.mem_uc Cert.KernelIdeal.main_arg3 (by decide))).trans (Cert.KernelIdeal.Gen.V5_main_arg3 m _ c),
      (h c _ (Cert.KernelIdeal.Run.mem_uc Cert.KernelIdeal.main_arg4 (by decide))).trans (Cert.KernelIdeal.Gen.V5_main_arg4 m _ c),
      (h c _ (Cert.KernelIdeal.Run.mem_uc Cert.KernelIdeal.main_arg5 (by decide))).trans (Cert.KernelIdeal.Gen.V5_main_arg5 m _ c),
      (h c _ (Cert.KernelIdeal.Run.mem_uc Cert.KernelIdeal.main_arg6 (by decide))).trans (Cert.KernelIdeal.Gen.V5_main_arg6 m _ c),
      (h c _ (Cert.KernelIdeal.Run.mem_uc Cert.KernelIdeal.main_arg7 (by decide))).trans (Cert.KernelIdeal.Gen.V5_main_arg7 m _ c)⟩)
    (Cert.KernelIdeal.Run.run (F := Ideal) m ρ)

/-- The idealized reference runs and leaves its arguments unchanged. -/
theorem frame_ri : Cert.frame_ReferenceIdeal := fun m ρ _ =>
  (θ_run (Cert.ReferenceIdeal.defs (F := Ideal)) _ _).mono (fun _ h c => (h c).2.2.2)
    (Cert.ReferenceIdeal.RefValue.ref_run m ρ)

end Cert.Proof.Frames

end
-- ==== Proof.InsK.lean ====
/-
  The kernel program's argument arrays on a device, by coordinates (the specification's record), and the 114 rows
  the first kernel is handed: the concepts, then the background row, then the concept-head weight row.
-/
import proofs.«175620_j7894149890693_2_alg».proof.Defs
import proofs.«175620_j7894149890693_2_alg».proof.Proof.Spec

noncomputable section

namespace Cert.KernelIdeal

open Idealize.ShloMosaic Idealize.SL.Sem

/-- The argument arrays of a memory of the idealized kernel program on device `c`, by coordinates. -/
def insOf (m : (ℓ : Loc nD τ sig) → Buf (Elt Ideal) ℓ) (c : Dev nD) : Cert.Spec.Ins :=
  Cert.Spec.Ins.ofArrays (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

end Cert.KernelIdeal

namespace Cert.Spec

/-- The 114 rows of the stacked operand: concepts (rows 0–111), background (row 112), concept-head weight (row 113). -/
def cw114 (I : Ins) (k : Fin 114) (c : Fin 2048) : EReal :=
  if h : k.val < 112 then I.cp ⟨k.val, h⟩ c else if k.val = 112 then I.bg c else I.wc c

end Cert.Spec

end
-- ==== Proof.LibNaryThree.lean ====
/-
  A host operation of exactly THREE operands, given as a literal family of references: what its result buffer holds.

  The library's general statement for an operation over a family `xs` of `n` operands hands its function the family
  `fun k => (contents of xs k)`, under a binder: at a literal family `![x, a, b]` the reference `![x, a, b] k` is then
  no literal, and the contents of the three operands cannot be rewritten further. Stated instead with each operand's
  contents at ITS OWN reference — the family `Fin.cons (F x) (Fin.cons (F a) (Fin.cons (F b) _))` — the rewriting of
  results goes on through the operands; the two families are equal entry by entry.
  (The library has this for a family of four; a concatenation of three arrays needs it for three.)
-/
import Idealize.ShloMosaic.Lib.StableHlo.Run

noncomputable section

namespace Cert.LibNaryThree

open Idealize.ShloMosaic Idealize.ShloMosaic.StableHlo

variable {τ : Topo} {sig : RefSig} {Val : EltTy → Type}

/-- The result of a three-operand operation, at its result buffer: its function of the three operands' contents, each
    read at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- What one buffer holds after a line of host operations, computed: each operation's result at its own result buffer
    is its function's value, at any other buffer what was there before; a three-operand operation by `nary3_result`. -/
macro "after_results3" : tactic =>
  `(tactic| (simp only [after_cons, after_nil]
             repeat (first
               | rw [nullary_result] | rw [unary_result] | rw [binary_result] | rw [ternary_result]
               | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Cert.LibNaryThree

end
-- ==== Proof.HostK.lean ====
/-
  The kernel program's host operations read at an index: what each buffer the host operations of @main write holds,
  coordinate by coordinate, in terms of the argument arrays (the specification's record) and of what the two kernel
  regions leave.
-/
import proofs.«175620_j7894149890693_2_alg».proof.Proof.InsK
import proofs.«175620_j7894149890693_2_alg».proof.Proof.Gen.KernelIdeal.Regions
import proofs.«175620_j7894149890693_2_alg».proof.Proof.LibNaryThree
import Idealize.ShloMosaic.Lib.IdealHost
import Idealize.ShloMosaic.Lib.Pipeline.Value
import Idealize.ShloMosaic.Lib.ValueLayout
import Idealize.ShloMosaic.Lib.StackMember

noncomputable section

open scoped BigOperators

namespace Cert.KernelIdeal.HostK

open Idealize.ShloMosaic Idealize.ShloMosaic.TcCoe Idealize.SL.Sem Idealize.ShloMosaic.StableHlo Idealize.ShloMosaic.ValueIdx
open Cert.KernelIdeal Cert.KernelIdeal.Gen Cert.LibNaryThree

/-- What the two regions leave in their results on a device, at the arrays' own shapes: the first region's attention
    map and gate, the second region's two accumulated contractions. -/
abbrev o2_0 (outs : Gen.Outs (F := Ideal)) (c : Dev nD) : FVec Ideal S128x113x196 .f32 := outs 2 main_v2_0 c
abbrev o2_1 (outs : Gen.Outs (F := Ideal)) (c : Dev nD) : FVec Ideal S128x112 .f32 := outs 2 main_v2_1 c
abbrev o5_0 (outs : Gen.Outs (F := Ideal)) (c : Dev nD) : FVec Ideal S200x112 .f32 := outs 4 main_v5_0 c
abbrev o5_1 (outs : Gen.Outs (F := Ideal)) (c : Dev nD) : FVec Ideal S200x112 .f32 := outs 4 main_v5_1 c

variable (m : (ℓ : Loc nD τ sig) → Buf (Elt Ideal) ℓ) (outs : Gen.Outs (F := Ideal)) (c : Dev nD)

/-! ## After the first two host operations -/

/-- The stacked operand as the operation's term: the three argument arrays concatenated along the rows. -/
theorem V1_v1_term : (Gen.V1 m c main_v1 : S114x2048.Idx → EReal)
    = concatenate S114x2048 0 [⟨S112x2048, m ((c.tc : Thread nD τ).loc main_arg1)⟩, ⟨S1x2048, m ((c.tc : Thread nD τ).loc main_arg3)⟩,
        ⟨S1x2048, m ((c.tc : Thread nD τ).loc main_arg4)⟩] Gen.concatenates_S112x2048_S1x2048_S1x2048_S114x2048_d0 := by
  dsimp only [Gen.V1, Gen.hostOps0]
  after_results3
  repeat (rw [reshape_result_ne]; rotate_left; decide)
  rfl

/-- The stacked operand by coordinates: rows 0–111 the concepts, row 112 the background, row 113 the concept-head weight. -/
theorem V1_v1 : (Gen.V1 m c main_v1 : S114x2048.Idx → EReal) = fun j => Cert.Spec.cw114 (insOf m c) (j 0) (j 1) := by
  rw [V1_v1_term]
  funext j
  unfold Cert.Spec.cw114
  have hj0 := (j 0).isLt
  by_cases h1 : (j 0).val < 112
  · rw [dif_pos h1]
    exact concatenate_apply_piece 0 _ _ j 0 (by simp) S112x2048 _ rfl rfl 0 rfl (ix2 ⟨(j 0).val, h1⟩ (j 1))
      (fun b hb => match b, hb with | ⟨0, _⟩, hb => absurd rfl hb | ⟨1, _⟩, _ => rfl) (Nat.zero_add _)
  · rw [dif_neg h1]
    by_cases h2 : (j 0).val = 112
    · rw [if_pos h2]
      exact concatenate_apply_piece 0 _ _ j 1 (by simp) S1x2048 _ rfl rfl 112 rfl (ix2 (0 : Fin 1) (j 1))
        (fun b hb => match b, hb with | ⟨0, _⟩, hb => absurd rfl hb | ⟨1, _⟩, _ => rfl) (by rw [h2]; rfl)
    · rw [if_neg h2]
      exact concatenate_apply_piece 0 _ _ j 2 (by simp) S1x2048 _ rfl rfl 113 rfl (ix2 (0 : Fin 1) (j 1))
        (fun b hb => match b, hb with | ⟨0, _⟩, hb => absurd rfl hb | ⟨1, _⟩, _ => rfl)
        (by show 113 + 0 = (j 0).val; have : (j 0).val < 114 := hj0; omega)

/-- The input with its two image axes merged, as the operation's term. -/
theorem V1_v0_term : (Gen.V1 m c main_v0 : S128x2048x196.Idx → EReal)
    = shapeCast S128x2048x196 (m ((c.tc : Thread nD τ).loc main_arg0)) Gen.shapeCasts_S128x2048x14x14_S128x2048x196 := by
  dsimp only [Gen.V1, Gen.hostOps0]
  after_results3
  rw [reshape_result]
  rfl

/-- The input with its two image axes merged, by coordinates. -/
theorem V1_v0 : (Gen.V1 m c main_v0 : S128x2048x196.Idx → EReal) = fun j => (insOf m c).x (j 0) (j 1) (j 2) := by
  rw [V1_v0_term]
  funext j
  have h2 : (j 2).val < 196 := (j 2).isLt
  refine shapeCast_apply _ _ j (ix4 (j 0) (j 1) (⟨(j 2).val / 14, by omega⟩ : Fin 14) (⟨(j 2).val % 14, by omega⟩ : Fin 14)) ?_
  rw [Shape.rowMajor_val_four, Shape.rowMajor_val_three]
  show (((j 0).val * 2048 + (j 1).val) * 14 + (j 2).val / 14) * 14 + (j 2).val % 14 = ((j 0).val * 2048 + (j 1).val) * 196 + (j 2).val
  omega

/-- A buffer the first two host operations do not write holds its launch contents. -/
theorem V1_arg5 : Gen.V1 m c main_arg5 = m ((c.tc : Thread nD τ).loc main_arg5) := Gen.V1_of m c main_arg5 (by decide)
theorem V1_arg1 : Gen.V1 m c main_arg1 = m ((c.tc : Thread nD τ).loc main_arg1) := Gen.V1_of m c main_arg1 (by decide)
theorem V1_arg2 : Gen.V1 m c main_arg2 = m ((c.tc : Thread nD τ).loc main_arg2) := Gen.V1_of m c main_arg2 (by decide)
theorem V1_arg6 : Gen.V1 m c main_arg6 = m ((c.tc : Thread nD τ).loc main_arg6) := Gen.V1_of m c main_arg6 (by decide)
theorem V1_arg7 : Gen.V1 m c main_arg7 = m ((c.tc : Thread nD τ).loc main_arg7) := Gen.V1_of m c main_arg7 (by decide)

/-! ## After the first region and the two reshapes -/

/-- What the first region leaves in its first result is what the second valuation holds there. -/
theorem V2_v2_0 : Gen.V2 m outs c main_v2_0 = outs 2 main_v2_0 c := by
  dsimp only [Gen.V2]
  rw [Function.update_of_ne (StableHlo.devRef_ne_of_ne (by decide) : (Proc.devRef .tc main_v2_0 : DevRef τ sig) ≠ Proc.devRef .tc main_v2_1),
    Function.update_self]
/-- What the first region leaves in its second result is what the second valuation holds there. -/
theorem V2_v2_1 : Gen.V2 m outs c main_v2_1 = outs 2 main_v2_1 c := by
  dsimp only [Gen.V2]
  rw [Function.update_self]

theorem V3_arg1 : Gen.V3 m outs c main_arg1 = m ((c.tc : Thread nD τ).loc main_arg1) :=
  (Gen.V3_of m outs c main_arg1 (by decide)).trans ((Gen.V2_of m outs c main_arg1 (by decide)).trans (V1_arg1 m c))
theorem V3_arg2 : Gen.V3 m outs c main_arg2 = m ((c.tc : Thread nD τ).loc main_arg2) :=
  (Gen.V3_of m outs c main_arg2 (by decide)).trans ((Gen.V2_of m outs c main_arg2 (by decide)).trans (V1_arg2 m c))
theorem V3_v2_1 : Gen.V3 m outs c main_v2_1 = outs 2 main_v2_1 c :=
  (Gen.V3_of m outs c main_v2_1 (by decide)).trans (V2_v2_1 m outs c)

/-- The attention map with its position axis split, as the operation's term. -/
theorem V3_v3_term : (Gen.V3 m outs c main_v3 : S128x113x14x14.Idx → EReal)
    = shapeCast S128x113x14x14 (o2_0 outs c) Gen.shapeCasts_S128x113x196_S128x113x14x14 := by
  dsimp only [Gen.V3, Gen.hostOps1]
  after_results
  rw [V2_v2_0]
  rfl

/-- The attention map with its position axis split, by coordinates. -/
theorem V3_v3 : (Gen.V3 m outs c main_v3 : S128x113x14x14.Idx → EReal)
    = fun (j : S128x113x14x14.Idx) => o2_0 outs c
        (ix3 (j 0) (j 1) (⟨14 * (j 2).val + (j 3).val, by
          have h2 : (j 2).val < 14 := (j 2).isLt
          have h3 : (j 3).val < 14 := (j 3).isLt
          omega⟩ : Fin 196)) := by
  rw [V3_v3_term]
  funext j
  have h2 : (j 2).val < 14 := (j 2).isLt
  have h3 : (j 3).val < 14 := (j 3).isLt
  refine shapeCast_apply (s := S128x113x196) (t := S128x113x14x14) _ _ j
    (ix3 (j 0) (j 1) (⟨14 * (j 2).val + (j 3).val, by omega⟩ : Fin 196)) ?_
  rw [Shape.rowMajor_val_four, Shape.rowMajor_val_three]
  show ((j 0).val * 113 + (j 1).val) * 196 + (14 * (j 2).val + (j 3).val) = (((j 0).val * 113 + (j 1).val) * 14 + (j 2).val) * 14 + (j 3).val
  omega

/-- The label weight with its feature axis split, as the operation's term. -/
theorem V3_v4_term : (Gen.V3 m outs c main_v4 : S200x112x2048.Idx → EReal)
    = shapeCast S200x112x2048 (m ((c.tc : Thread nD τ).loc main_arg6)) Gen.shapeCasts_S200x229376_S200x112x2048 := by
  dsimp only [Gen.V3, Gen.hostOps1]
  after_results
  rw [Gen.V2_of m outs c main_arg6 (by decide), V1_arg6]
  rfl

/-- The label weight with its feature axis split, by coordinates. -/
theorem V3_v4 : (Gen.V3 m outs c main_v4 : S200x112x2048.Idx → EReal)
    = fun j => (insOf m c).wl (j 0) (Cert.Spec.fl (j 1) (j 2)) := by
  rw [V3_v4_term]
  funext j
  refine shapeCast_apply _ _ j (ix2 (j 0) (Cert.Spec.fl (j 1) (j 2))) ?_
  rw [Shape.rowMajor_val_two, Shape.rowMajor_val_three]
  show (j 0).val * 229376 + (2048 * (j 1).val + (j 2).val) = ((j 0).val * 112 + (j 1).val) * 2048 + (j 2).val
  omega

/-! ## After the second region and the last host operations -/

theorem V4_v5_0 : Gen.V4 m outs c main_v5_0 = outs 4 main_v5_0 c := by
  dsimp only [Gen.V4]
  rw [Function.update_of_ne (StableHlo.devRef_ne_of_ne (by decide) : (Proc.devRef .tc main_v5_0 : DevRef τ sig) ≠ Proc.devRef .tc main_v5_1),
    Function.update_self]
theorem V4_v5_1 : Gen.V4 m outs c main_v5_1 = outs 4 main_v5_1 c := by
  dsimp only [Gen.V4]
  rw [Function.update_self]
theorem V4_v2_1 : Gen.V4 m outs c main_v2_1 = outs 2 main_v2_1 c :=
  (Gen.V4_of m outs c main_v2_1 (by decide)).trans (V3_v2_1 m outs c)
theorem V4_arg7 : Gen.V4 m outs c main_arg7 = m ((c.tc : Thread nD τ).loc main_arg7) :=
  (Gen.V4_of m outs c main_arg7 (by decide)).trans ((Gen.V3_of m outs c main_arg7 (by decide)).trans
    ((Gen.V2_of m outs c main_arg7 (by decide)).trans (V1_arg7 m c)))

/-- The last host operations leave the first result's buffer as the reshape wrote it. -/
theorem V5_v3 : Gen.V5 m outs c main_v3 = Gen.V3 m outs c main_v3 :=
  (Gen.V5_of m outs c main_v3 (by decide)).trans (Gen.V4_of m outs c main_v3 (by decide))
/-- The second result's buffer ends holding what the first region left. -/
theorem V5_v2_1 : Gen.V5 m outs c main_v2_1 = outs 2 main_v2_1 c :=
  (Gen.V5_of m outs c main_v2_1 (by decide)).trans (V4_v2_1 m outs c)

/-- A vector broadcast to a row and the row to every row of a matrix, read at an index: the vector at the column. -/
theorem bcast_row_apply (a : FVec Ideal S200 .f32) (j : S128x200.Idx) :
    broadcastInDim S128x200 ![0, 1] Gen.bcast_S1x200_S128x200_0_1 (broadcastInDim S1x200 ![1] Gen.bcast_S200_S1x200_1 a) j
      = a (ix1 (j 1)) :=
  (broadcastInDim_apply _ _ _ j (ix2 (0 : Fin 1) (j 1)) (fun a => match a with | ⟨0, _⟩ => rfl | ⟨1, _⟩ => rfl)).trans
    (broadcastInDim_apply _ _ _ _ (ix1 (j 1)) (fun a => match a with | ⟨0, _⟩ => rfl))

/-- The sum from zero over the columns of a matrix, read at a row: the sum of the row's entries. -/
theorem reduce_apply (x : FVec Ideal S200x112 .f32) (o : Fin 200) :
    Host.reduceAdd x (constant (F := Ideal) S_ .f32 0x00000000#32) Gen.reducesTo_S200x112_S200_d1 Gen.h_S_ (ix1 o)
      = ∑ k : Fin 112, x (ix2 o k) := by
  rw [hostReduceAdd_apply, Ideal.hostReduceAdd_single Gen.reducesTo_S200x112_S200_d1 (by decide : S200x112.Reduces [1] S200),
    constant_apply, Ideal.ofBits_zero_f32, zero_add]
  refine Finset.sum_congr rfl fun k _ => congrArg x ?_
  funext a
  match a with
  | ⟨0, _⟩ => rfl
  | ⟨1, _⟩ => rfl

/-- The product of a matrix by the transpose of another, read at an index: the sum over the shared axis. -/
theorem dot_apply (g : FVec Ideal S128x112 .f32) (d : FVec Ideal S200x112 .f32) (j : S128x200.Idx) :
    Host.dotGeneral dot_S128x112_S112x200_S128x200_1_0_0_1_n_n none g
        (transpose S112x200 [1, 0] d Gen.transposes_S200x112_S112x200_1_0) j
      = ∑ k : Fin 112, g (ix2 (j 0) k) * d (ix2 (j 1) k) := by
  obtain ⟨b, o, rfl⟩ : ∃ (b : Fin 128) (o : Fin 200), j = ix2 b o := ⟨j 0, j 1, eq_ix2 j⟩
  show _ = ∑ k : Fin 112, g (ix2 b k) * d (ix2 o k)
  rw [show dot_S128x112_S112x200_S128x200_1_0_0_1_n_n = DotDims.plain 128 112 200 from rfl, StackMember.dotGeneral_plain_apply]
  refine Finset.sum_congr rfl fun k _ => congrArg (g (ix2 b k) * ·) ?_
  exact transpose_apply _ d _ (ix2 k o) (ix2 o k) (fun b => match b with | ⟨0, _⟩ => rfl | ⟨1, _⟩ => rfl)

/-- The label logits as the operations' term: the gate against the transposed difference of the two contractions,
    plus the second contraction summed over the concepts, plus the label bias, the last two broadcast down the rows. -/
theorem V5_v15_term : (Gen.V5 m outs c main_v15 : S128x200.Idx → EReal)
    = addf (addf
        (Host.dotGeneral dot_S128x112_S112x200_S128x200_1_0_0_1_n_n none (o2_1 outs c)
          (transpose S112x200 [1, 0] (subf (o5_0 outs c) (o5_1 outs c)) Gen.transposes_S200x112_S112x200_1_0))
        (broadcastInDim S128x200 ![0, 1] Gen.bcast_S1x200_S128x200_0_1 (broadcastInDim S1x200 ![1] Gen.bcast_S200_S1x200_1
          (Host.reduceAdd (o5_1 outs c) (constant (F := Ideal) S_ .f32 0x00000000#32) Gen.reducesTo_S200x112_S200_d1 Gen.h_S_))))
      (broadcastInDim S128x200 ![0, 1] Gen.bcast_S1x200_S128x200_0_1 (broadcastInDim S1x200 ![1] Gen.bcast_S200_S1x200_1
        (m ((c.tc : Thread nD τ).loc main_arg7)))) := by
  dsimp only [Gen.V5, Gen.hostOps2]
  after_results
  rw [V4_v2_1, V4_v5_0, V4_v5_1, V4_arg7]

/-- The label logits as the last host operations leave them, by coordinates. -/
theorem V5_v15 : (Gen.V5 m outs c main_v15 : S128x200.Idx → EReal) = fun (j : S128x200.Idx) =>
    ((∑ k : Fin 112, o2_1 outs c (ix2 (j 0) k) * (o5_0 outs c (ix2 (j 1) k) - o5_1 outs c (ix2 (j 1) k)))
      + ∑ k : Fin 112, o5_1 outs c (ix2 (j 1) k)) + (insOf m c).bl (j 1) := by
  rw [V5_v15_term]
  funext j
  exact congrArg₂ (· + ·)
    (congrArg₂ (· + ·) (dot_apply (o2_1 outs c) (subf (o5_0 outs c) (o5_1 outs c)) j)
      ((bcast_row_apply _ j).trans (reduce_apply (o5_1 outs c) (j 1))))
    (bcast_row_apply _ j)

end Cert.KernelIdeal.HostK

end
-- ==== Proof.Region0Array.lean ====
/-
  The first kernel, from blocks to arrays: the grid's point t handles batch rows 8t … 8t+7; each input block is the
  argument array read at those rows, and the sixteen write-backs of each output tile its array, so the attention-map
  array and the gate array end holding the specification's functions of the argument arrays once each block does.
-/
import proofs.«175620_j7894149890693_2_alg».proof.Proof.Region0Dat
import proofs.«175620_j7894149890693_2_alg».proof.Proof.InsK
import Idealize.ShloMosaic.Lib.Pipeline.Value
import Idealize.ShloMosaic.Lib.ValueIdx

set_option maxRecDepth 16384

noncomputable section

namespace Cert.KernelIdeal.R0A

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The printed index maps, decided over the grid: the two batched inputs' and the two outputs' blocks move with the
    point along the batch axis, the whole-array inputs stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt (show cfg0.N = 16 from N_0)

section
variable (V : (c : Dev nD) → (b : Ref sig .tc) → Buf (Elt Ideal) ((c : Thread nD τ).loc b)) (c : Dev nD) (I : Cert.Spec.Ins)

/-! ## The input blocks at a point -/

/-- Row r of the input's block at point t is batch row 8t + r. -/
theorem iblk_x (hV0 : (V c main_v0 : S128x2048x196.Idx → EReal) = fun j => I.x (j 0) (j 1) (j 2))
    (t : Fin cfg0.N) (r : Fin 8) (ch : Fin 2048) (n : Fin 196) :
    R0.iblk0 (F := Ideal) V c 0 t (ix3 r ch n)
      = I.x (⟨8 * t.val + r.val, by have := point_lt t; have := r.isLt; omega⟩ : Fin 128) ch n := by
  have ht := point_lt t
  obtain ⟨e0, e1, e2, -⟩ := idx_facts t
  show (V c main_v0 : S128x2048x196.Idx → EReal) (((cfg0.win 0).blk t).view.emb (ix3 r ch n)) = _
  rw [hV0]
  show I.x (((cfg0.win 0).blk t).view.emb (ix3 r ch n) 0) (((cfg0.win 0).blk t).view.emb (ix3 r ch n) 1)
    (((cfg0.win 0).blk t).view.emb (ix3 r ch n) 2) = _
  have h0 : ((cfg0.win 0).blk t).view.emb (ix3 r ch n) 0 = (⟨8 * t.val + r.val, by have := r.isLt; omega⟩ : Fin 128) :=
    Fin.ext (by show win0_0.index t (0 : Fin 3) * 8 + 1 * r.val = 8 * t.val + r.val; omega)
  have h1 : ((cfg0.win 0).blk t).view.emb (ix3 r ch n) 1 = ch :=
    Fin.ext (by show win0_0.index t (1 : Fin 3) * 2048 + 1 * ch.val = ch.val; omega)
  have h2 : ((cfg0.win 0).blk t).view.emb (ix3 r ch n) 2 = n :=
    Fin.ext (by show win0_0.index t (2 : Fin 3) * 196 + 1 * n.val = n.val; omega)
  rw [h0, h1, h2]

/-- The stacked rows' block at every point is the whole array. -/
theorem iblk_cw (hV1 : (V c main_v1 : S114x2048.Idx → EReal) = fun j => Cert.Spec.cw114 I (j 0) (j 1))
    (t : Fin cfg0.N) (k : Fin 114) (ch : Fin 2048) :
    R0.iblk0 (F := Ideal) V c 1 t (ix2 k ch) = Cert.Spec.cw114 I k ch := by
  obtain ⟨-, -, -, e0, e1, -⟩ := idx_facts t
  show (V c main_v1 : S114x2048.Idx → EReal) (((cfg0.win 1).blk t).view.emb (ix2 k ch)) = _
  rw [hV1]
  show Cert.Spec.cw114 I (((cfg0.win 1).blk t).view.emb (ix2 k ch) 0) (((cfg0.win 1).blk t).view.emb (ix2 k ch) 1) = _
  have h0 : ((cfg0.win 1).blk t).view.emb (ix2 k ch) 0 = k :=
    Fin.ext (by show win0_1.index t (0 : Fin 2) * 114 + 1 * k.val = k.val; omega)
  have h1 : ((cfg0.win 1).blk t).view.emb (ix2 k ch) 1 = ch :=
    Fin.ext (by show win0_1.index t (1 : Fin 2) * 2048 + 1 * ch.val = ch.val; omega)
  rw [h0, h1]

/-- The bias's block at every point is the bias. -/
theorem iblk_bc (hV2 : (V c main_arg5 : S1.Idx → EReal) (ix1 (0 : Fin 1)) = I.bc) (t : Fin cfg0.N) :
    R0.iblk0 (F := Ideal) V c 2 t (ix1 (0 : Fin 1)) = I.bc := by
  obtain ⟨-, -, -, -, -, e0, -⟩ := idx_facts t
  show (V c main_arg5 : S1.Idx → EReal) (((cfg0.win 2).blk t).view.emb (ix1 (0 : Fin 1))) = _
  have h : ((cfg0.win 2).blk t).view.emb (ix1 (0 : Fin 1)) = ix1 (0 : Fin 1) :=
    funext fun a => Fin.ext (by
      match a with
      | ⟨0, _⟩ => show win0_2.index t (0 : Fin 1) * 1 + 1 * 0 = 0; omega)
  rw [h, hV2]

end

/-! ## What a point writes back -/

section
variable (V : (c : Dev nD) → (b : Ref sig .tc) → Buf (Elt Ideal) ((c : Thread nD τ).loc b)) (c : Dev nD) (I : Cert.Spec.Ins)

/-- Point t writes back block t of the attention map. -/
theorem flushedMap_eq
    (hMap : ∀ (b : Fin 128) (x0 : Vec Ideal S8x2048x196 .f32) (x1 : Vec Ideal S114x2048 .f32) (r : Fin 8),
      (∀ (c : Fin 2048) (n : Fin 196), x0 (ValueIdx.ix3 r c n) = I.x b c n) →
      (∀ (k : Fin 114) (c : Fin 2048), x1 (ValueIdx.ix2 k c) = Cert.Spec.cw114 I k c) →
      ∀ (k : Fin 113) (n : Fin 196), R0.outMap (F := Ideal) x0 x1 (ValueIdx.ix3 r k n) = Cert.Spec.attn I b k n)
    (hV0 : (V c main_v0 : S128x2048x196.Idx → EReal) = fun j => I.x (j 0) (j 1) (j 2))
    (hV1 : (V c main_v1 : S114x2048.Idx → EReal) = fun j => Cert.Spec.cw114 I (j 0) (j 1))
    (t : Fin cfg0.N) :
    (R0.dat0 (F := Ideal) V c).flushed 3 t
      = ((cfg0.win 3).blk t).view.read (Elt Ideal) (fun j : S128x113x196.Idx => Cert.Spec.attn I (j 0) (j 1) (j 2)) := by
  have ht := point_lt t
  obtain ⟨-, -, -, -, -, -, e0, e1, e2, -⟩ := idx_facts t
  show (cfg0.win 3).cut (grid0.coords t) ((R0.dat0 (F := Ideal) V c).after 3 t) = _
  rw [R0.after0_3]
  funext y
  obtain ⟨r, k, n, rfl⟩ : ∃ (r : Fin 8) (k : Fin 113) (n : Fin 196), y = ix3 r k n := ⟨y 0, y 1, y 2, eq_ix3 y⟩
  have hr := r.isLt
  show R0.outMap (F := Ideal) (R0.iblk0 V c 0 t) (R0.iblk0 V c 1 t) (ix3 r k n)
    = Cert.Spec.attn I (((cfg0.win 3).blk t).view.emb (ix3 r k n) 0) (((cfg0.win 3).blk t).view.emb (ix3 r k n) 1)
        (((cfg0.win 3).blk t).view.emb (ix3 r k n) 2)
  have h0 : ((cfg0.win 3).blk t).view.emb (ix3 r k n) 0 = (⟨8 * t.val + r.val, by omega⟩ : Fin 128) :=
    Fin.ext (by show win0_3.index t (0 : Fin 3) * 8 + 1 * r.val = 8 * t.val + r.val; omega)
  have h1 : ((cfg0.win 3).blk t).view.emb (ix3 r k n) 1 = k :=
    Fin.ext (by show win0_3.index t (1 : Fin 3) * 113 + 1 * k.val = k.val; omega)
  have h2 : ((cfg0.win 3).blk t).view.emb (ix3 r k n) 2 = n :=
    Fin.ext (by show win0_3.index t (2 : Fin 3) * 196 + 1 * n.val = n.val; omega)
  rw [h0, h1, h2]
  exact hMap _ (R0.iblk0 (F := Ideal) V c 0 t) (R0.iblk0 (F := Ideal) V c 1 t) r
    (fun ch n' => iblk_x V c I hV0 t r ch n') (fun k' ch => iblk_cw V c I hV1 t k' ch) k n

/-- Point t writes back block t of the gate. -/
theorem flushedGate_eq
    (hGate : ∀ (b : Fin 128) (x0 : Vec Ideal S8x2048x196 .f32) (x1 : Vec Ideal S114x2048 .f32) (x2 : Vec Ideal S1 .f32) (r : Fin 8),
      (∀ (c : Fin 2048) (n : Fin 196), x0 (ValueIdx.ix3 r c n) = I.x b c n) →
      (∀ (k : Fin 114) (c : Fin 2048), x1 (ValueIdx.ix2 k c) = Cert.Spec.cw114 I k c) →
      x2 (ValueIdx.ix1 (0 : Fin 1)) = I.bc →
      ∀ (k : Fin 112), R0.outGate (F := Ideal) x0 x1 x2 (ValueIdx.ix2 r k) = Cert.Spec.gateK I b k)
    (hV0 : (V c main_v0 : S128x2048x196.Idx → EReal) = fun j => I.x (j 0) (j 1) (j 2))
    (hV1 : (V c main_v1 : S114x2048.Idx → EReal) = fun j => Cert.Spec.cw114 I (j 0) (j 1))
    (hV2 : (V c main_arg5 : S1.Idx → EReal) (ix1 (0 : Fin 1)) = I.bc)
    (t : Fin cfg0.N) :
    (R0.dat0 (F := Ideal) V c).flushed 4 t
      = ((cfg0.win 4).blk t).view.read (Elt Ideal) (fun j : S128x112.Idx => Cert.Spec.gateK I (j 0) (j 1)) := by
  have ht := point_lt t
  obtain ⟨-, -, -, -, -, -, -, -, -, e0, e1⟩ := idx_facts t
  show (cfg0.win 4).cut (grid0.coords t) ((R0.dat0 (F := Ideal) V c).after 4 t) = _
  rw [R0.after0_4]
  funext y
  obtain ⟨r, k, rfl⟩ : ∃ (r : Fin 8) (k : Fin 112), y = ix2 r k := ⟨y 0, y 1, eq_ix2 y⟩
  have hr := r.isLt
  show R0.outGate (F := Ideal) (R0.iblk0 V c 0 t) (R0.iblk0 V c 1 t) (R0.iblk0 V c 2 t) (ix2 r k)
    = Cert.Spec.gateK I (((cfg0.win 4).blk t).view.emb (ix2 r k) 0) (((cfg0.win 4).blk t).view.emb (ix2 r k) 1)
  have h0 : ((cfg0.win 4).blk t).view.emb (ix2 r k) 0 = (⟨8 * t.val + r.val, by omega⟩ : Fin 128) :=
    Fin.ext (by show win0_4.index t (0 : Fin 2) * 8 + 1 * r.val = 8 * t.val + r.val; omega)
  have h1 : ((cfg0.win 4).blk t).view.emb (ix2 r k) 1 = k :=
    Fin.ext (by show win0_4.index t (1 : Fin 2) * 112 + 1 * k.val = k.val; omega)
  rw [h0, h1]
  exact hGate _ (R0.iblk0 (F := Ideal) V c 0 t) (R0.iblk0 (F := Ideal) V c 1 t) (R0.iblk0 (F := Ideal) V c 2 t) r
    (fun ch n' => iblk_x V c I hV0 t r ch n') (fun k' ch => iblk_cw V c I hV1 t k' ch) (iblk_bc V c I hV2 t) k

end

/-! ## The write-backs tile the arrays -/

/-- An index of the attention-map array is in point t's block iff each coordinate is in the block's range on its axis. -/
theorem mem_blkMap (t : Fin cfg0.N) (i : S128x113x196.Idx) :
    i ∈ ((cfg0.win 3).blk t).view.set ↔ ∀ a : Fin 3, win0_3.index t a * S8x113x196.size a ≤ (i a).val
      ∧ (i a).val < win0_3.index t a * S8x113x196.size a + S8x113x196.size a := by
  show i ∈ ((View.whole main_v2_0).slice (win0_3.rect t)).set ↔ _
  rw [View.set_slice_whole, Rect.mem_set_unit]
  exact Iff.rfl

/-- The same for the gate array. -/
theorem mem_blkGate (t : Fin cfg0.N) (i : S128x112.Idx) :
    i ∈ ((cfg0.win 4).blk t).view.set ↔ ∀ a : Fin 2, win0_4.index t a * S8x112.size a ≤ (i a).val
      ∧ (i a).val < win0_4.index t a * S8x112.size a + S8x112.size a := by
  show i ∈ ((View.whole main_v2_1).slice (win0_4.rect t)).set ↔ _
  rw [View.set_slice_whole, Rect.mem_set_unit]
  exact Iff.rfl

/-- Batch row b of the attention map is written back by point b / 8. -/
theorem coverMap (i : S128x113x196.Idx) :
    ∃ t : Fin cfg0.N, (cfg0.win 3).flush t = true ∧ i ∈ ((cfg0.win 3).blk t).view.set := by
  have hi0 : (i 0).val < 128 := (i 0).isLt
  have hi1 : (i 1).val < 113 := (i 1).isLt
  have hi2 : (i 2).val < 196 := (i 2).isLt
  have hlt : (i 0).val / 8 < cfg0.N := by rw [show cfg0.N = 16 from N_0]; omega
  refine ⟨⟨(i 0).val / 8, hlt⟩, flush0_3 _, ?_⟩
  rw [mem_blkMap]
  obtain ⟨-, -, -, -, -, -, e0, e1, e2, -⟩ := idx_facts ⟨(i 0).val / 8, hlt⟩
  have e0' : win0_3.index ⟨(i 0).val / 8, hlt⟩ (0 : Fin 3) = (i 0).val / 8 := e0
  intro a
  match a with
  | ⟨0, _⟩ =>
    show win0_3.index ⟨(i 0).val / 8, hlt⟩ (0 : Fin 3) * 8 ≤ (i 0).val
      ∧ (i 0).val < win0_3.index ⟨(i 0).val / 8, hlt⟩ (0 : Fin 3) * 8 + 8
    omega
  | ⟨1, _⟩ =>
    show win0_3.index ⟨(i 0).val / 8, hlt⟩ (1 : Fin 3) * 113 ≤ (i 1).val
      ∧ (i 1).val < win0_3.index ⟨(i 0).val / 8, hlt⟩ (1 : Fin 3) * 113 + 113
    omega
  | ⟨2, _⟩ =>
    show win0_3.index ⟨(i 0).val / 8, hlt⟩ (2 : Fin 3) * 196 ≤ (i 2).val
      ∧ (i 2).val < win0_3.index ⟨(i 0).val / 8, hlt⟩ (2 : Fin 3) * 196 + 196
    omega

/-- Batch row b of the gate is written back by point b / 8. -/
theorem coverGate (i : S128x112.Idx) :
    ∃ t : Fin cfg0.N, (cfg0.win 4).flush t = true ∧ i ∈ ((cfg0.win 4).blk t).view.set := by
  have hi0 : (i 0).val < 128 := (i 0).isLt
  have hi1 : (i 1).val < 112 := (i 1).isLt
  have hlt : (i 0).val / 8 < cfg0.N := by rw [show cfg0.N = 16 from N_0]; omega
  refine ⟨⟨(i 0).val / 8, hlt⟩, flush0_4 _, ?_⟩
  rw [mem_blkGate]
  obtain ⟨-, -, -, -, -, -, -, -, -, e0, e1⟩ := idx_facts ⟨(i 0).val / 8, hlt⟩
  have e0' : win0_4.index ⟨(i 0).val / 8, hlt⟩ (0 : Fin 2) = (i 0).val / 8 := e0
  intro a
  match a with
  | ⟨0, _⟩ =>
    show win0_4.index ⟨(i 0).val / 8, hlt⟩ (0 : Fin 2) * 8 ≤ (i 0).val
      ∧ (i 0).val < win0_4.index ⟨(i 0).val / 8, hlt⟩ (0 : Fin 2) * 8 + 8
    omega
  | ⟨1, _⟩ =>
    show win0_4.index ⟨(i 0).val / 8, hlt⟩ (1 : Fin 2) * 112 ≤ (i 1).val
      ∧ (i 1).val < win0_4.index ⟨(i 0).val / 8, hlt⟩ (1 : Fin 2) * 112 + 112
    omega

/-! ## The arrays after the run -/

section
variable (V : (c : Dev nD) → (b : Ref sig .tc) → Buf (Elt Ideal) ((c : Thread nD τ).loc b)) (c : Dev nD) (I : Cert.Spec.Ins)

/-- The attention-map array after the sixteen write-backs is the softmax map of the argument arrays. -/
theorem arrMap
    (hMap : ∀ (b : Fin 128) (x0 : Vec Ideal S8x2048x196 .f32) (x1 : Vec Ideal S114x2048 .f32) (r : Fin 8),
      (∀ (c : Fin 2048) (n : Fin 196), x0 (ValueIdx.ix3 r c n) = I.x b c n) →
      (∀ (k : Fin 114) (c : Fin 2048), x1 (ValueIdx.ix2 k c) = Cert.Spec.cw114 I k c) →
      ∀ (k : Fin 113) (n : Fin 196), R0.outMap (F := Ideal) x0 x1 (ValueIdx.ix3 r k n) = Cert.Spec.attn I b k n)
    (hV0 : (V c main_v0 : S128x2048x196.Idx → EReal) = fun j => I.x (j 0) (j 1) (j 2))
    (hV1 : (V c main_v1 : S114x2048.Idx → EReal) = fun j => Cert.Spec.cw114 I (j 0) (j 1)) :
    ((R0.dat0 (F := Ideal) V c).arrAt 3 cfg0.N : S128x113x196.Idx → EReal)
      = fun j => Cert.Spec.attn I (j 0) (j 1) (j 2) :=
  (R0.dat0 (F := Ideal) V c).arrAt_eq_of_cover 3 (fun j : S128x113x196.Idx => Cert.Spec.attn I (j 0) (j 1) (j 2))
    (fun t _ => flushedMap_eq V c I hMap hV0 hV1 t) coverMap

/-- The gate array after the sixteen write-backs is the gate (the kernel's arrangement) of the argument arrays. -/
theorem arrGate
    (hGate : ∀ (b : Fin 128) (x0 : Vec Ideal S8x2048x196 .f32) (x1 : Vec Ideal S114x2048 .f32) (x2 : Vec Ideal S1 .f32) (r : Fin 8),
      (∀ (c : Fin 2048) (n : Fin 196), x0 (ValueIdx.ix3 r c n) = I.x b c n) →
      (∀ (k : Fin 114) (c : Fin 2048), x1 (ValueIdx.ix2 k c) = Cert.Spec.cw114 I k c) →
      x2 (ValueIdx.ix1 (0 : Fin 1)) = I.bc →
      ∀ (k : Fin 112), R0.outGate (F := Ideal) x0 x1 x2 (ValueIdx.ix2 r k) = Cert.Spec.gateK I b k)
    (hV0 : (V c main_v0 : S128x2048x196.Idx → EReal) = fun j => I.x (j 0) (j 1) (j 2))
    (hV1 : (V c main_v1 : S114x2048.Idx → EReal) = fun j => Cert.Spec.cw114 I (j 0) (j 1))
    (hV2 : (V c main_arg5 : S1.Idx → EReal) (ix1 (0 : Fin 1)) = I.bc) :
    ((R0.dat0 (F := Ideal) V c).arrAt 4 cfg0.N : S128x112.Idx → EReal)
      = fun j => Cert.Spec.gateK I (j 0) (j 1) :=
  (R0.dat0 (F := Ideal) V c).arrAt_eq_of_cover 4 (fun j : S128x112.Idx => Cert.Spec.gateK I (j 0) (j 1))
    (fun t _ => flushedGate_eq V c I hGate hV0 hV1 hV2 t) coverGate

end

end Cert.KernelIdeal.R0A

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Region0ValueLib.lean ====
/-
  Reductions of a matrix along its first axis at the exact values, read at an index: the sum over the rows of one
  column, and the maximum over the rows of one column as a fold of `max` from the bottom element. Also a
  one-entry vector broadcast to a longer one.
-/
import Idealize.ShloMosaic.Lib.Pipeline.Value
import Idealize.ShloMosaic.Lib.ValueIdx
import Idealize.ShloMosaic.PureOps.Ideal.Laws

noncomputable section

namespace Cert.KernelIdeal.R0V

open Idealize.ShloMosaic Idealize.ShloMosaic.ValueIdx
open scoped BigOperators

/-- The word of minus infinity is the bottom of the extended reals. -/
theorem ofBits_ninf : Ideal.ofBits .f32 0xFF800000#32 = (⊥ : EReal) := by simp [Ideal.ofBits, Ideal.ieee]

/-- The sum of an `[a, b]` matrix over its first axis is, at column `q`, the sum over the rows `k` of the entry `(k, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (funext fun d => Fin.ext (by
      match d with
      | ⟨0, _⟩ => rfl
      | ⟨1, _⟩ => rfl)))

/-- The maximum of an `[a, b]` matrix over its first axis is, at column `q`, the fold of `max` from the bottom
    element over the rows `k` of the entry `(k, q)`. -/
theorem colMax_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = 0xFF800000#32) (q : Fin b) :
    multiReduction .maximumf [0] ⟨1, ![b]⟩ src 0xFF800000#32 h hφ hacc (ix1 q)
      = (Finset.univ : Finset (Fin a)).fold max (⊥ : EReal) (fun k => src (ix2 k q)) := by
  refine (Ideal.multiReduction_maximumf_single src 0xFF800000#32 h hφ hacc (ix1 q)).trans ?_
  have hb : (FloatOps.ofBits (F := Ideal) .f32 0xFF800000#32 : EReal) = ⊥ := ofBits_ninf
  have hf : (src ∘ h.lift (ix1 q)) = fun k : Fin a => src (ix2 k q) :=
    funext fun k => congrArg src (funext fun d => Fin.ext (by
      match d with
      | ⟨0, _⟩ => rfl
      | ⟨1, _⟩ => rfl))
  rw [hb, hf]
  rfl

/-- A one-entry vector broadcast to length `a` reads its one entry everywhere. -/
theorem broadcastTo_1_a_apply {α : Type} {a : ℕ} (v : (⟨1, ![1]⟩ : Shape).Idx → α) (h : (⟨1, ![1]⟩ : Shape).Broadcasts ⟨1, ![a]⟩)
    (i : Fin a) : broadcastTo ⟨1, ![a]⟩ v h (ix1 i) = v (ix1 (0 : Fin 1)) := by
  refine broadcastTo_apply v h (ix1 i) (ix1 (0 : Fin 1)) fun ax => ?_
  match ax with
  | ⟨0, _⟩ =>
    show (0 : ℕ) = if (1 : ℕ) = 1 then 0 else i.val
    rw [if_pos rfl]

end Cert.KernelIdeal.R0V

end
-- ==== Proof.Region0ValuePay.lean ====
/-
  The first kernel's payloads at the exact values, read at an index, over arbitrary operand vectors: the stacked
  rows pass through the cast and the narrowing unchanged; the squared norms of the first 113 rows are row sums; the
  matrix product at `(k, n)` is the sum over the channels of row `k` against column `n` of the batch row; the
  squared distance, its negated clamped root, the maximum over the rows as a fold, the shifted exponential, its
  sum over the rows and the quotient follow entry by entry; the gate at `k` is the logistic function of the sum
  over the positions of the softmax entry against the product's last row, plus the bias.
-/
import proofs.«175620_j7894149890693_2_alg».proof.Proof.Gen.KernelIdeal.Skeleton
import proofs.«175620_j7894149890693_2_alg».proof.Proof.LibKeepdims
import proofs.«175620_j7894149890693_2_alg».proof.Proof.LibColumnCasts
import proofs.«175620_j7894149890693_2_alg».proof.Proof.LibMatmul
import proofs.«175620_j7894149890693_2_alg».proof.Proof.Region0ValueLib
import Idealize.ShloMosaic.Lib.Pipeline.Value
import Idealize.ShloMosaic.Lib.ValueLayout
import Idealize.ShloMosaic.PureOps.Ideal.Laws
import Idealize.ShloMosaic.Lib.ValueIdx
import proofs.«175620_j7894149890693_2_alg».proof.Proof.Spec

set_option maxRecDepth 16384

noncomputable section

namespace Cert.KernelIdeal.R0V

open Cert.KernelIdeal Cert.KernelIdeal.Gen Idealize.ShloMosaic Idealize.ShloMosaic.ValueIdx
open scoped BigOperators

/-! ## The operands -/

theorem pay1_eq (v0 : Vec Ideal S114x2048 .f32) : k0_pay1 (F := Ideal) v0 = v0 := by
  unfold k0_pay1; exact shapeCast_self v0 _

theorem pay2_at (v0 : Vec Ideal S114x2048 .f32) (k : Fin 114) (c : Fin 2048) :
    k0_pay2 (F := Ideal) v0 (ix2 k c) = v0 (ix2 k c) := by
  show k0_pay1 (F := Ideal) v0 (ix2 k c) = _
  rw [pay1_eq]

/-- Row `p` of the first 113 among the 114. -/
def up (p : Fin 113) : Fin 114 := ⟨p.val, by have := p.isLt; omega⟩

theorem pay3_at (v0 : Vec Ideal S114x2048 .f32) (p : Fin 113) (u : Fin 1) :
    k0_pay3 (F := Ideal) v0 (ix2 p u) = ∑ c : Fin 2048, v0 (ix2 (up p) c) * v0 (ix2 (up p) c) := by
  unfold k0_pay3; dsimp only
  refine (Cert.Keepdims.shapeCast_a_a1_apply _ _ p u).trans ?_
  refine (Cert.ColumnCasts.rowSum_apply _ _ _ _ p).trans ?_
  refine Finset.sum_congr rfl fun c _ => ?_
  rw [mulf_apply, slice2_axis0_apply 0 _ _ p c (up p) (Nat.zero_add _).symm, pay1_eq]

theorem pay4_at (v10 : Vec Ideal S1x2048x196 .f32) (c : Fin 2048) (n : Fin 196) :
    k0_pay4 (F := Ideal) v10 (ix2 c n) = v10 (ix3 (0 : Fin 1) c n) := by
  unfold k0_pay4; exact shapeCast_1ab_ab_apply v10 _ c n

/-- The matrix product at `(k, n)`: row `k` of the stacked rows against column `n` of the batch row. -/
theorem pay5_at (v2 : FVec Ideal S114x2048 .bf16) (v10 : Vec Ideal S1x2048x196 .f32) (k : Fin 114) (n : Fin 196) :
    k0_pay5 (F := Ideal) v2 v10 (ix2 k n) = ∑ c : Fin 2048, v2 (ix2 k c) * v10 (ix3 (0 : Fin 1) c n) := by
  unfold k0_pay5
  refine (Cert.MatmulAt.matmul_zero_plain_apply dot_S114x2048_S2048x196_S114x196_1_0_0_1_n_n_wf none v2 _ k n).trans ?_
  refine Finset.sum_congr rfl fun c _ => ?_
  rw [truncf_apply, pay4_at]

/-! ## The pointwise functions at an index -/

theorem exp_at {s : Shape} (v : FVec Ideal s .f32) (i : s.Idx) : exp v i = Ideal.exp (v i) := rfl
theorem sqrt_at {s : Shape} (v : FVec Ideal s .f32) (i : s.Idx) : sqrt v i = Ideal.sqrt (v i) := rfl
theorem logistic_at {s : Shape} (v : FVec Ideal s .f32) (i : s.Idx) : logistic v i = Ideal.logistic (v i) := rfl
theorem splat_at {s : Shape} (w : BitVec 32) (i : s.Idx) :
    broadcast s (Scalar.ofBits .f32 w : Ideal .f32) i = Ideal.ofBits .f32 w := rfl

/-! ## The softmax map, stage by stage -/

section Stages
variable (v2 : FVec Ideal S114x2048 .bf16) (v6 : FVec Ideal S113x1 .f32) (v10 : Vec Ideal S1x2048x196 .f32)

/-- A length-196 vector as a row, repeated over the 113 rows. -/
def rowOf (v : FVec Ideal S196 .f32) : FVec Ideal S113x196 .f32 :=
  broadcastTo S113x196 (shapeCast S1x196 v shapeCasts_S196_S1x196) broadcasts_S1x196_S113x196

theorem rowOf_at (v : FVec Ideal S196 .f32) (k : Fin 113) (n : Fin 196) : rowOf v (ix2 k n) = v (ix1 n) := by
  unfold rowOf
  rw [broadcastTo_1b_ab_apply, shapeCast_a_1a_apply]

/-- The squared norms of the batch row's columns. -/
def xsqV : FVec Ideal S196 .f32 :=
  multiReduction .add [0] S196 (mulf (k0_pay4 v10) (k0_pay4 v10)) 0x00000000#32 reduces_S2048x196_S196 (.inl rfl) rfl

theorem xsqV_at (n : Fin 196) :
    xsqV v10 (ix1 n) = ∑ c : Fin 2048, v10 (ix3 (0 : Fin 1) c n) * v10 (ix3 (0 : Fin 1) c n) := by
  unfold xsqV
  refine (colSum_apply _ _ _ _ n).trans (Finset.sum_congr rfl fun c _ => ?_)
  rw [mulf_apply, pay4_at]

/-- The squared distance, grouped as the payload groups it. -/
def d2V : FVec Ideal S113x196 .f32 :=
  subf (addf (broadcastTo S113x196 v6 broadcasts_S113x1_S113x196) (rowOf (xsqV v10)))
    (mulf (broadcast S113x196 (Scalar.ofBits .f32 0x40000000#32 : Ideal .f32))
      (extractStridedSlice S113x196 ![0, 0] (k0_pay5 v2 v10) slices_S114x196_o0_0_S113x196))

theorem d2V_at (k : Fin 113) (n : Fin 196) :
    d2V v2 v6 v10 (ix2 k n)
      = (v6 (ix2 k (0 : Fin 1)) + ∑ c : Fin 2048, v10 (ix3 (0 : Fin 1) c n) * v10 (ix3 (0 : Fin 1) c n))
        - Ideal.ofBits .f32 0x40000000#32 * ∑ c : Fin 2048, v2 (ix2 (up k) c) * v10 (ix3 (0 : Fin 1) c n) := by
  unfold d2V
  rw [subf_apply, addf_apply, mulf_apply, splat_at, Cert.Keepdims.broadcastTo_a1_ab_apply, rowOf_at, xsqV_at,
    slice2_axis0_apply 0 _ _ k n (up k) (Nat.zero_add _).symm, pay5_at]

/-- Minus the clamped distance. -/
def ndV : FVec Ideal S113x196 .f32 :=
  subf (broadcast S113x196 (Scalar.ofBits .f32 0x00000000#32 : Ideal .f32))
    (sqrt (maximumf (d2V v2 v6 v10) (broadcast S113x196 (Scalar.ofBits .f32 0x00000000#32 : Ideal .f32))))

theorem ndV_at (k : Fin 113) (n : Fin 196) :
    ndV v2 v6 v10 (ix2 k n) = -(Ideal.sqrt (max (d2V v2 v6 v10 (ix2 k n)) 0)) := by
  unfold ndV
  rw [subf_apply, sqrt_at, maximumf_apply, splat_at, Ideal.ofBits_zero_f32, sub_eq_add_neg, zero_add]

/-- The shifted exponential of a map, and the softmax over the rows. -/
def expV (w : FVec Ideal S113x196 .f32) : FVec Ideal S113x196 .f32 :=
  exp (subf w (rowOf (multiReduction .maximumf [0] S196 w 0xFF800000#32 reduces_S113x196_S196 (.inl rfl) rfl)))
def softV (w : FVec Ideal S113x196 .f32) : FVec Ideal S113x196 .f32 :=
  divf (expV w) (rowOf (multiReduction .add [0] S196 (expV w) 0x00000000#32 reduces_S113x196_S196 (.inl rfl) rfl))

theorem pay6_eq : k0_pay6 (F := Ideal) v2 v6 v10 = softV (ndV v2 v6 v10) := rfl

theorem expV_at (w : FVec Ideal S113x196 .f32) (f : Fin 113 → Fin 196 → EReal) (hw : ∀ k n, w (ix2 k n) = f k n)
    (k : Fin 113) (n : Fin 196) :
    expV w (ix2 k n) = Ideal.exp (f k n - (Finset.univ : Finset (Fin 113)).fold max (⊥ : EReal) (fun k' => f k' n)) := by
  unfold expV
  rw [exp_at, subf_apply, rowOf_at, colMax_apply, hw]
  simp only [hw]

theorem softV_at (w : FVec Ideal S113x196 .f32) (f : Fin 113 → Fin 196 → EReal) (hw : ∀ k n, w (ix2 k n) = f k n)
    (k : Fin 113) (n : Fin 196) :
    softV w (ix2 k n)
      = Ideal.div (Ideal.exp (f k n - (Finset.univ : Finset (Fin 113)).fold max (⊥ : EReal) (fun k' => f k' n)))
          (∑ j : Fin 113, Ideal.exp (f j n - (Finset.univ : Finset (Fin 113)).fold max (⊥ : EReal) (fun k' => f k' n))) := by
  unfold softV
  rw [divf_apply, rowOf_at, colSum_apply, expV_at w f hw]
  simp only [expV_at w f hw]

theorem pay7_at (u : Fin 1) (k : Fin 113) (n : Fin 196) :
    k0_pay7 (F := Ideal) v2 v6 v10 (ix3 u k n) = k0_pay6 (F := Ideal) v2 v6 v10 (ix2 k n) := by
  unfold k0_pay7; exact shapeCast_ab_1ab_apply _ _ u k n

/-- The gate at `k`: the logistic function of the softmax row against the product's last row, plus the bias. -/
theorem pay8_at (v7 : Vec Ideal S1 .f32) (u : Fin 1) (k : Fin 112) :
    k0_pay8 (F := Ideal) v2 v6 v7 v10 (ix2 u k)
      = Ideal.logistic ((∑ n : Fin 196, k0_pay6 (F := Ideal) v2 v6 v10 (ix2 (Cert.Spec.lo k) n)
            * k0_pay5 (F := Ideal) v2 v10 (ix2 (113 : Fin 114) n)) + v7 (ix1 (0 : Fin 1))) := by
  unfold k0_pay8
  refine (shapeCast_a_1a_apply _ _ u k).trans ?_
  rw [logistic_at, addf_apply, broadcastTo_1_a_apply]
  refine congrArg (fun t => Ideal.logistic (t + v7 (ix1 (0 : Fin 1)))) ?_
  refine (Cert.ColumnCasts.rowSum_apply _ _ _ _ k).trans (Finset.sum_congr rfl fun n _ => ?_)
  rw [mulf_apply, slice2_axis0_apply 0 _ _ k n (Cert.Spec.lo k) (Nat.zero_add _).symm, broadcastTo_1b_ab_apply,
    slice2_axis0_apply 113 _ _ (0 : Fin 1) n (113 : Fin 114) rfl]

end Stages

end Cert.KernelIdeal.R0V

end
-- ==== Proof.Region0Value.lean ====
/-
  The first kernel's body read at an index. Each of the eight trips stores one slab of each output block, and the
  slabs tile the block, so the block afterwards is, slab by slab, the trip's payload: at `(r, k, n)` the attention
  map of batch row `r` at `(k, n)`, at `(r, k)` its gate at `k`. With the stacked rows read as the concepts, the
  background and the concept-head weight, and batch row `r` as the input's row `b`, these are the specification's
  softmax entry and the kernel's arrangement of the gate.
-/
import proofs.«175620_j7894149890693_2_alg».proof.Proof.Region0
import proofs.«175620_j7894149890693_2_alg».proof.Proof.InsK
import proofs.«175620_j7894149890693_2_alg».proof.Proof.Region0ValuePay
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

namespace Cert.KernelIdeal.R0V

open Cert.KernelIdeal Cert.KernelIdeal.Gen Idealize.ShloMosaic Idealize.ShloMosaic.ValueIdx
open scoped BigOperators

/-! ## The stacked rows: the first 113 are the concepts and the background, the last the concept-head weight -/

theorem cw114_up (I : Cert.Spec.Ins) (p : Fin 113) (c : Fin 2048) :
    Cert.Spec.cw114 I (up p) c = Cert.Spec.cwb I p c := by
  unfold Cert.Spec.cw114 Cert.Spec.cwb
  by_cases h : p.val < 112
  · have h' : (up p).val < 112 := h
    rw [dif_pos h', dif_pos h]
    rfl
  · have h' : ¬ (up p).val < 112 := h
    have hp : (up p).val = 112 := by
      have := p.isLt
      show p.val = 112
      omega
    rw [dif_neg h', dif_neg h, if_pos hp]

theorem cw114_last (I : Cert.Spec.Ins) (c : Fin 2048) : Cert.Spec.cw114 I (113 : Fin 114) c = I.wc c := by
  unfold Cert.Spec.cw114
  rw [dif_neg (by decide), if_neg (by decide)]

/-! ## The payloads against the specification -/

section Spec
variable (I : Cert.Spec.Ins) (b : Fin 128) (v0 : Vec Ideal S114x2048 .f32) (v10 : Vec Ideal S1x2048x196 .f32)
  (hv0 : ∀ (k : Fin 114) (c : Fin 2048), v0 (ix2 k c) = Cert.Spec.cw114 I k c)
  (hv10 : ∀ (c : Fin 2048) (n : Fin 196), v10 (ix3 (0 : Fin 1) c n) = I.x b c n)
include hv0 hv10

theorem nd_at (k : Fin 113) (n : Fin 196) :
    ndV (k0_pay2 v0) (k0_pay3 v0) v10 (ix2 k n) = Cert.Spec.nd I b k n := by
  rw [ndV_at, d2V_at, pay3_at]
  simp only [pay2_at, hv0, hv10, cw114_up]
  rfl

/-- The attention-map payload at `(k, n)` is the softmax entry. -/
theorem map_at (k : Fin 113) (n : Fin 196) :
    k0_pay6 (F := Ideal) (k0_pay2 v0) (k0_pay3 v0) v10 (ix2 k n) = Cert.Spec.attn I b k n := by
  rw [pay6_eq, softV_at _ (fun k n => Cert.Spec.nd I b k n) (fun k n => nd_at I b v0 v10 hv0 hv10 k n)]
  rfl

/-- The gate payload at `k` is the kernel's arrangement of the gate. -/
theorem gate_at (v7 : Vec Ideal S1 .f32) (hv7 : v7 (ix1 (0 : Fin 1)) = I.bc) (u : Fin 1) (k : Fin 112) :
    k0_pay8 (F := Ideal) (k0_pay2 v0) (k0_pay3 v0) v7 v10 (ix2 u k) = Cert.Spec.gateK I b k := by
  rw [pay8_at, hv7]
  simp only [map_at I b v0 v10 hv0 hv10, pay5_at, pay2_at, hv0, hv10, cw114_last]
  rfl

end Spec

/-! ## The trips and their rectangles -/

/-- The loop has eight trips. -/
theorem trips_eq : k0_t1_loop.trips = 8 := by decide

/-- Trip `r` of the eight. -/
def trK (r : Fin 8) : Fin k0_t1_loop.trips := ⟨r.val, by rw [trips_eq]; exact r.isLt⟩

/-- Trip `r` loads batch row `r` of the input block. -/
theorem rIn_idx (r : Fin 8) (c : Fin 2048) (n : Fin 196) :
    (R0.rIn (trK r)).idx (ix3 (0 : Fin 1) c n) = ix3 r c n := by
  funext a; apply Fin.ext
  show (k0_off1 (trK r)) a + 1 * (ix3 (0 : Fin 1) c n a).val = (ix3 r c n a).val
  rw [k0_off1_eq]
  match a with
  | ⟨0, _⟩ => show r.val + 1 * 0 = r.val; omega
  | ⟨1, _⟩ => show 0 + 1 * c.val = c.val; omega
  | ⟨2, _⟩ => show 0 + 1 * n.val = n.val; omega

theorem hz2 : (![0, 0] : Fin 2 → Nat) = fun _ => 0 := funext fun a => by fin_cases a <;> rfl
theorem hz1 : (![0] : Fin 1 → Nat) = fun _ => 0 := funext fun a => by fin_cases a; rfl

/-! ## The attention-map block -/

section Blocks
variable (x0 : Vec Ideal S8x2048x196 .f32) (x1 : Vec Ideal S114x2048 .f32) (x2 : Vec Ideal S1 .f32)

/-- The attention-map block as one function of its index: slab `y 0` holds the payload of trip `y 0`. -/
def gMap (y : S8x113x196.Idx) : EReal :=
  k0_pay7 (F := Ideal) (k0_pay2 (View.ld x1 R0.rRows)) (k0_pay3 (View.ld x1 R0.rRows))
    (View.ld x0 (R0.rIn (trK (y 0)))) (ix3 (0 : Fin 1) (y 1) (y 2))

theorem piece_map (k : Fin k0_t1_loop.trips) (x : (R0.pcMap x0 x1 k).1.shape.Idx) :
    (R0.pcMap x0 x1 k).2 x = gMap x0 x1 ((R0.pcMap x0 x1 k).1.emb x) := by
  show k0_pay7 (F := Ideal) (k0_pay2 (View.ld x1 R0.rRows)) (k0_pay3 (View.ld x1 R0.rRows)) (View.ld x0 (R0.rIn k)) x
    = k0_pay7 (F := Ideal) (k0_pay2 (View.ld x1 R0.rRows)) (k0_pay3 (View.ld x1 R0.rRows))
        (View.ld x0 (R0.rIn (trK ((R0.rMap k).emb x 0)))) (ix3 (0 : Fin 1) ((R0.rMap k).emb x 1) ((R0.rMap k).emb x 2))
  have h0 : (x 0).val < 1 := (x 0).isLt
  have hk : trK ((R0.rMap k).emb x 0) = k := Fin.ext (by
    show (k0_off2 k) 0 + 1 * (x 0).val = k.val
    rw [k0_off2_eq]
    show k.val + 1 * (x 0).val = k.val
    omega)
  have hx : (ix3 (0 : Fin 1) ((R0.rMap k).emb x 1) ((R0.rMap k).emb x 2) : S1x113x196.Idx) = x :=
    funext fun a => Fin.ext (by
      match a with
      | ⟨0, _⟩ => show 0 = (x 0).val; omega
      | ⟨1, _⟩ =>
        show (k0_off2 k) 1 + 1 * (x 1).val = (x 1).val
        rw [k0_off2_eq]
        show 0 + 1 * (x 1).val = (x 1).val
        omega
      | ⟨2, _⟩ =>
        show (k0_off2 k) 2 + 1 * (x 2).val = (x 2).val
        rw [k0_off2_eq]
        show 0 + 1 * (x 2).val = (x 2).val
        omega)
  rw [hk, hx]

theorem pieces_map : ∀ p ∈ R0.storesMap x0 x1, ∀ x : p.1.shape.Idx, p.2 x = gMap x0 x1 (p.1.emb x) := by
  intro p hp
  simp only [R0.storesMap, List.mem_cons, List.not_mem_nil, or_false] at hp
  rcases hp with rfl | rfl | rfl | rfl | rfl | rfl | rfl | rfl <;> exact piece_map x0 x1 _

theorem outMap_at (y : S8x113x196.Idx) : R0.outMap (F := Ideal) x0 x1 y = gMap x0 x1 y := by
  unfold R0.outMap
  exact View.canon_apply_of_pieces (gMap x0 x1) (R0.storesMap x0 x1) (pieces_map x0 x1) y (R0.coverMap x0 x1 y)

/-! ## The gate block -/

/-- The gate block as one function of its index: row `y 0` holds the payload of trip `y 0`. -/
def gGate (y : S8x112.Idx) : EReal :=
  k0_pay8 (F := Ideal) (k0_pay2 (View.ld x1 R0.rRows)) (k0_pay3 (View.ld x1 R0.rRows)) (View.ld x2 R0.rBias)
    (View.ld x0 (R0.rIn (trK (y 0)))) (ix2 (0 : Fin 1) (y 1))

theorem piece_gate (k : Fin k0_t1_loop.trips) (x : (R0.pcGate x0 x1 x2 k).1.shape.Idx) :
    (R0.pcGate x0 x1 x2 k).2 x = gGate x0 x1 x2 ((R0.pcGate x0 x1 x2 k).1.emb x) := by
  show k0_pay8 (F := Ideal) (k0_pay2 (View.ld x1 R0.rRows)) (k0_pay3 (View.ld x1 R0.rRows)) (View.ld x2 R0.rBias)
      (View.ld x0 (R0.rIn k)) x
    = k0_pay8 (F := Ideal) (k0_pay2 (View.ld x1 R0.rRows)) (k0_pay3 (View.ld x1 R0.rRows)) (View.ld x2 R0.rBias)
        (View.ld x0 (R0.rIn (trK ((R0.rGate k).emb x 0)))) (ix2 (0 : Fin 1) ((R0.rGate k).emb x 1))
  have h0 : (x 0).val < 1 := (x 0).isLt
  have hk : trK ((R0.rGate k).emb x 0) = k := Fin.ext (by
    show (k0_off3 k) 0 + 1 * (x 0).val = k.val
    rw [k0_off3_eq]
    show k.val + 1 * (x 0).val = k.val
    omega)
  have hx : (ix2 (0 : Fin 1) ((R0.rGate k).emb x 1) : S1x112.Idx) = x :=
    funext fun a => Fin.ext (by
      match a with
      | ⟨0, _⟩ => show 0 = (x 0).val; omega
      | ⟨1, _⟩ =>
        show (k0_off3 k) 1 + 1 * (x 1).val = (x 1).val
        rw [k0_off3_eq]
        show 0 + 1 * (x 1).val = (x 1).val
        omega)
  rw [hk, hx]

theorem pieces_gate : ∀ p ∈ R0.storesGate x0 x1 x2, ∀ x : p.1.shape.Idx, p.2 x = gGate x0 x1 x2 (p.1.emb x) := by
  intro p hp
  simp only [R0.storesGate, List.mem_cons, List.not_mem_nil, or_false] at hp
  rcases hp with rfl | rfl | rfl | rfl | rfl | rfl | rfl | rfl <;> exact piece_gate x0 x1 x2 _

theorem outGate_at (y : S8x112.Idx) : R0.outGate (F := Ideal) x0 x1 x2 y = gGate x0 x1 x2 y := by
  unfold R0.outGate
  exact View.canon_apply_of_pieces (gGate x0 x1 x2) (R0.storesGate x0 x1 x2) (pieces_gate x0 x1 x2) y (R0.coverGate x0 x1 x2 y)

end Blocks

/-! ## The two blocks against the specification -/

/-- The attention-map block at `(r, k, n)`, when batch row `r` of the input block is the input's row `b` and the
    stacked rows are the concepts, the background and the concept-head weight: the softmax entry. -/
theorem outMap_apply (I : Cert.Spec.Ins) (b : Fin 128) (x0 : Vec Ideal S8x2048x196 .f32) (x1 : Vec Ideal S114x2048 .f32) (r : Fin 8)
    (hx0 : ∀ (c : Fin 2048) (n : Fin 196), x0 (ix3 r c n) = I.x b c n)
    (hx1 : ∀ (k : Fin 114) (c : Fin 2048), x1 (ix2 k c) = Cert.Spec.cw114 I k c)
    (k : Fin 113) (n : Fin 196) : R0.outMap (F := Ideal) x0 x1 (ix3 r k n) = Cert.Spec.attn I b k n := by
  rw [outMap_at]
  show k0_pay7 (F := Ideal) (k0_pay2 (View.ld x1 R0.rRows)) (k0_pay3 (View.ld x1 R0.rRows))
    (View.ld x0 (R0.rIn (trK r))) (ix3 (0 : Fin 1) k n) = _
  rw [View.ld_unit_zero hz2, pay7_at]
  exact map_at I b x1 (View.ld x0 (R0.rIn (trK r))) hx1 (fun c n => by
    show x0 ((R0.rIn (trK r)).idx (ix3 (0 : Fin 1) c n)) = _
    rw [rIn_idx]; exact hx0 c n) k n

/-- The gate block at `(r, k)`, under the same reading and the bias block read as the concept-head bias: the
    kernel's arrangement of the gate. -/
theorem outGate_apply (I : Cert.Spec.Ins) (b : Fin 128) (x0 : Vec Ideal S8x2048x196 .f32) (x1 : Vec Ideal S114x2048 .f32)
    (x2 : Vec Ideal S1 .f32) (r : Fin 8)
    (hx0 : ∀ (c : Fin 2048) (n : Fin 196), x0 (ix3 r c n) = I.x b c n)
    (hx1 : ∀ (k : Fin 114) (c : Fin 2048), x1 (ix2 k c) = Cert.Spec.cw114 I k c)
    (hx2 : x2 (ix1 (0 : Fin 1)) = I.bc)
    (k : Fin 112) : R0.outGate (F := Ideal) x0 x1 x2 (ix2 r k) = Cert.Spec.gateK I b k := by
  rw [outGate_at]
  show k0_pay8 (F := Ideal) (k0_pay2 (View.ld x1 R0.rRows)) (k0_pay3 (View.ld x1 R0.rRows)) (View.ld x2 R0.rBias)
    (View.ld x0 (R0.rIn (trK r))) (ix2 (0 : Fin 1) k) = _
  rw [View.ld_unit_zero hz2, View.ld_unit_zero hz1]
  exact gate_at I b x1 (View.ld x0 (R0.rIn (trK r))) hx1 (fun c n => by
    show x0 ((R0.rIn (trK r)).idx (ix3 (0 : Fin 1) c n)) = _
    rw [rIn_idx]; exact hx0 c n) x2 hx2 (0 : Fin 1) k

end Cert.KernelIdeal.R0V

end
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.Region1Value.lean ====
import proofs.«175620_j7894149890693_2_alg».proof.Proof.Region1
import proofs.«175620_j7894149890693_2_alg».proof.Proof.Spec
import proofs.«175620_j7894149890693_2_alg».proof.Proof.LibRank3Layout
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal.Gen
open scoped BigOperators

/-!
# The second kernel at the ideal values: what the four trips leave

At the extended reals each trip adds to an accumulator entry `(r, q)` the sum, over the 512 lanes of the trip's
slice, of the product of the weight entry `(r, q, lane)` with the concept entry `(q, lane)` (first accumulator) or
the modulation entry `(0, lane)` (second accumulator). From the zero blocks, four trips leave
`(((0 + S 0) + S 1) + S 2) + S 3` with `S i` the sum over chunk `i` of the channel axis.
-/

/-- The loop has four trips. -/
theorem trips_eq : k1_t1_loop.trips = 4 := by decide

/-- Trip `i` of the four. -/
def trK (i : Fin 4) : Fin k1_t1_loop.trips := ⟨i.val, by rw [trips_eq]; exact i.isLt⟩

theorem trK_val (i : Fin 4) : (trK i).val = i.val := rfl

/-! ## The trip's three slices, by coordinates: lane `j` of trip `i` is channel `512·i + j` -/

theorem rW_idx (i : Fin 4) (r : Fin 8) (q : Fin 112) (j : Fin 512) :
    (rW (trK i)).idx (ix3 r q j) = ix3 r q (Cert.Spec.ch i j) := by
  funext a; apply Fin.ext
  show (k1_off1 (trK i)) a + 1 * (ix3 r q j a).val = (ix3 r q (Cert.Spec.ch i j) a).val
  rw [k1_off1_eq]
  match a with
  | ⟨0, _⟩ => show 0 + 1 * r.val = r.val; omega
  | ⟨1, _⟩ => show 0 + 1 * q.val = q.val; omega
  | ⟨2, _⟩ => show 512 * i.val + 1 * j.val = 512 * i.val + j.val; omega

theorem rC_idx (i : Fin 4) (q : Fin 112) (j : Fin 512) :
    (rC (trK i)).idx (ix2 q j) = ix2 q (Cert.Spec.ch i j) := by
  funext a; apply Fin.ext
  show (k1_off2 (trK i)) a + 1 * (ix2 q j a).val = (ix2 q (Cert.Spec.ch i j) a).val
  rw [k1_off2_eq]
  match a with
  | ⟨0, _⟩ => show 0 + 1 * q.val = q.val; omega
  | ⟨1, _⟩ => show 512 * i.val + 1 * j.val = 512 * i.val + j.val; omega

theorem rM_idx (i : Fin 4) (u : Fin 1) (j : Fin 512) :
    (rM (trK i)).idx (ix2 u j) = ix2 u (Cert.Spec.ch i j) := by
  funext a; apply Fin.ext
  show (k1_off3 (trK i)) a + 1 * (ix2 u j a).val = (ix2 u (Cert.Spec.ch i j) a).val
  rw [k1_off3_eq]
  match a with
  | ⟨0, _⟩ => show 0 + 1 * u.val = u.val; omega
  | ⟨1, _⟩ => show 512 * i.val + 1 * j.val = 512 * i.val + j.val; omega

/-! ## One row `[1, 1, c]` stretched over a stack -/

/-- One row `[1, 1, c]` broadcast to a stack `[a, b, c]` reads, at `(i, j, k)`, the row at `(0, 0, k)`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## The two payloads at an index -/

/-- The first accumulator's update at `(r, q)`: the entry plus the lane sum of weight × concept. -/
theorem pay4_apply (acc : FVec Ideal S8x112 .f32) (v9 : FVec Ideal S8x112x512 .f32) (v12 : FVec Ideal S112x512 .f32)
    (r : Fin 8) (q : Fin 112) :
    k1_pay4 (F := Ideal) acc v9 v12 (ix2 r q) = acc (ix2 r q) + ∑ j : Fin 512, v9 (ix3 r q j) * v12 (ix2 q j) := by
  unfold k1_pay4 k1_pay3
  dsimp only
  rw [addf_apply]
  refine congrArg (acc (ix2 r q) + ·) ?_
  refine (Cert.Rank3Layout.sumLast_apply _ _ _ _ r q).trans ?_
  refine Finset.sum_congr rfl fun j _ => ?_
  rw [mulf_apply, shapeCast_self, Cert.Rank3Layout.broadcastTo_1bc_abc_apply, shapeCast_ab_1ab_apply]

/-- The second accumulator's update at `(r, q)`: the entry plus the lane sum of weight × modulation. -/
theorem pay5_apply (acc : FVec Ideal S8x112 .f32) (v9 : FVec Ideal S8x112x512 .f32) (v14 : FVec Ideal S1x512 .f32)
    (r : Fin 8) (q : Fin 112) :
    k1_pay5 (F := Ideal) acc v9 v14 (ix2 r q) = acc (ix2 r q) + ∑ j : Fin 512, v9 (ix3 r q j) * v14 (ix2 (0 : Fin 1) j) := by
  unfold k1_pay5 k1_pay3
  dsimp only
  rw [addf_apply]
  refine congrArg (acc (ix2 r q) + ·) ?_
  refine (Cert.Rank3Layout.sumLast_apply _ _ _ _ r q).trans ?_
  refine Finset.sum_congr rfl fun j _ => ?_
  rw [mulf_apply, shapeCast_self, broadcastTo_11c_abc_apply, shapeCast_ab_1ab_apply]

/-- The zero blocks the loop starts from. -/
theorem pay1_apply (y : S8x112.Idx) : k1_pay1 (F := Ideal) y = 0 := by
  unfold k1_pay1; rw [broadcast_apply]; exact Ideal.ofBits_zero_f32
theorem pay2_apply (y : S8x112.Idx) : k1_pay2 (F := Ideal) y = 0 := by
  unfold k1_pay2; rw [broadcast_apply]; exact Ideal.ofBits_zero_f32

/-! ## One trip, then four -/

/-- Chunk `i` of the channel contraction of a weight stack `[n, 112, 2048]` against the concepts, at `(r, q)`; -/
def SA {n : ℕ} (A : (⟨3, ![n, 112, 2048]⟩ : Shape).Idx → EReal) (B : (⟨2, ![112, 2048]⟩ : Shape).Idx → EReal)
    (i : Fin 4) (r : Fin n) (q : Fin 112) : EReal :=
  ∑ j : Fin 512, A (ix3 r q (Cert.Spec.ch i j)) * B (ix2 q (Cert.Spec.ch i j))
/-- and against the modulation row. -/
def SM {n : ℕ} (A : (⟨3, ![n, 112, 2048]⟩ : Shape).Idx → EReal) (C : (⟨2, ![1, 2048]⟩ : Shape).Idx → EReal)
    (i : Fin 4) (r : Fin n) (q : Fin 112) : EReal :=
  ∑ j : Fin 512, A (ix3 r q (Cert.Spec.ch i j)) * C (ix2 (0 : Fin 1) (Cert.Spec.ch i j))

variable (x0 : Vec Ideal S8x112x2048 .f32) (x1 : Vec Ideal S112x2048 .f32) (x2 : Vec Ideal S1x2048 .f32)

theorem tripF_fst_apply (i : Fin 4) (acc : FVec Ideal S8x112 .f32 × FVec Ideal S8x112 .f32) (r : Fin 8) (q : Fin 112) :
    (tripF (F := Ideal) x0 x1 x2 (trK i) acc).1 (ix2 r q) = acc.1 (ix2 r q) + SA x0 x1 i r q := by
  unfold tripF SA
  dsimp only
  rw [pay4_apply]
  refine congrArg (acc.1 (ix2 r q) + ·) (Finset.sum_congr rfl fun j _ => ?_)
  show x0 ((rW (trK i)).idx (ix3 r q j)) * x1 ((rC (trK i)).idx (ix2 q j)) = _
  rw [rW_idx, rC_idx]

theorem tripF_snd_apply (i : Fin 4) (acc : FVec Ideal S8x112 .f32 × FVec Ideal S8x112 .f32) (r : Fin 8) (q : Fin 112) :
    (tripF (F := Ideal) x0 x1 x2 (trK i) acc).2 (ix2 r q) = acc.2 (ix2 r q) + SM x0 x2 i r q := by
  unfold tripF SM
  dsimp only
  rw [pay5_apply]
  refine congrArg (acc.2 (ix2 r q) + ·) (Finset.sum_congr rfl fun j _ => ?_)
  show x0 ((rW (trK i)).idx (ix3 r q j)) * x2 ((rM (trK i)).idx (ix2 (0 : Fin 1) j)) = _
  rw [rW_idx, rM_idx]

theorem hz : (![0, 0] : Fin 2 → Nat) = fun _ => 0 := funext fun a => by fin_cases a <;> rfl

/-- The four trips in order, from the zero blocks. -/
theorem stF_trips :
    stF (F := Ideal) x0 x1 x2 k1_t1_loop.trips
      = tripF x0 x1 x2 (trK 3) (tripF x0 x1 x2 (trK 2) (tripF x0 x1 x2 (trK 1) (tripF x0 x1 x2 (trK 0) (k1_pay1, k1_pay2)))) := by
  rw [trips_eq]
  exact (stF_succ x0 x1 x2 (trK 3)).trans (congrArg (tripF x0 x1 x2 (trK 3))
    ((stF_succ x0 x1 x2 (trK 2)).trans (congrArg (tripF x0 x1 x2 (trK 2))
      ((stF_succ x0 x1 x2 (trK 1)).trans (congrArg (tripF x0 x1 x2 (trK 1))
        (stF_succ x0 x1 x2 (trK 0)))))))

/-- Output window 3 at `(r, q)`: the four chunk sums against the concepts accumulated from zero, in order. -/
theorem out1_3_apply (r : Fin 8) (q : Fin 112) :
    out1_3 (F := Ideal) x0 x1 x2 (ix2 r q) = (((0 + SA x0 x1 0 r q) + SA x0 x1 1 r q) + SA x0 x1 2 r q) + SA x0 x1 3 r q := by
  unfold out1_3
  rw [View.canon_unit_zero hz, stF_trips, tripF_fst_apply, tripF_fst_apply, tripF_fst_apply, tripF_fst_apply]
  show k1_pay1 (F := Ideal) (ix2 r q) + _ + _ + _ + _ = _
  rw [pay1_apply]

/-- Output window 4 at `(r, q)`: the same against the modulation row. -/
theorem out1_4_apply (r : Fin 8) (q : Fin 112) :
    out1_4 (F := Ideal) x0 x1 x2 (ix2 r q) = (((0 + SM x0 x2 0 r q) + SM x0 x2 1 r q) + SM x0 x2 2 r q) + SM x0 x2 3 r q := by
  unfold out1_4
  rw [View.canon_unit_zero hz, stF_trips, tripF_snd_apply, tripF_snd_apply, tripF_snd_apply, tripF_snd_apply]
  show k1_pay2 (F := Ideal) (ix2 r q) + _ + _ + _ + _ = _
  rw [pay2_apply]

end Cert.KernelIdeal.R1
end
-- ==== Proof.Region1ValueArr.lean ====
import proofs.«175620_j7894149890693_2_alg».proof.Proof.Region1Value

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal.Gen
open scoped BigOperators

/-!
# The second kernel at the ideal values: from the blocks to the two result arrays

Point `t` of the 25 reads rows `8t … 8t+7` of the weight array and the whole concepts and modulation arrays, and
writes back rows `8t … 8t+7` of each result. So entry `(o, k)` of a result is written by point `o / 8` and holds the
four chunk sums over the channel axis of weight row `(o, k, ·)` against concept row `(k, ·)`, or against the
modulation row, accumulated from zero in order.
-/

/-- What result 0 ends holding, index by index, from the weight array and the concepts; -/
def GA (A : S200x112x2048.Idx → EReal) (B : S112x2048.Idx → EReal) : S200x112.Idx → EReal := fun i =>
  (((0 + SA A B 0 (i 0) (i 1)) + SA A B 1 (i 0) (i 1)) + SA A B 2 (i 0) (i 1)) + SA A B 3 (i 0) (i 1)
/-- and result 1, from the weight array and the modulation row. -/
def GM (A : S200x112x2048.Idx → EReal) (C : S1x2048.Idx → EReal) : S200x112.Idx → EReal := fun i =>
  (((0 + SM A C 0 (i 0) (i 1)) + SM A C 1 (i 0) (i 1)) + SM A C 2 (i 0) (i 1)) + SM A C 3 (i 0) (i 1)

/-- An output block entry is the array function's entry once the input blocks' rows are the arrays' rows. -/
theorem out1_3_eq_GA (x0 : Vec Ideal S8x112x2048 .f32) (x1 : Vec Ideal S112x2048 .f32) (x2 : Vec Ideal S1x2048 .f32)
    (A : S200x112x2048.Idx → EReal) (B : S112x2048.Idx → EReal) (y : S8x112.Idx) (i : S200x112.Idx)
    (h0 : ∀ ch : Fin 2048, x0 (ix3 (n0 := 8) (n1 := 112) (n2 := 2048) (y 0) (y 1) ch) = A (ix3 (n0 := 200) (n1 := 112) (n2 := 2048) (i 0) (i 1) ch))
    (h1 : ∀ ch : Fin 2048, x1 (ix2 (n0 := 112) (n1 := 2048) (y 1) ch) = B (ix2 (n0 := 112) (n1 := 2048) (i 1) ch)) :
    out1_3 (F := Ideal) x0 x1 x2 y = GA A B i := by
  have hy : y = ix2 (n0 := 8) (n1 := 112) (y 0) (y 1) := eq_ix2 y
  refine (congrArg (out1_3 (F := Ideal) x0 x1 x2) hy).trans ((out1_3_apply x0 x1 x2 (y 0) (y 1)).trans ?_)
  unfold GA SA
  simp only [h0, h1]

theorem out1_4_eq_GM (x0 : Vec Ideal S8x112x2048 .f32) (x1 : Vec Ideal S112x2048 .f32) (x2 : Vec Ideal S1x2048 .f32)
    (A : S200x112x2048.Idx → EReal) (C : S1x2048.Idx → EReal) (y : S8x112.Idx) (i : S200x112.Idx)
    (h0 : ∀ ch : Fin 2048, x0 (ix3 (n0 := 8) (n1 := 112) (n2 := 2048) (y 0) (y 1) ch) = A (ix3 (n0 := 200) (n1 := 112) (n2 := 2048) (i 0) (i 1) ch))
    (h2 : ∀ ch : Fin 2048, x2 (ix2 (0 : Fin 1) ch) = C (ix2 (0 : Fin 1) ch)) :
    out1_4 (F := Ideal) x0 x1 x2 y = GM A C i := by
  have hy : y = ix2 (n0 := 8) (n1 := 112) (y 0) (y 1) := eq_ix2 y
  refine (congrArg (out1_4 (F := Ideal) x0 x1 x2) hy).trans ((out1_4_apply x0 x1 x2 (y 0) (y 1)).trans ?_)
  unfold GM SM
  simp only [h0, h2]

section Regions
variable (V : (c : Dev nD) → (b : Ref sig .tc) → Buf (Elt Ideal) ((c : Thread nD τ).loc b))

/-- The printed index maps, decided over the grid: the weight window and the two result windows sit at row block `t`,
    the concepts and the modulation at their one block. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The weight window's block at point `t` is rows `8t … 8t+7` of the weight array. -/
theorem iblk1_0_apply (c : Dev nD) (t : Fin cfg1.N) (x : S8x112x2048.Idx) (k : S200x112x2048.Idx)
    (hk0 : (k 0).val = 8 * t.val + (x 0).val) (hk1 : (k 1).val = (x 1).val) (hk2 : (k 2).val = (x 2).val) :
    (iblk1 V c 0 t : Vec Ideal S8x112x2048 .f32) x = (V c main_v4 : S200x112x2048.Idx → EReal) k := by
  obtain ⟨e0, e1, e2, -⟩ := idx_facts1 t
  unfold iblk1
  rw [View.read_apply]
  show V c main_v4 _ = V c main_v4 _
  congr 1
  funext a
  apply Fin.ext
  match a with
  | ⟨0, _⟩ => show win1_0.index t 0 * 8 + 1 * (x 0).val = (k 0).val; rw [e0, hk0]; omega
  | ⟨1, _⟩ => show win1_0.index t 1 * 112 + 1 * (x 1).val = (k 1).val; rw [e1, hk1]; omega
  | ⟨2, _⟩ => show win1_0.index t 2 * 2048 + 1 * (x 2).val = (k 2).val; rw [e2, hk2]; omega

/-- The concepts window's block is the concepts array. -/
theorem iblk1_1_apply (c : Dev nD) (t : Fin cfg1.N) (x : S112x2048.Idx) (k : S112x2048.Idx)
    (hk0 : (k 0).val = (x 0).val) (hk1 : (k 1).val = (x 1).val) :
    (iblk1 V c 1 t : Vec Ideal S112x2048 .f32) x = (V c main_arg1 : S112x2048.Idx → EReal) k := by
  obtain ⟨-, -, -, e3, e4, -⟩ := idx_facts1 t
  unfold iblk1
  rw [View.read_apply]
  show V c main_arg1 _ = V c main_arg1 _
  congr 1
  funext a
  apply Fin.ext
  match a with
  | ⟨0, _⟩ => show win1_1.index t 0 * 112 + 1 * (x 0).val = (k 0).val; rw [e3, hk0]; omega
  | ⟨1, _⟩ => show win1_1.index t 1 * 2048 + 1 * (x 1).val = (k 1).val; rw [e4, hk1]; omega

/-- The modulation window's block is the modulation row. -/
theorem iblk1_2_apply (c : Dev nD) (t : Fin cfg1.N) (x : S1x2048.Idx) (k : S1x2048.Idx)
    (hk0 : (k 0).val = (x 0).val) (hk1 : (k 1).val = (x 1).val) :
    (iblk1 V c 2 t : Vec Ideal S1x2048 .f32) x = (V c main_arg2 : S1x2048.Idx → EReal) k := by
  obtain ⟨-, -, -, -, -, e5, e6, -⟩ := idx_facts1 t
  unfold iblk1
  rw [View.read_apply]
  show V c main_arg2 _ = V c main_arg2 _
  congr 1
  funext a
  apply Fin.ext
  match a with
  | ⟨0, _⟩ => show win1_2.index t 0 * 1 + 1 * (x 0).val = (k 0).val; rw [e5, hk0]; omega
  | ⟨1, _⟩ => show win1_2.index t 1 * 2048 + 1 * (x 1).val = (k 1).val; rw [e6, hk1]; omega

/-- What point `t` writes back of result 0 is block `t` of `GA` of the weight array and the concepts as the region finds them. -/
theorem flushed3_eq (c : Dev nD) (t : Fin cfg1.N) :
    (dat1 V c).flushed 3 t = ((cfg1.win 3).blk t).view.read (Elt Ideal) (GA (V c main_v4) (V c main_arg1)) := by
  show (cfg1.win 3).cut (grid1.coords t) ((dat1 V c).after 3 t) = _
  rw [after1_3]
  obtain ⟨e0, e1, e2, e3, e4, e5, e6, e7, e8, e9, e10⟩ := idx_facts1 t
  funext y
  show out1_3 (iblk1 V c 0 t) (iblk1 V c 1 t) (iblk1 V c 2 t) y
    = GA (V c main_v4) (V c main_arg1) (((cfg1.win 3).blk t).view.emb y)
  refine out1_3_eq_GA _ _ _ _ _ y _ (fun ch => ?_) (fun ch => ?_)
  · refine iblk1_0_apply V c t _ _ ?_ ?_ ?_
    · show win1_3.index t 0 * 8 + 1 * (y 0).val = 8 * t.val + (y 0).val; rw [e7]; omega
    · show win1_3.index t 1 * 112 + 1 * (y 1).val = (y 1).val; rw [e8]; omega
    · rfl
  · refine iblk1_1_apply V c t _ _ ?_ ?_
    · show win1_3.index t 1 * 112 + 1 * (y 1).val = (y 1).val; rw [e8]; omega
    · rfl

/-- and of result 1, block `t` of `GM` of the weight array and the modulation row. -/
theorem flushed4_eq (c : Dev nD) (t : Fin cfg1.N) :
    (dat1 V c).flushed 4 t = ((cfg1.win 4).blk t).view.read (Elt Ideal) (GM (V c main_v4) (V c main_arg2)) := by
  show (cfg1.win 4).cut (grid1.coords t) ((dat1 V c).after 4 t) = _
  rw [after1_4]
  obtain ⟨e0, e1, e2, e3, e4, e5, e6, e7, e8, e9, e10⟩ := idx_facts1 t
  funext y
  show out1_4 (iblk1 V c 0 t) (iblk1 V c 1 t) (iblk1 V c 2 t) y
    = GM (V c main_v4) (V c main_arg2) (((cfg1.win 4).blk t).view.emb y)
  refine out1_4_eq_GM _ _ _ _ _ y _ (fun ch => ?_) (fun ch => ?_)
  · refine iblk1_0_apply V c t _ _ ?_ ?_ ?_
    · show win1_4.index t 0 * 8 + 1 * (y 0).val = 8 * t.val + (y 0).val; rw [e9]; omega
    · show win1_4.index t 1 * 112 + 1 * (y 1).val = (y 1).val; rw [e10]; omega
    · rfl
  · refine iblk1_2_apply V c t _ _ ?_ ?_
    · rfl
    · rfl

/-- An index of a result array is in point `t`'s block iff each coordinate is in the block's range on its axis. -/
theorem mem_blk3 (t : Fin cfg1.N) (i : S200x112.Idx) :
    i ∈ ((cfg1.win 3).blk t).view.set ↔ ∀ a : Fin 2, win1_3.index t a * S8x112.size a ≤ (i a).val ∧ (i a).val < win1_3.index t a * S8x112.size a + S8x112.size a := by
  show i ∈ ((View.whole main_v5_0).slice (win1_3.rect t)).set ↔ _
  rw [View.set_slice_whole, Rect.mem_set_unit]
  exact Iff.rfl

theorem mem_blk4 (t : Fin cfg1.N) (i : S200x112.Idx) :
    i ∈ ((cfg1.win 4).blk t).view.set ↔ ∀ a : Fin 2, win1_4.index t a * S8x112.size a ≤ (i a).val ∧ (i a).val < win1_4.index t a * S8x112.size a + S8x112.size a := by
  show i ∈ ((View.whole main_v5_1).slice (win1_4.rect t)).set ↔ _
  rw [View.set_slice_whole, Rect.mem_set_unit]
  exact Iff.rfl

/-- Row `o` of a result is in the block of point `o / 8`. -/
theorem cover3 (i : S200x112.Idx) : ∃ t : Fin cfg1.N, (cfg1.win 3).flush t = true ∧ i ∈ ((cfg1.win 3).blk t).view.set := by
  have hi0 : (i 0).val < 200 := (i 0).isLt
  have hi1 : (i 1).val < 112 := (i 1).isLt
  have hN : cfg1.N = 25 := N_1
  have ht : (i 0).val / 8 < cfg1.N := by rw [hN]; omega
  refine ⟨⟨(i 0).val / 8, ht⟩, flush1_3 _, ?_⟩
  rw [mem_blk3]
  obtain ⟨-, -, -, -, -, -, -, e7, e8, -, -⟩ := idx_facts1 ⟨(i 0).val / 8, ht⟩
  intro a
  match a with
  | ⟨0, _⟩ =>
    show win1_3.index ⟨(i 0).val / 8, ht⟩ (0 : Fin 2) * 8 ≤ (i 0).val ∧ (i 0).val < win1_3.index ⟨(i 0).val / 8, ht⟩ (0 : Fin 2) * 8 + 8
    rw [e7]; show (i 0).val / 8 * 8 ≤ (i 0).val ∧ (i 0).val < (i 0).val / 8 * 8 + 8; omega
  | ⟨1, _⟩ =>
    show win1_3.index ⟨(i 0).val / 8, ht⟩ (1 : Fin 2) * 112 ≤ (i 1).val ∧ (i 1).val < win1_3.index ⟨(i 0).val / 8, ht⟩ (1 : Fin 2) * 112 + 112
    rw [e8]; omega

theorem cover4 (i : S200x112.Idx) : ∃ t : Fin cfg1.N, (cfg1.win 4).flush t = true ∧ i ∈ ((cfg1.win 4).blk t).view.set := by
  have hi0 : (i 0).val < 200 := (i 0).isLt
  have hi1 : (i 1).val < 112 := (i 1).isLt
  have hN : cfg1.N = 25 := N_1
  have ht : (i 0).val / 8 < cfg1.N := by rw [hN]; omega
  refine ⟨⟨(i 0).val / 8, ht⟩, flush1_4 _, ?_⟩
  rw [mem_blk4]
  obtain ⟨-, -, -, -, -, -, -, -, -, e9, e10⟩ := idx_facts1 ⟨(i 0).val / 8, ht⟩
  intro a
  match a with
  | ⟨0, _⟩ =>
    show win1_4.index ⟨(i 0).val / 8, ht⟩ (0 : Fin 2) * 8 ≤ (i 0).val ∧ (i 0).val < win1_4.index ⟨(i 0).val / 8, ht⟩ (0 : Fin 2) * 8 + 8
    rw [e9]; show (i 0).val / 8 * 8 ≤ (i 0).val ∧ (i 0).val < (i 0).val / 8 * 8 + 8; omega
  | ⟨1, _⟩ =>
    show win1_4.index ⟨(i 0).val / 8, ht⟩ (1 : Fin 2) * 112 ≤ (i 1).val ∧ (i 1).val < win1_4.index ⟨(i 0).val / 8, ht⟩ (1 : Fin 2) * 112 + 112
    rw [e10]; omega

/-- The result arrays after the region: `GA` / `GM` of the arrays as the region finds them. -/
theorem arr3_eq (c : Dev nD) : (dat1 V c).arrAt 3 cfg1.N = GA (V c main_v4) (V c main_arg1) :=
  (dat1 V c).arrAt_eq_of_cover 3 (GA (V c main_v4) (V c main_arg1)) (fun t _ => flushed3_eq V c t) cover3

theorem arr4_eq (c : Dev nD) : (dat1 V c).arrAt 4 cfg1.N = GM (V c main_v4) (V c main_arg2) :=
  (dat1 V c).arrAt_eq_of_cover 4 (GM (V c main_v4) (V c main_arg2)) (fun t _ => flushed4_eq V c t) cover4

/-- The result arrays at an index `(o, k)`: the four chunk sums accumulated from zero, in order. -/
theorem arr3_apply (c : Dev nD) (o : Fin 200) (k : Fin 112) :
    (dat1 V c).arrAt 3 cfg1.N (ix2 o k)
      = (((0 + SA (V c main_v4) (V c main_arg1) 0 o k) + SA (V c main_v4) (V c main_arg1) 1 o k)
          + SA (V c main_v4) (V c main_arg1) 2 o k) + SA (V c main_v4) (V c main_arg1) 3 o k := by
  rw [arr3_eq]; rfl

theorem arr4_apply (c : Dev nD) (o : Fin 200) (k : Fin 112) :
    (dat1 V c).arrAt 4 cfg1.N (ix2 o k)
      = (((0 + SM (V c main_v4) (V c main_arg2) 0 o k) + SM (V c main_v4) (V c main_arg2) 1 o k)
          + SM (V c main_v4) (V c main_arg2) 2 o k) + SM (V c main_v4) (V c main_arg2) 3 o k := by
  rw [arr4_eq]; rfl

end Regions

end Cert.KernelIdeal.R1
end
-- ==== Proof.KernelValue.lean ====
/-
  The kernel program's three results at the ideal instance, as the specification's functions of the argument arrays.

  The run ends with every unscoped buffer at the last valuation. Reading it back: result 0 is the first kernel's
  attention-map array reshaped; result 1 is its gate array; result 2 is the host tail over the gate array and the second
  kernel's two arrays. The first kernel's arrays are the specification's attention map and gate (each grid point's block
  is the body's function of batch rows 8t … 8t+7, and the blocks tile the arrays); the second kernel's arrays are the
  four accumulated chunk sums against the concepts and against the modulation.
-/
import proofs.«175620_j7894149890693_2_alg».proof.Proof.KernelRun
import proofs.«175620_j7894149890693_2_alg».proof.Proof.HostK
import proofs.«175620_j7894149890693_2_alg».proof.Proof.Region0Array
import proofs.«175620_j7894149890693_2_alg».proof.Proof.Region0Value
import proofs.«175620_j7894149890693_2_alg».proof.Proof.Region1ValueArr
import proofs.«175620_j7894149890693_2_alg».proof.Proof.InsK

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The first kernel's arrays -/

/-- The bias block's one entry. -/
theorem bias_entry : (Run.E1 m c main_arg5 : S1.Idx → EReal) (ix1 (0 : Fin 1)) = (insOf m c).bc :=
  congrFun (HostK.V1_arg5 m c) _

/-- The attention-map array the first kernel leaves is the specification's attention map. -/
theorem map_arr : HostK.o2_0 (Run.outs m) c = fun j => Cert.Spec.attn (insOf m c) (j 0) (j 1) (j 2) := by
  show Run.outs m 2 main_v2_0 c = _
  rw [Run.outs_map]
  exact R0A.arrMap (Run.E1 m) c (insOf m c)
    (fun b x0 x1 r hx0 hx1 k n => R0V.outMap_apply (insOf m c) b x0 x1 r hx0 hx1 k n) (HostK.V1_v0 m c) (HostK.V1_v1 m c)

/-- The gate array it leaves is the specification's gate, in the kernel's arrangement. -/
theorem gate_arr : HostK.o2_1 (Run.outs m) c = fun j => Cert.Spec.gateK (insOf m c) (j 0) (j 1) := by
  show Run.outs m 2 main_v2_1 c = _
  rw [Run.outs_gate]
  exact R0A.arrGate (Run.E1 m) c (insOf m c)
    (fun b x0 x1 x2 r hx0 hx1 hx2 k => R0V.outGate_apply (insOf m c) b x0 x1 x2 r hx0 hx1 hx2 k) (HostK.V1_v0 m c) (HostK.V1_v1 m c) (bias_entry m c)

theorem gate_at (b : Fin 128) (k : Fin 112) : HostK.o2_1 (Run.outs m) c (ix2 b k) = Cert.Spec.gateK (insOf m c) b k :=
  congrFun (gate_arr m c) (ix2 b k)

/-! ## The second kernel's arrays -/

/-- One chunk sum over the arrays the second kernel is entered from is the specification's chunk. -/
theorem chunkA_eq (o : Fin 200) (q : Fin 112) (i : Fin 4) :
    R1.SA (Run.E3 m c main_v4) (Run.E3 m c main_arg1) i o q = Cert.Spec.chunkA (insOf m c) o q i := by
  unfold R1.SA Cert.Spec.chunkA
  refine Finset.sum_congr rfl fun j _ => ?_
  have h4 := congrFun (HostK.V3_v4 m (Run.outsA m) c) (ix3 o q (Cert.Spec.ch i j))
  have h1 := congrFun (HostK.V3_arg1 m (Run.outsA m) c) (ix2 q (Cert.Spec.ch i j))
  exact congrArg₂ (· * ·) h4 h1
theorem chunkM_eq (o : Fin 200) (q : Fin 112) (i : Fin 4) :
    R1.SM (Run.E3 m c main_v4) (Run.E3 m c main_arg2) i o q = Cert.Spec.chunkM (insOf m c) o q i := by
  unfold R1.SM Cert.Spec.chunkM
  refine Finset.sum_congr rfl fun j _ => ?_
  have h4 := congrFun (HostK.V3_v4 m (Run.outsA m) c) (ix3 o q (Cert.Spec.ch i j))
  have h2 := congrFun (HostK.V3_arg2 m (Run.outsA m) c) (ix2 (0 : Fin 1) (Cert.Spec.ch i j))
  exact congrArg₂ (· * ·) h4 h2

/-- The second kernel's first array is the four chunks against the concepts, accumulated; -/
theorem A_at (o : Fin 200) (q : Fin 112) : HostK.o5_0 (Run.outs m) c (ix2 o q) = Cert.Spec.AK (insOf m c) o q := by
  show Run.outs m 4 main_v5_0 c (ix2 o q) = _
  rw [Run.outs_A, R1.arr3_apply (Run.E3 m) c o q, chunkA_eq, chunkA_eq, chunkA_eq, chunkA_eq]
  rfl
/-- its second the four chunks against the modulation. -/
theorem M_at (o : Fin 200) (q : Fin 112) : HostK.o5_1 (Run.outs m) c (ix2 o q) = Cert.Spec.MK (insOf m c) o q := by
  show Run.outs m 4 main_v5_1 c (ix2 o q) = _
  rw [Run.outs_M, R1.arr4_apply (Run.E3 m) c o q, chunkM_eq, chunkM_eq, chunkM_eq, chunkM_eq]
  rfl

/-! ## The three results off the last valuation -/

theorem v3_eq : (Gen.V5 m (Run.outs m) c main_v3 : S128x113x14x14.Idx → EReal)
    = fun j => Cert.Spec.score (insOf m c) (j 0) (j 1) (j 2) (j 3) := by
  refine (HostK.V5_v3 m (Run.outs m) c).trans ((HostK.V3_v3 m (Run.outs m) c).trans (funext fun j => ?_))
  exact congrFun (map_arr m c) _

theorem v2_1_eq : (Gen.V5 m (Run.outs m) c main_v2_1 : S128x112.Idx → EReal)
    = fun j => Cert.Spec.gateK (insOf m c) (j 0) (j 1) :=
  (HostK.V5_v2_1 m (Run.outs m) c).trans (gate_arr m c)

theorem v15_eq : (Gen.V5 m (Run.outs m) c main_v15 : S128x200.Idx → EReal)
    = fun j => Cert.Spec.labelK (insOf m c) (j 0) (j 1) := by
  refine (HostK.V5_v15 m (Run.outs m) c).trans (funext fun j => ?_)
  obtain ⟨b, o, rfl⟩ : ∃ (b : Fin 128) (o : Fin 200), j = ix2 b o := ⟨j 0, j 1, eq_ix2 j⟩
  show ((∑ k : Fin 112, HostK.o2_1 (Run.outs m) c (ix2 b k) * (HostK.o5_0 (Run.outs m) c (ix2 o k) - HostK.o5_1 (Run.outs m) c (ix2 o k)))
      + ∑ k : Fin 112, HostK.o5_1 (Run.outs m) c (ix2 o k)) + (insOf m c).bl o = Cert.Spec.labelK (insOf m c) b o
  unfold Cert.Spec.labelK
  simp only [gate_at, A_at, M_at]

/-! ## The run, read -/

/-- Every weakly fair execution of the kernel program at the ideal instance terminates with the three results at the
    specification's functions of the argument arrays (the gate and the label logits in the kernel's arrangement), the
    arguments unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = (fun j => Cert.Spec.score (insOf m c) (j 0) (j 1) (j 2) (j 3))
    ∧ r.2.mem ((c.tc : Thread nD τ).loc main_v2_1) = (fun j => Cert.Spec.gateK (insOf m c) (j 0) (j 1))
    ∧ r.2.mem ((c.tc : Thread nD τ).loc main_v15) = (fun j => Cert.Spec.labelK (insOf m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run (defs (F := Ideal)) _ _).mono (fun r h c =>
    ⟨(h c _ (Run.mem_uc main_v3 (by decide))).trans (v3_eq m c),
     (h c _ (Run.mem_uc main_v2_1 (by decide))).trans (v2_1_eq m c),
     (h c _ (Run.mem_uc main_v15 (by decide))).trans (v15_eq m c),
     (h c _ (Run.mem_uc main_arg0 (by decide))).trans (Gen.V5_main_arg0 m _ c),
     (h c _ (Run.mem_uc main_arg1 (by decide))).trans (Gen.V5_main_arg1 m _ c),
     (h c _ (Run.mem_uc main_arg2 (by decide))).trans (Gen.V5_main_arg2 m _ c),
     (h c _ (Run.mem_uc main_arg3 (by decide))).trans (Gen.V5_main_arg3 m _ c),
     (h c _ (Run.mem_uc main_arg4 (by decide))).trans (Gen.V5_main_arg4 m _ c),
     (h c _ (Run.mem_uc main_arg5 (by decide))).trans (Gen.V5_main_arg5 m _ c),
     (h c _ (Run.mem_uc main_arg6 (by decide))).trans (Gen.V5_main_arg6 m _ c),
     (h c _ (Run.mem_uc main_arg7 (by decide))).trans (Gen.V5_main_arg7 m _ c)⟩)
    (Run.run (F := Ideal) m ρ)

end Cert.KernelIdeal.KV

end
-- ==== Proof.BridgeReal.lean ====
/-
  Every intermediate value of the attention map is a real number when every entry of the argument arrays is:
  finite sums and products of reals are reals, the clamped square root and the exponential of a real are reals,
  the maximum of finitely many reals is one of them, and a sum of positive reals is positive, so the softmax
  quotient is a real too.
-/
import proofs.«175620_j7894149890693_2_alg».proof.Proof.Spec
import Mathlib.Algebra.BigOperators.Fin
import Mathlib.Algebra.Order.BigOperators.Group.Finset
import Mathlib.Data.Finset.Lattice.Fold
import Mathlib.Tactic

noncomputable section

open scoped BigOperators

namespace Cert.Spec

open Idealize.ShloMosaic

/-- The inclusion of the reals commutes with finite sums. -/
@[norm_cast] theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real. -/
def IsR (e : EReal) : Prop := ∃ r : ℝ, e = (r : EReal)

theorem IsR.coe (r : ℝ) : IsR (r : EReal) := ⟨r, rfl⟩
theorem IsR.add {a b : EReal} (ha : IsR a) (hb : IsR b) : IsR (a + b) := by
  obtain ⟨r, rfl⟩ := ha; obtain ⟨s, rfl⟩ := hb; exact ⟨r + s, (EReal.coe_add r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.neg {a : EReal} (ha : IsR a) : IsR (-a) := by
  obtain ⟨r, rfl⟩ := ha; exact ⟨-r, (EReal.coe_neg r).symm⟩
theorem IsR.sum {ι : Type*} (s : Finset ι) (f : ι → EReal) (hf : ∀ i, IsR (f i)) : IsR (∑ i ∈ s, f i) := by
  choose g hg using hf
  exact ⟨∑ i ∈ s, g i, by rw [coe_finset_sum]; exact Finset.sum_congr rfl (fun i _ => hg i)⟩

/-- The literal `1.0` is one, the literal `2.0` is two. -/
theorem one_eq : one = 1 := by
  rw [show (1 : EReal) = ((1 : ℝ) : EReal) by norm_cast]
  simp [one, Ideal.ofBits, Ideal.ieee, -EReal.coe_mul]; norm_num
theorem two_eq : two = ((2 : ℝ) : EReal) := by
  simp [two, Ideal.ofBits, Ideal.ieee, -EReal.coe_mul]; norm_num

variable (I : Ins) (h : I.Finite)
include h

theorem cwb_real (k : Fin 113) (c : Fin 2048) : IsR (cwb I k c) := by
  unfold cwb; split
  · exact h.cp _ _
  · exact h.bg _
theorem asq_real (k : Fin 113) : IsR (asq I k) := IsR.sum _ _ fun c => (cwb_real I h k c).mul (cwb_real I h k c)
theorem xsq_real (b : Fin 128) (n : Fin 196) : IsR (xsq I b n) := IsR.sum _ _ fun c => IsR.mul (h.x b c n) (h.x b c n)
theorem dots_real (b : Fin 128) (k : Fin 113) (n : Fin 196) : IsR (dots I b k n) :=
  IsR.sum _ _ fun c => (cwb_real I h k c).mul (h.x b c n)
theorem d2_real (b : Fin 128) (k : Fin 113) (n : Fin 196) : IsR (d2 I b k n) :=
  ((asq_real I h k).add (xsq_real I h b n)).sub ((two_eq ▸ IsR.coe 2).mul (dots_real I h b k n))
theorem nd_real (b : Fin 128) (k : Fin 113) (n : Fin 196) : IsR (nd I b k n) := by
  obtain ⟨r, hr⟩ := d2_real I h b k n
  refine IsR.neg ?_
  rw [hr, show max (r : EReal) 0 = ((max r 0 : ℝ) : EReal) from (EReal.coe_strictMono.monotone.map_max).symm,
    Ideal.sqrt_coe, if_neg (not_lt.mpr (le_max_right r 0))]
  exact IsR.coe _
theorem mx_real (b : Fin 128) (n : Fin 196) : IsR (mx I b n) := by
  obtain ⟨k, -, hk⟩ := Finset.exists_mem_eq_sup (Finset.univ : Finset (Fin 113)) ⟨0, Finset.mem_univ _⟩
    (fun k => nd I b k n)
  have : mx I b n = nd I b k n := hk
  rw [this]; exact nd_real I h b k n
/-- The shifted exponential is a positive real. -/
theorem ex_pos (b : Fin 128) (k : Fin 113) (n : Fin 196) : ∃ r : ℝ, 0 < r ∧ ex I b k n = (r : EReal) := by
  obtain ⟨r, hr⟩ := (nd_real I h b k n).sub (mx_real I h b n)
  exact ⟨Real.exp r, Real.exp_pos r, by rw [ex, hr, Ideal.exp_coe]⟩
theorem ssum_pos (b : Fin 128) (n : Fin 196) : ∃ r : ℝ, 0 < r ∧ ssum I b n = (r : EReal) := by
  choose e he0 he using fun k => ex_pos I h b k n
  refine ⟨∑ k : Fin 113, e k, Finset.sum_pos (fun k _ => he0 k) ⟨0, Finset.mem_univ _⟩, ?_⟩
  rw [coe_finset_sum]; exact Finset.sum_congr rfl (fun k _ => he k)
/-- The softmax entry is a real. -/
theorem attn_real (b : Fin 128) (k : Fin 113) (n : Fin 196) : IsR (attn I b k n) := by
  obtain ⟨e, -, he⟩ := ex_pos I h b k n
  obtain ⟨s, hs0, hs⟩ := ssum_pos I h b n
  rw [attn, he, hs, Ideal.div_coe hs0.ne']
  exact (IsR.coe e).mul (IsR.coe _)

end Cert.Spec

end
-- ==== Proof.Bridge.lean ====
/-
  The two arrangements of the gate and of the label logits agree when every entry of the argument arrays is a
  real number.

  The gate: both are the logistic function of one double sum, `Σ_n a_n·(Σ_c w_c·x_{c,n}) = Σ_c (Σ_n a_n·x_{c,n})·w_c`
  over the reals. The label logits: the flat feature axis is the product of the concept axis and the channel axis
  (`j = 2048·k + c`), the channel axis the product of four chunks of 512 (`c = 512·i + j`), and over the reals
  `Σ_k Σ_c (g_k·p_{k,c} + (1 − g_k)·m_c)·w_{k,c} = Σ_k g_k·(A_k − M_k) + Σ_k M_k` with
  `A_k = Σ_c w_{k,c}·p_{k,c}`, `M_k = Σ_c w_{k,c}·m_c`.
-/
import proofs.«175620_j7894149890693_2_alg».proof.Proof.BridgeReal

noncomputable section

open scoped BigOperators

namespace Cert.Spec

open Idealize.ShloMosaic

/-! ## The gate -/

/-- Exchanging the two contractions, for real families. -/
theorem gate_sum_exchange {ι κ : Type*} [Fintype ι] [Fintype κ] (a : ι → ℝ) (w : κ → ℝ) (x : κ → ι → ℝ) :
    (∑ n, (a n : EReal) * ∑ c, (w c : EReal) * (x c n : EReal))
      = ∑ c, (∑ n, (a n : EReal) * (x c n : EReal)) * (w c : EReal) := by
  have hr : (∑ n, a n * ∑ c, w c * x c n) = ∑ c, (∑ n, a n * x c n) * w c := by
    simp only [Finset.mul_sum, Finset.sum_mul]
    rw [Finset.sum_comm]
    exact Finset.sum_congr rfl fun c _ => Finset.sum_congr rfl fun n _ => by ring
  simp only [← EReal.coe_mul, ← coe_finset_sum]
  rw [hr]

/-- RESULT 1: the reference's arrangement of the gate is the kernel's. -/
theorem gateR_eq_gateK (I : Ins) (h : I.Finite) (b : Fin 128) (k : Fin 112) : gateR I b k = gateK I b k := by
  choose a ha using fun n => (attn_real I h b (lo k) n : ∃ r : ℝ, attn I b (lo k) n = (r : EReal))
  choose x hx using fun c n => h.x b c n
  choose w hw using h.wc
  have hsum : (∑ c : Fin 2048, repr I b k c * I.wc c) = ∑ n : Fin 196, attn I b (lo k) n * wx I b n := by
    simp only [repr, wx, ha, hx, hw]
    exact (gate_sum_exchange a w x).symm
  rw [gateR, gateK, hsum, one_eq, Ideal.logistic]

/-- The gate is a real number. -/
theorem gateK_real (I : Ins) (h : I.Finite) (b : Fin 128) (k : Fin 112) : IsR (gateK I b k) := by
  have hs : IsR ((∑ n : Fin 196, attn I b (lo k) n * wx I b n) + I.bc) :=
    (IsR.sum _ _ fun n => (attn_real I h b (lo k) n).mul
      (IsR.sum _ _ fun c => IsR.mul (h.wc c) (h.x b c n))).add h.bc
  obtain ⟨r, hr⟩ := hs
  rw [gateK, hr, Ideal.logistic_coe]; exact IsR.coe _

/-! ## The label logits -/

/-- The flat feature axis is the product of the concept axis and the channel axis. -/
def flEquiv : Fin 112 × Fin 2048 ≃ Fin 229376 where
  toFun p := fl p.1 p.2
  invFun j := (kOf j, cOf j)
  left_inv := by
    rintro ⟨k, c⟩
    refine Prod.ext (Fin.ext ?_) (Fin.ext ?_)
    · show (2048 * k.val + c.val) / 2048 = k.val
      omega
    · show (2048 * k.val + c.val) % 2048 = c.val
      omega
  right_inv := by
    intro j
    refine Fin.ext ?_
    show 2048 * (j.val / 2048) + j.val % 2048 = j.val
    omega

theorem kOf_fl (k : Fin 112) (c : Fin 2048) : kOf (fl k c) = k :=
  congrArg Prod.fst (flEquiv.left_inv (k, c))
theorem cOf_fl (k : Fin 112) (c : Fin 2048) : cOf (fl k c) = c :=
  congrArg Prod.snd (flEquiv.left_inv (k, c))

/-- A sum over the flat feature axis, concept by concept. -/
theorem sum_flat {M : Type*} [AddCommMonoid M] (F : Fin 229376 → M) :
    ∑ j, F j = ∑ k : Fin 112, ∑ c : Fin 2048, F (fl k c) :=
  calc ∑ j, F j = ∑ p : Fin 112 × Fin 2048, F (flEquiv p) := (Equiv.sum_comp flEquiv F).symm
    _ = ∑ k : Fin 112, ∑ c : Fin 2048, F (fl k c) := Fintype.sum_prod_type' (fun k c => F (fl k c))

/-- The channel axis is four chunks of 512. -/
def chEquiv : Fin 4 × Fin 512 ≃ Fin 2048 where
  toFun p := ch p.1 p.2
  invFun c := (⟨c.val / 512, by have := c.isLt; omega⟩, ⟨c.val % 512, by omega⟩)
  left_inv := by
    rintro ⟨i, j⟩
    refine Prod.ext (Fin.ext ?_) (Fin.ext ?_)
    · show (512 * i.val + j.val) / 512 = i.val
      omega
    · show (512 * i.val + j.val) % 512 = j.val
      omega
  right_inv := by
    intro c
    refine Fin.ext ?_
    show 512 * (c.val / 512) + c.val % 512 = c.val
    omega

/-- A sum over the channel axis as the four chunk sums accumulated from zero, in order. -/
theorem sum_chunks {M : Type*} [AddCommMonoid M] (G : Fin 2048 → M) :
    ∑ c, G c = (((0 + ∑ j : Fin 512, G (ch 0 j)) + ∑ j : Fin 512, G (ch 1 j)) + ∑ j : Fin 512, G (ch 2 j))
      + ∑ j : Fin 512, G (ch 3 j) :=
  calc ∑ c, G c = ∑ p : Fin 4 × Fin 512, G (chEquiv p) := (Equiv.sum_comp chEquiv G).symm
    _ = ∑ i : Fin 4, ∑ j : Fin 512, G (ch i j) := Fintype.sum_prod_type' (fun i j => G (ch i j))
    _ = _ := by rw [Fin.sum_univ_four, zero_add]

variable (I : Ins)

theorem AK_eq (o : Fin 200) (k : Fin 112) : AK I o k = ∑ c : Fin 2048, I.wl o (fl k c) * I.cp k c :=
  (sum_chunks (fun c => I.wl o (fl k c) * I.cp k c)).symm
theorem MK_eq (o : Fin 200) (k : Fin 112) : MK I o k = ∑ c : Fin 2048, I.wl o (fl k c) * I.md c :=
  (sum_chunks (fun c => I.wl o (fl k c) * I.md c)).symm

/-- The distribution over the reals. -/
theorem label_real {κ γ : Type*} [Fintype κ] [Fintype γ] (g : κ → ℝ) (p : κ → γ → ℝ) (m : γ → ℝ) (w : κ → γ → ℝ) :
    ∑ k, ∑ c, (g k * p k c + (1 - g k) * m c) * w k c
      = (∑ k, g k * ((∑ c, w k c * p k c) - ∑ c, w k c * m c)) + ∑ k, ∑ c, w k c * m c := by
  rw [← Finset.sum_add_distrib]
  refine Finset.sum_congr rfl fun k _ => ?_
  rw [← Finset.sum_sub_distrib, Finset.mul_sum, ← Finset.sum_add_distrib]
  exact Finset.sum_congr rfl fun c _ => by ring

/-- The same on the extended reals, for real families. -/
theorem label_ereal {κ γ : Type*} [Fintype κ] [Fintype γ] (g : κ → ℝ) (p : κ → γ → ℝ) (m : γ → ℝ) (w : κ → γ → ℝ) :
    ∑ k, ∑ c, ((g k : EReal) * (p k c : EReal) + ((1 : EReal) - (g k : EReal)) * (m c : EReal)) * (w k c : EReal)
      = (∑ k, (g k : EReal) * ((∑ c, (w k c : EReal) * (p k c : EReal)) - ∑ c, (w k c : EReal) * (m c : EReal)))
        + ∑ k, ∑ c, (w k c : EReal) * (m c : EReal) := by
  have hr := congrArg (fun r : ℝ => (r : EReal)) (label_real g p m w)
  simpa only [coe_finset_sum, EReal.coe_add, EReal.coe_mul, EReal.coe_sub, EReal.coe_one] using hr

/-- RESULT 2: the reference's arrangement of the label logits is the kernel's. -/
theorem labelR_eq_labelK (h : I.Finite) (b : Fin 128) (o : Fin 200) : labelR I b o = labelK I b o := by
  choose g hg using fun k => (gateK_real I h b k : ∃ r : ℝ, gateK I b k = (r : EReal))
  choose p hp using h.cp
  choose m hm using h.md
  choose w hw using fun (k : Fin 112) (c : Fin 2048) => h.wl o (fl k c)
  rw [labelR, labelK, sum_flat]
  simp only [kOf_fl, cOf_fl, mixed, gateR_eq_gateK I h, AK_eq, MK_eq, one_eq, hg, hp, hm, hw]
  rw [label_ereal]

end Cert.Spec

end
-- ==== Proof.FiniteIn.lean ====
/-
  Every entry of the argument arrays of a memory the precondition holds of is a real number: the precondition says of
  each array that the absolute value of every entry is below `+∞`, and an extended real with that property is neither
  infinity.
-/
import proofs.«175620_j7894149890693_2_alg».proof.Proof.InsK
import Idealize.ShloMosaic.Lib.ReduceAll
import Idealize.ShloMosaic.Lib.IdealHost

noncomputable section

namespace Cert.KernelIdeal.FiniteIn

open Idealize.ShloMosaic Idealize.SL.Sem Idealize.ShloMosaic.ValueIdx

/-- The scalar shape has one index. -/
instance : Subsingleton Cert.Pre_finite_inputs.S_.Idx := ⟨fun a b => funext fun d => d.elim0⟩

/-- The pattern the precondition compares against denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One array of the precondition: if "every entry's absolute value is below `+∞`" holds of it, every entry is a real. -/
theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (h : Host.reduce IntOp.andi
        (cmpf .olt (Host.absf a) (broadcastInDim s ![] hb (constant (F := Ideal) Cert.Pre_finite_inputs.S_ .f32 0x7F800000#32)))
        (constantI Cert.Pre_finite_inputs.S_ 1 1#1) hr hS ix0 = 1#1)
    (i : s.Idx) : ∃ r : ℝ, a i = (r : EReal) :=
  real_of_abs_lt_top (a i) (Host.reduce_andi_all _ _ hr hS ix0 h i)

/-- The precondition gives every entry of every argument array as a real number. -/
theorem finite_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.insOf m c).Finite := by
  have h0 := congrFun (h c) ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have f0 := finite_of_all _ _ _ _ e0
  have f1 := finite_of_all _ _ _ _ e1
  have f2 := finite_of_all _ _ _ _ e2
  have f3 := finite_of_all _ _ _ _ e3
  have f4 := finite_of_all _ _ _ _ e4
  have f5 := finite_of_all _ _ _ _ e5
  have f6 := finite_of_all _ _ _ _ e6
  have f7 := finite_of_all _ _ _ _ e7
  exact ⟨fun _ _ _ => f0 _, fun _ _ => f1 _, fun _ => f2 _, fun _ => f3 _, fun _ => f4 _, f5 _, fun _ _ => f6 _, fun _ => f7 _⟩

end Cert.KernelIdeal.FiniteIn

end
-- ==== Proof.lean ====
/-
  The certificate: a two-kernel program (an attention kernel over eight batch rows per grid point, then a kernel
  accumulating the label weight against the concepts and against the modulation in four channel chunks, with a small
  host tail) against its plain array reference.

  The three frames: each program runs to the end, faults nowhere and leaves its arguments unchanged — the kernel
  program's run is assembled segment by segment (host stretch, kernel, host stretch, kernel, host stretch), once at
  the word level and once at the ideal instance; the reference's is its run with the results dropped.

  The idealization rewrote nothing, so there is nothing to preserve.

  Equality of results at the ideal instance. Result 0 (the attention map, a softmax over the 113 rows of minus the
  clamped Euclidean distance) is computed the same way by both programs. Result 1 (the gate) and result 2 (the label
  logits) are two arrangements of the same finite sums: the kernel contracts the channel axis before the position
  axis, and splits the label contraction into `Σ_k g_k·(A_k − M_k) + Σ_k M_k`, where the reference mixes first and
  contracts once. Exchanging and distributing finite sums is sound on the extended reals once every entry is a real
  number, which is what the precondition says of the inputs and what the softmax and the logistic preserve.
-/
import proofs.«175620_j7894149890693_2_alg».proof.Defs
import proofs.«175620_j7894149890693_2_alg».proof.Proof.Gen.Kernel
import proofs.«175620_j7894149890693_2_alg».proof.Proof.Gen.KernelIdeal
import proofs.«175620_j7894149890693_2_alg».proof.Proof.Gen.ReferenceIdeal
import proofs.«175620_j7894149890693_2_alg».proof.Proof.Gen.Pre_finite_inputs
import proofs.«175620_j7894149890693_2_alg».proof.Proof.Frames
import proofs.«175620_j7894149890693_2_alg».proof.Proof.KernelValue
import proofs.«175620_j7894149890693_2_alg».proof.Proof.RefValue
import proofs.«175620_j7894149890693_2_alg».proof.Proof.Bridge
import proofs.«175620_j7894149890693_2_alg».proof.Proof.FiniteIn

noncomputable section

namespace Cert.Proof

open Idealize.ShloMosaic Idealize.SL.Sem

/-- The idealization rewrote no operation. -/
theorem preserves : Cert.preserves_Kernel_KernelIdeal := trivial

/-- From memories agreeing on the arguments both idealized programs run, and end with equal results: the kernel
    program's in its own arrangement, the reference's in the other, equal because every input entry is real. -/
theorem algebraic : Cert.algebraic_KernelIdeal_ReferenceIdeal := by
  intro m ρ m' ρ' hpre hagree
  refine ⟨fun c => fun j => Cert.Spec.score (Cert.KernelIdeal.insOf m c) (j 0) (j 1) (j 2) (j 3),
    fun c => fun j => Cert.Spec.gateK (Cert.KernelIdeal.insOf m c) (j 0) (j 1),
    fun c => fun j => Cert.Spec.labelK (Cert.KernelIdeal.insOf m c) (j 0) (j 1),
    Cert.KernelIdeal.KV.kernel_run m ρ, ?_⟩
  refine (θ_run (Cert.ReferenceIdeal.defs (F := Ideal)) _ _).mono (fun r h c => ?_) (Cert.ReferenceIdeal.RefValue.ref_run m' ρ')
  have hI : Cert.ReferenceIdeal.RefValue.insOf m' c = Cert.KernelIdeal.insOf m c := by
    unfold Cert.ReferenceIdeal.RefValue.insOf Cert.KernelIdeal.insOf
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
  have hfin := Cert.KernelIdeal.FiniteIn.finite_of_pre m hpre c
  obtain ⟨h0, h1, h2, hargs⟩ := h c
  refine ⟨?_, ?_, ?_, hargs⟩
  · rw [h0, hI]
    rfl
  · rw [h1, hI]
    exact funext fun j => Cert.Spec.gateR_eq_gateK _ hfin _ _
  · rw [h2, hI]
    exact funext fun j => Cert.Spec.labelR_eq_labelK _ hfin _ _

theorem claim : Cert.Claim :=
  ⟨Cert.Kernel.Gen.facts, Cert.KernelIdeal.Gen.facts, Cert.ReferenceIdeal.Gen.facts, Cert.Pre_finite_inputs.Gen.facts,
    Cert.Proof.Frames.frame_p, Cert.Proof.Frames.frame_pi, Cert.Proof.Frames.frame_ri, preserves, algebraic⟩

end Cert.Proof

end
